-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16777216 : Shape := ⟨2, ![1, 16777216]⟩
abbrev S_ : Shape := ⟨0, ![]⟩

class Facts : Prop where
  bcast_S_S1x16777216 : S_.BroadcastsInDim S1x16777216 (![] : Fin 0 → Fin S1x16777216.rank)
  reducesTo_S1x16777216_S_d0_1 : S1x16777216.ReducesTo [0, 1] S_
  h_S_ : 0 < S_.numel

variable [Facts]

def fn_part1 {F : FTy → Type} [FloatOps F] (main_v13 : IVec S_ 1) (main_v16 : IVec S1x16777216 1) : IVec S_ 1 :=
  let main_c_5 : IVec S_ 1 := constantI S_ 1 1#1
  let main_v17 : IVec S_ 1 := (fun x v => Host.reduce IntOp.andi x v reducesTo_S1x16777216_S_d0_1 h_S_) main_v16 main_c_5
  let main_v18 : IVec S_ 1 := andi main_v13 main_v17
  main_v18

def fn {F : FTy → Type} [FloatOps F] (main_arg0 : FVec F S1x16777216 .f32) (main_arg1 : FVec F S1x16777216 .f32) (main_arg2 : FVec F S1x16777216 .f32) (main_arg3 : FVec F S1x16777216 .f32) : IVec S_ 1 :=
  let main_v0 : FVec F S1x16777216 .f32 := Host.absf main_arg0
  let main_cst : FVec F S_ .f32 := constant S_ .f32 0x7F800000#32
  let main_v1 : FVec F S1x16777216 .f32 := broadcastInDim S1x16777216 ![] bcast_S_S1x16777216 main_cst
  let main_v2 : IVec S1x16777216 1 := cmpf .olt main_v0 main_v1
  let main_c : IVec S_ 1 := constantI S_ 1 1#1
  let main_v3 : IVec S_ 1 := (fun x v => Host.reduce IntOp.andi x v reducesTo_S1x16777216_S_d0_1 h_S_) main_v2 main_c
  let main_v4 : FVec F S1x16777216 .f32 := Host.absf main_arg1
  let main_cst_0 : FVec F S_ .f32 := constant S_ .f32 0x7F800000#32
  let main_v5 : FVec F S1x16777216 .f32 := broadcastInDim S1x16777216 ![] bcast_S_S1x16777216 main_cst_0
  let main_v6 : IVec S1x16777216 1 := cmpf .olt main_v4 main_v5
  let main_c_1 : IVec S_ 1 := constantI S_ 1 1#1
  let main_v7 : IVec S_ 1 := (fun x v => Host.reduce IntOp.andi x v reducesTo_S1x16777216_S_d0_1 h_S_) main_v6 main_c_1
  let main_v8 : IVec S_ 1 := andi main_v3 main_v7
  let main_v9 : FVec F S1x16777216 .f32 := Host.absf main_arg2
  let main_cst_2 : FVec F S_ .f32 := constant S_ .f32 0x7F800000#32
  let main_v10 : FVec F S1x16777216 .f32 := broadcastInDim S1x16777216 ![] bcast_S_S1x16777216 main_cst_2
  let main_v11 : IVec S1x16777216 1 := cmpf .olt main_v9 main_v10
  let main_c_3 : IVec S_ 1 := constantI S_ 1 1#1
  let main_v12 : IVec S_ 1 := (fun x v => Host.reduce IntOp.andi x v reducesTo_S1x16777216_S_d0_1 h_S_) main_v11 main_c_3
  let main_v13 : IVec S_ 1 := andi main_v8 main_v12
  let main_v14 : FVec F S1x16777216 .f32 := Host.absf main_arg3
  let main_cst_4 : FVec F S_ .f32 := constant S_ .f32 0x7F800000#32
  let main_v15 : FVec F S1x16777216 .f32 := broadcastInDim S1x16777216 ![] bcast_S_S1x16777216 main_cst_4
  let main_v16 : IVec S1x16777216 1 := cmpf .olt main_v14 main_v15
  fn_part1 (F := F) main_v13 main_v16
-- ==== Kernel.lean ====
abbrev S1x16777216 : Shape := ⟨2, ![1, 16777216]⟩
abbrev S131072x128 : Shape := ⟨2, ![131072, 128]⟩
abbrev S2x1x128 : Shape := ⟨3, ![2, 1, 128]⟩
abbrev S8192x128 : Shape := ⟨2, ![8192, 128]⟩
abbrev S1x1x128 : Shape := ⟨3, ![1, 1, 128]⟩
abbrev S1x1 : Shape := ⟨2, ![1, 1]⟩
abbrev S1024x128 : Shape := ⟨2, ![1024, 128]⟩
abbrev S1024 : Shape := ⟨1, ![1024]⟩
abbrev S1024x1 : Shape := ⟨2, ![1024, 1]⟩
abbrev S1 : Shape := ⟨1, ![1]⟩
abbrev S1x1x1 : Shape := ⟨3, ![1, 1, 1]⟩
abbrev S_ : Shape := ⟨0, ![]⟩
abbrev S6 : Shape := ⟨1, ![6]⟩
abbrev S1x6 : Shape := ⟨2, ![1, 6]⟩
abbrev S1x16777222 : Shape := ⟨2, ![1, 16777222]⟩

abbrev nBuf : Space → Nat
  | .hbm => 53
  | .vmem => 26
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S1x16777216, .f32⟩
  | .hbm, ⟨4, _⟩ => ⟨S131072x128, .f32⟩
  | .hbm, ⟨5, _⟩ => ⟨S131072x128, .f32⟩
  | .hbm, ⟨6, _⟩ => ⟨S131072x128, .f32⟩
  | .hbm, ⟨7, _⟩ => ⟨S131072x128, .f32⟩
  | .hbm, ⟨8, _⟩ => ⟨S2x1x128, .f32⟩
  | .hbm, ⟨9, _⟩ => ⟨S2x1x128, .f32⟩
  | .hbm, ⟨10, _⟩ => ⟨S2x1x128, .f32⟩
  | .hbm, ⟨11, _⟩ => ⟨S2x1x128, .f32⟩
  | .hbm, ⟨12, _⟩ => ⟨S2x1x128, .f32⟩
  | .hbm, ⟨13, _⟩ => ⟨S2x1x128, .f32⟩
  | .hbm, ⟨14, _⟩ => ⟨S1x1x1, .f32⟩
  | .hbm, ⟨15, _⟩ => ⟨S_, .f32⟩
  | .hbm, ⟨16, _⟩ => ⟨S1x1x1, .f32⟩
  | .hbm, ⟨17, _⟩ => ⟨S_, .f32⟩
  | .hbm, ⟨18, _⟩ => ⟨S_, .f32⟩
  | .hbm, ⟨19, _⟩ => ⟨S1x1x1, .f32⟩
  | .hbm, ⟨20, _⟩ => ⟨S_, .f32⟩
  | .hbm, ⟨21, _⟩ => ⟨S1x1x1, .f32⟩
  | .hbm, ⟨22, _⟩ => ⟨S_, .f32⟩
  | .hbm, ⟨23, _⟩ => ⟨S_, .f32⟩
  | .hbm, ⟨24, _⟩ => ⟨S1x1x1, .f32⟩
  | .hbm, ⟨25, _⟩ => ⟨S_, .f32⟩
  | .hbm, ⟨26, _⟩ => ⟨S1x1x1, .f32⟩
  | .hbm, ⟨27, _⟩ => ⟨S_, .f32⟩
  | .hbm, ⟨28, _⟩ => ⟨S_, .f32⟩
  | .hbm, ⟨29, _⟩ => ⟨S1x1x1, .f32⟩
  | .hbm, ⟨30, _⟩ => ⟨S_, .f32⟩
  | .hbm, ⟨31, _⟩ => ⟨S1x1x1, .f32⟩
  | .hbm, ⟨32, _⟩ => ⟨S_, .f32⟩
  | .hbm, ⟨33, _⟩ => ⟨S_, .f32⟩
  | .hbm, ⟨34, _⟩ => ⟨S1x1x1, .f32⟩
  | .hbm, ⟨35, _⟩ => ⟨S_, .f32⟩
  | .hbm, ⟨36, _⟩ => ⟨S1x1x1, .f32⟩
  | .hbm, ⟨37, _⟩ => ⟨S_, .f32⟩
  | .hbm, ⟨38, _⟩ => ⟨S_, .f32⟩
  | .hbm, ⟨39, _⟩ => ⟨S1x1x1, .f32⟩
  | .hbm, ⟨40, _⟩ => ⟨S_, .f32⟩
  | .hbm, ⟨41, _⟩ => ⟨S1x1x1, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S1, .f32⟩
  | .hbm, ⟨50, _⟩ => ⟨S6, .f32⟩
  | .hbm, ⟨51, _⟩ => ⟨S1x6, .f32⟩
  | .hbm, ⟨52, _⟩ => ⟨S1x16777222, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | _, _ => ⟨S1x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg18 : BitVec 32 := Scf.iv c0_i32_1 c1_i32 k0_t1
  let c1024_i32 : BitVec 32 := 1024#32
  let v39 : BitVec 32 := Scalar.muli arg18 c1024_i32
  v39
def k0_off1 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let c1024_i32 : BitVec 32 := 1024#32
  let v39 : BitVec 32 := Scalar.muli arg18 c1024_i32
  let v40 : BitVec 32 := v39
  let v41 : Index := Scalar.indexCast v40
  let c0_27 : Index := 0#32
  ![v41.toNat, 0]
def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_26 : BitVec 32 := 0#32
  let v38 : BitVec 1 := Scalar.cmpi .ne v37 c0_i32_26
  v38

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S1x16777216_S131072x128 : S1x16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  bcast_S_S1 : S_.BroadcastsInDim S1 (![] : Fin 0 → Fin S1.rank)
  concatenates_S1_S1_S1_S1_S1_S1_S6_d0 : Shape.Concatenates [S1, S1, S1, S1, S1, S1] S6 0
  shapeCasts_S6_S1x6 : S6.ShapeCasts S1x6
  concatenates_S1x16777216_S1x6_S1x16777222_d1 : Shape.Concatenates [S1x16777216, S1x6] S1x16777222 1
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S131072x128.size a
  hwx0_3 : ∀ i : grid0.Coords, EltTy.bits .f32 = 32 ∨ (Rect.block (s := S131072x128) S8192x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S2x1x128.size a
  hwx0_8 : ∀ i : grid0.Coords, EltTy.bits .f32 = 32 ∨ (Rect.block (s := S2x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S2x1x128.size a
  hwx0_9 : ∀ i : grid0.Coords, EltTy.bits .f32 = 32 ∨ (Rect.block (s := S2x1x128) S1x1x128.size (cc0_transform_9 i) (hinb0_9 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_4) S1x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_5) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | 7 => fun i => !(k0_cond2 i == 1#1) | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1x16777216 : Shape := ⟨2, ![1, 16777216]⟩
abbrev S6 : Shape := ⟨1, ![6]⟩
abbrev S1x67108864 : Shape := ⟨2, ![1, 67108864]⟩
abbrev S1x4x16777216 : Shape := ⟨3, ![1, 4, 16777216]⟩
abbrev S1x4x4 : Shape := ⟨3, ![1, 4, 4]⟩
abbrev S_ : Shape := ⟨0, ![]⟩
abbrev S6x1 : Shape := ⟨2, ![6, 1]⟩
abbrev S6x2 : Shape := ⟨2, ![6, 2]⟩
abbrev S1x6 : Shape := ⟨2, ![1, 6]⟩
abbrev S1x16777222 : Shape := ⟨2, ![1, 16777222]⟩

abbrev nBuf : Space → Nat
  | .hbm => 24
  | .vmem => 0
  | .smem => 0
  | _ => 0

abbrev bufTy : (tb : Table) → Fin (tcTables nBuf tb) → BufTy
  | .hbm, ⟨0, _⟩ => ⟨S1x16777216, .f32⟩
  | .hbm, ⟨1, _⟩ => ⟨S1x16777216, .f32⟩
  | .hbm, ⟨2, _⟩ => ⟨S1x16777216, .f32⟩
  | .hbm, ⟨3, _⟩ => ⟨S1x16777216, .f32⟩
  | .hbm, ⟨4, _⟩ => ⟨S6, .i32⟩
  | .hbm, ⟨5, _⟩ => ⟨S6, .i1⟩
  | .hbm, ⟨6, _⟩ => ⟨S6, .i32⟩
  | .hbm, ⟨7, _⟩ => ⟨S6, .i1⟩
  | .hbm, ⟨8, _⟩ => ⟨S1x67108864, .f32⟩
  | .hbm, ⟨9, _⟩ => ⟨S1x4x16777216, .f32⟩
  | .hbm, ⟨10, _⟩ => ⟨S1x4x4, .f32⟩
  | .hbm, ⟨11, _⟩ => ⟨S_, .i32⟩
  | .hbm, ⟨12, _⟩ => ⟨S6, .i32⟩
  | .hbm, ⟨13, _⟩ => ⟨S6, .i32⟩
  | .hbm, ⟨14, _⟩ => ⟨S6, .i32⟩
  | .hbm, ⟨15, _⟩ => ⟨S_, .i32⟩
  | .hbm, ⟨16, _⟩ => ⟨S6, .i32⟩
  | .hbm, ⟨17, _⟩ => ⟨S6, .i32⟩
  | .hbm, ⟨18, _⟩ => ⟨S6, .i32⟩
  | .hbm, ⟨19, _⟩ => ⟨S6x1, .i32⟩
  | .hbm, ⟨20, _⟩ => ⟨S6x1, .i32⟩
  | .hbm, ⟨21, _⟩ => ⟨S6x2, .i32⟩
  | .hbm, ⟨22, _⟩ => ⟨S1x6, .f32⟩
  | .hbm, ⟨23, _⟩ => ⟨S1x16777222, .f32⟩
  | _, _ => ⟨S1x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  concatenates_S1x16777216_S1x16777216_S1x16777216_S1x16777216_S1x67108864_d1 : Shape.Concatenates [S1x16777216, S1x16777216, S1x16777216, S1x16777216] S1x67108864 1
  shapeCasts_S1x67108864_S1x4x16777216 : S1x67108864.ShapeCasts S1x4x16777216
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  concatenates_S1x16777216_S1x6_S1x16777222_d1 : Shape.Concatenates [S1x16777216, S1x6] S1x16777222 1
  dot_S1x4x16777216_S1x4x16777216_S1x4x4_2_2_1_1_0_0_wf : DotDims.WF S1x4x16777216 S1x4x16777216 S1x4x4 [2] [2] [1] [1] [0] [0]
  gather_S1x4x4_S6x2_S1x6_0_12_n_n_12_1_111_wf : GatherDims.WF S1x4x4 S6x2 S1x6 [0] [1, 2] [] [1, 2] [] 1 ![1, 1, 1]

variable [Facts₀]

def dot_S1x4x16777216_S1x4x16777216_S1x4x4_2_2_1_1_0_0 : DotDims S1x4x16777216 S1x4x16777216 S1x4x4 where
  lhsContracting := [2]
  rhsContracting := [2]
  lhsNonContracting := [1]
  rhsNonContracting := [1]
  lhsBatch := [0]
  rhsBatch := [0]
  wf := dot_S1x4x16777216_S1x4x16777216_S1x4x4_2_2_1_1_0_0_wf
def gather_S1x4x4_S6x2_S1x6_0_12_n_n_12_1_111 : GatherDims S1x4x4 S6x2 S1x6 where
  offsetDims := [0]
  collapsedSliceDims := [1, 2]
  operandBatchingDims := []
  startIndicesBatchingDims := []
  startIndexMap := [1, 2]
  indexVectorDim := 1
  sliceSizes := ![1, 1, 1]
  wf := gather_S1x4x4_S6x2_S1x6_0_12_n_n_12_1_111_wf

class Facts : Prop extends Facts₀ where

variable [Facts]
-- ==== Proof.KbBase.lean ====
/-
  The pairwise-dots kernel's frame, first part: what every later module is stated over.
  The program is four reshapes of the argument rows to [131072, 128], one region over a grid of 2 × 8 points,
  and 39 host lines that add the two cores' partial sums and lay the six results after the first argument.
  Here: the contents of every buffer when the region is entered (the host lines before it applied to the
  launch memory), the program as "host lines, region, host lines", the facts that the lines after the region
  touch no window's array, the block of each window at a grid point, the two branch conditions of the body in
  closed form over the 16 points (the first of each core's 8 points resets the accumulators, the last writes
  the outputs), where the output windows are idle, and the names of the staging and scratch buffers.
-/
import proofs.«111721_j70781061038447_2_alg».proof.Proof.Gen.Kernel.Launch
import proofs.«111721_j70781061038447_2_alg».proof.Proof.Gen.Kernel.Skeleton
import proofs.«111721_j70781061038447_2_alg».proof.Proof.Gen.Kernel.Points
import proofs.«111721_j70781061038447_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the four reshapes applied to the launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the reshapes, then the region, continued by the 39 later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point (it is fetched at every point). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (it is fetched at every point). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the frame post -/

/-- From a run whose final state has every buffer outside the windows as the later lines leave it, the four
    argument arrays end as launched: no host line writes them and no window stages them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's two branch conditions -/

/-- "This is the first of the core's eight points" (second grid coordinate 0): the accumulators are reset. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last of the core's eight points" (second grid coordinate 7): the outputs are written. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a core's last point output window 4 is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a core's last point it is live. -/
theorem liveAt0_4 : ∀ t : Fin cfg0.N, cond0_1 (grid0.coords t) → cfg0.idle 4 (grid0.coords t) = false := by decide +kernel
/-- Away from a core's last point output window 5 is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a core's last point it is live. -/
theorem liveAt0_5 : ∀ t : Fin cfg0.N, cond0_1 (grid0.coords t) → cfg0.idle 5 (grid0.coords t) = false := by decide +kernel
/-- Away from a core's last point output window 6 is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a core's last point it is live. -/
theorem liveAt0_6 : ∀ t : Fin cfg0.N, cond0_1 (grid0.coords t) → cfg0.idle 6 (grid0.coords t) = false := by decide +kernel
/-- Away from a core's last point output window 7 is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At a core's last point it is live. -/
theorem liveAt0_7 : ∀ t : Fin cfg0.N, cond0_1 (grid0.coords t) → cfg0.idle 7 (grid0.coords t) = false := by decide +kernel
/-- Away from a core's last point output window 8 is idle and is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At a core's last point it is live. -/
theorem liveAt0_8 : ∀ t : Fin cfg0.N, cond0_1 (grid0.coords t) → cfg0.idle 8 (grid0.coords t) = false := by decide +kernel
/-- Away from a core's last point output window 9 is idle and is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- At a core's last point it is live. -/
theorem liveAt0_9 : ∀ t : Fin cfg0.N, cond0_1 (grid0.coords t) → cfg0.idle 9 (grid0.coords t) = false := by decide +kernel

/-! ## The staging and scratch buffers -/

/-- One staging buffer of output window 4, through which its contents are stated. -/
abbrev VO0_4 : View sig .tc .vmem S1x1x128 .f32 := (Memref.whole cc0_stg4_0 : Memref sig .tc .vmem S1x1x128 .f32).view
/-- One staging buffer of output window 5, through which its contents are stated. -/
abbrev VO0_5 : View sig .tc .vmem S1x1x128 .f32 := (Memref.whole cc0_stg5_0 : Memref sig .tc .vmem S1x1x128 .f32).view
/-- One staging buffer of output window 6, through which its contents are stated. -/
abbrev VO0_6 : View sig .tc .vmem S1x1x128 .f32 := (Memref.whole cc0_stg6_0 : Memref sig .tc .vmem S1x1x128 .f32).view
/-- One staging buffer of output window 7, through which its contents are stated. -/
abbrev VO0_7 : View sig .tc .vmem S1x1x128 .f32 := (Memref.whole cc0_stg7_0 : Memref sig .tc .vmem S1x1x128 .f32).view
/-- One staging buffer of output window 8, through which its contents are stated. -/
abbrev VO0_8 : View sig .tc .vmem S1x1x128 .f32 := (Memref.whole cc0_stg8_0 : Memref sig .tc .vmem S1x1x128 .f32).view
/-- One staging buffer of output window 9, through which its contents are stated. -/
abbrev VO0_9 : View sig .tc .vmem S1x1x128 .f32 := (Memref.whole cc0_stg9_0 : Memref sig .tc .vmem S1x1x128 .f32).view
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
/-- Scratch accumulator 0: a whole scoped [1, 1] buffer. -/
abbrev scM0_0 : Memref sig .tc .vmem S1x1 .f32 := Memref.whole cc0_scratch0
abbrev VS0_0 : View sig .tc .vmem S1x1 .f32 := scM0_0.view
/-- Scratch accumulator 1: a whole scoped [1, 1] buffer. -/
abbrev scM0_1 : Memref sig .tc .vmem S1x1 .f32 := Memref.whole cc0_scratch1
abbrev VS0_1 : View sig .tc .vmem S1x1 .f32 := scM0_1.view
/-- Scratch accumulator 2: a whole scoped [1, 1] buffer. -/
abbrev scM0_2 : Memref sig .tc .vmem S1x1 .f32 := Memref.whole cc0_scratch2
abbrev VS0_2 : View sig .tc .vmem S1x1 .f32 := scM0_2.view
/-- Scratch accumulator 3: a whole scoped [1, 1] buffer. -/
abbrev scM0_3 : Memref sig .tc .vmem S1x1 .f32 := Memref.whole cc0_scratch3
abbrev VS0_3 : View sig .tc .vmem S1x1 .f32 := scM0_3.view
/-- Scratch accumulator 4: a whole scoped [1, 1] buffer. -/
abbrev scM0_4 : Memref sig .tc .vmem S1x1 .f32 := Memref.whole cc0_scratch4
abbrev VS0_4 : View sig .tc .vmem S1x1 .f32 := scM0_4.view
/-- Scratch accumulator 5: a whole scoped [1, 1] buffer. -/
abbrev scM0_5 : Memref sig .tc .vmem S1x1 .f32 := Memref.whole cc0_scratch5
abbrev VS0_5 : View sig .tc .vmem S1x1 .f32 := scM0_5.view

/-- What the launch lends the region besides the windows: the six scratch accumulators at some contents, and
    the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Frm

end
-- ==== Proof.KbRunA.lean ====
/-
  The kernel body run once, whole, at the first of a core's eight points (the accumulators are reset to zero, then added to; no output is stored).
  On whole staging buffers — the four input blocks at their contents, the six output blocks at contents handed back untouched,
  the six scratch accumulators at anything — the body runs to its end holding the inputs as they were and each
  buffer it stored into with a list of stored pieces written over it. The piece lists are not written down: they are
  whatever the symbolic run of the body's loads, the eight-trip reduction loop (through its invariant) and the stores
  leaves, found when the buffers are handed to the continuation.
-/
import proofs.«111721_j70781061038447_2_alg».proof.Proof.KbBase

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) :
    Σ' (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x1 .f32)), { LS5 : List (View.Piece (Elt F) S1x1 .f32) //
      ∀ (xi4 xi5 xi6 xi7 xi8 xi9 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5)) -∗ K ⟨⟩))
          ⊢ wp frame (wpE (defs₀ (F := F)) Variants.none c none) E (cc0__pairwise_dots_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun xi4 xi5 xi6 xi7 xi8 xi9 E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Frm

end
-- ==== Proof.KbRunB.lean ====
/-
  The kernel body run once, whole, at a middle point of a core's eight (the accumulators are added to; no output is stored).
  On whole staging buffers — the four input blocks at their contents, the six output blocks at contents handed back untouched,
  the six scratch accumulators at what the point before left — the body runs to its end holding the inputs as they were and each
  buffer it stored into with a list of stored pieces written over it. The piece lists are not written down: they are
  whatever the symbolic run of the body's loads, the eight-trip reduction loop (through its invariant) and the stores
  leaves, found when the buffers are handed to the continuation.
-/
import proofs.«111721_j70781061038447_2_alg».proof.Proof.KbRunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) :
    Σ' (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x1 .f32)), { LS5 : List (View.Piece (Elt F) S1x1 .f32) //
      ∀ (xi4 xi5 xi6 xi7 xi8 xi9 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5)) -∗ K ⟨⟩))
          ⊢ wp frame (wpE (defs₀ (F := F)) Variants.none c none) E (cc0__pairwise_dots_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun xi4 xi5 xi6 xi7 xi8 xi9 E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Frm

end
-- ==== Proof.KbRunC.lean ====
/-
  The kernel body run once, whole, at the last of a core's eight points (the accumulators are added to, then each is spread along the 128 lanes of its output block).
  On whole staging buffers — the four input blocks at their contents, the six output blocks at anything,
  the six scratch accumulators at what the point before left — the body runs to its end holding the inputs as they were and each
  buffer it stored into with a list of stored pieces written over it. The piece lists are not written down: they are
  whatever the symbolic run of the body's loads, the eight-trip reduction loop (through its invariant) and the stores
  leaves, found when the buffers are handed to the continuation.
-/
import proofs.«111721_j70781061038447_2_alg».proof.Proof.KbRunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) :
    Σ' (L4 : List (View.Piece (Elt F) S1x1x128 .f32)) (L5 : List (View.Piece (Elt F) S1x1x128 .f32)) (L6 : List (View.Piece (Elt F) S1x1x128 .f32)) (L7 : List (View.Piece (Elt F) S1x1x128 .f32)) (L8 : List (View.Piece (Elt F) S1x1x128 .f32)) (L9 : List (View.Piece (Elt F) S1x1x128 .f32)) (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x1 .f32)), { LS5 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5)) -∗ K ⟨⟩))
          ⊢ wp frame (wpE (defs₀ (F := F)) Variants.none c none) E (cc0__pairwise_dots_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?_, ?_, fun E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.Kernel.Frm

end
-- ==== Proof.KbHeld.lean ====
/-
  The pairwise-dots kernel's frame, third part: for each of the three kinds of grid point (first, middle, last of a
  core's eight) what the body leaves in each scratch accumulator and, at a last point, in each output block — the
  pieces the run found, read back —, that these pieces cover their buffers, and by recursion over the 16 points what
  the accumulators and outputs hold after each point.
-/
import proofs.«111721_j70781061038447_2_alg».proof.Proof.KbRunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A stores into scratch accumulator 0 cover it. -/
theorem scoverA_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1 S1x1.size (by sl_kernel_rfl) y

/-- What case A leaves in scratch accumulator 0: its pieces read back. -/
def soutA_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1)

/-- The pieces case A stores into scratch accumulator 1 cover it. -/
theorem scoverA_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1 S1x1.size (by sl_kernel_rfl) y

/-- What case A leaves in scratch accumulator 1: its pieces read back. -/
def soutA_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1)

/-- The pieces case A stores into scratch accumulator 2 cover it. -/
theorem scoverA_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1 S1x1.size (by sl_kernel_rfl) y

/-- What case A leaves in scratch accumulator 2: its pieces read back. -/
def soutA_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1)

/-- The pieces case A stores into scratch accumulator 3 cover it. -/
theorem scoverA_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.1 S1x1.size (by sl_kernel_rfl) y

/-- What case A leaves in scratch accumulator 3: its pieces read back. -/
def soutA_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.1)

/-- The pieces case A stores into scratch accumulator 4 cover it. -/
theorem scoverA_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1 S1x1.size (by sl_kernel_rfl) y

/-- What case A leaves in scratch accumulator 4: its pieces read back. -/
def soutA_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1)

/-- The pieces case A stores into scratch accumulator 5 cover it. -/
theorem scoverA_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1 S1x1.size (by sl_kernel_rfl) y

/-- What case A leaves in scratch accumulator 5: its pieces read back. -/
def soutA_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1)

/-- The pieces case B stores into scratch accumulator 0 cover it. -/
theorem scoverB_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1 S1x1.size (by sl_kernel_rfl) y

/-- What case B leaves in scratch accumulator 0: its pieces read back. -/
def soutB_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1)

/-- The pieces case B stores into scratch accumulator 1 cover it. -/
theorem scoverB_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1 S1x1.size (by sl_kernel_rfl) y

/-- What case B leaves in scratch accumulator 1: its pieces read back. -/
def soutB_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1)

/-- The pieces case B stores into scratch accumulator 2 cover it. -/
theorem scoverB_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1 S1x1.size (by sl_kernel_rfl) y

/-- What case B leaves in scratch accumulator 2: its pieces read back. -/
def soutB_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1)

/-- The pieces case B stores into scratch accumulator 3 cover it. -/
theorem scoverB_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1 S1x1.size (by sl_kernel_rfl) y

/-- What case B leaves in scratch accumulator 3: its pieces read back. -/
def soutB_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1)

/-- The pieces case B stores into scratch accumulator 4 cover it. -/
theorem scoverB_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1 S1x1.size (by sl_kernel_rfl) y

/-- What case B leaves in scratch accumulator 4: its pieces read back. -/
def soutB_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1)

/-- The pieces case B stores into scratch accumulator 5 cover it. -/
theorem scoverB_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1 S1x1.size (by sl_kernel_rfl) y

/-- What case B leaves in scratch accumulator 5: its pieces read back. -/
def soutB_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1)

/-- The pieces case C stores into scratch accumulator 0 cover it. -/
theorem scoverC_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.1 S1x1.size (by sl_kernel_rfl) y

/-- What case C leaves in scratch accumulator 0: its pieces read back. -/
def soutC_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.1)

/-- The pieces case C stores into scratch accumulator 1 cover it. -/
theorem scoverC_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.1 S1x1.size (by sl_kernel_rfl) y

/-- What case C leaves in scratch accumulator 1: its pieces read back. -/
def soutC_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.1)

/-- The pieces case C stores into scratch accumulator 2 cover it. -/
theorem scoverC_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.1 S1x1.size (by sl_kernel_rfl) y

/-- What case C leaves in scratch accumulator 2: its pieces read back. -/
def soutC_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.1)

/-- The pieces case C stores into scratch accumulator 3 cover it. -/
theorem scoverC_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.1 S1x1.size (by sl_kernel_rfl) y

/-- What case C leaves in scratch accumulator 3: its pieces read back. -/
def soutC_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.1)

/-- The pieces case C stores into scratch accumulator 4 cover it. -/
theorem scoverC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.1 S1x1.size (by sl_kernel_rfl) y

/-- What case C leaves in scratch accumulator 4: its pieces read back. -/
def soutC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.1)

/-- The pieces case C stores into scratch accumulator 5 cover it. -/
theorem scoverC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.2.1 S1x1.size (by sl_kernel_rfl) y

/-- What case C leaves in scratch accumulator 5: its pieces read back. -/
def soutC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.2.1)

/-- The pieces the last-point case stores into output block 4 cover it. -/
theorem coverC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1 S1x1x128.size (by sl_kernel_rfl) y

/-- What the last-point case leaves in output block 4: its pieces read back. -/
def outC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1)

/-- The pieces the last-point case stores into output block 5 cover it. -/
theorem coverC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1 S1x1x128.size (by sl_kernel_rfl) y

/-- What the last-point case leaves in output block 5: its pieces read back. -/
def outC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1)

/-- The pieces the last-point case stores into output block 6 cover it. -/
theorem coverC_6 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1 S1x1x128.size (by sl_kernel_rfl) y

/-- What the last-point case leaves in output block 6: its pieces read back. -/
def outC_6 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1)

/-- The pieces the last-point case stores into output block 7 cover it. -/
theorem coverC_7 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1 S1x1x128.size (by sl_kernel_rfl) y

/-- What the last-point case leaves in output block 7: its pieces read back. -/
def outC_7 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1)

/-- The pieces the last-point case stores into output block 8 cover it. -/
theorem coverC_8 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1 S1x1x128.size (by sl_kernel_rfl) y

/-- What the last-point case leaves in output block 8: its pieces read back. -/
def outC_8 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1)

/-- The pieces the last-point case stores into output block 9 cover it. -/
theorem coverC_9 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1 S1x1x128.size (by sl_kernel_rfl) y

/-- What the last-point case leaves in output block 9: its pieces read back. -/
def outC_9 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1)

/-- A placeholder for an output block at a point where the body stores nothing into it (the window is idle there and
    is neither written back nor read at the next point, so nothing consults it). -/
def idleOut : Vec F S1x1x128 .f32 := VO0_4.read (Elt F) VO0_4.junk

/-! ## What the buffers hold after each point -/

/-- The six output blocks and the six scratch accumulators after a point. -/
structure Held (F : FTy → Type) [FloatOps F] where
  o4 : Vec F S1x1x128 .f32
  o5 : Vec F S1x1x128 .f32
  o6 : Vec F S1x1x128 .f32
  o7 : Vec F S1x1x128 .f32
  o8 : Vec F S1x1x128 .f32
  o9 : Vec F S1x1x128 .f32
  s0 : Vec F S1x1 .f32
  s1 : Vec F S1x1 .f32
  s2 : Vec F S1x1 .f32
  s3 : Vec F S1x1 .f32
  s4 : Vec F S1x1 .f32
  s5 : Vec F S1x1 .f32

/-- What the outputs and the accumulators hold after the body at position `n`: the case the position is in (by
    `n % 8`), run on the point's buffers and input blocks, the accumulators at what position `n - 1` left. -/
def outsAt0 (c : Dev nD) : (n : ℕ) → n < cfg0.N → Held F
  | 0, hn =>
      have h0 : (0 : ℕ) % 8 = 0 := rfl
      have h1 : ¬ (0 : ℕ) % 8 = 7 := by decide
      { o4 := idleOut, o5 := idleOut, o6 := idleOut, o7 := idleOut, o8 := idleOut, o9 := idleOut,
          s0 := soutA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s1 := soutA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s2 := soutA_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s3 := soutA_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s4 := soutA_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s5 := soutA_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) }
  | n + 1, hn =>
    if h0 : (n + 1) % 8 = 0 then
      if h1 : (n + 1) % 8 = 7 then
        False.elim (by omega)
      else
        { o4 := idleOut, o5 := idleOut, o6 := idleOut, o7 := idleOut, o8 := idleOut, o9 := idleOut,
          s0 := soutA_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s1 := soutA_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s2 := soutA_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s3 := soutA_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s4 := soutA_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s5 := soutA_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) }
    else
      if h1 : (n + 1) % 8 = 7 then
        { o4 := outC_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o5 := outC_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o6 := outC_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o7 := outC_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o8 := outC_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o9 := outC_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s0 := soutC_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s1 := soutC_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s2 := soutC_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s3 := soutC_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s4 := soutC_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s5 := soutC_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5 }
      else
        { o4 := idleOut, o5 := idleOut, o6 := idleOut, o7 := idleOut, o8 := idleOut, o9 := idleOut,
          s0 := soutB_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s1 := soutB_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s2 := soutB_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s3 := soutB_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s4 := soutB_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s5 := soutB_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5 }

theorem outsAt0_A (c : Dev nD) (t : Fin cfg0.N) (h0 : t.val % 8 = 0) (h1 : ¬t.val % 8 = 7) :
    outsAt0 m c t.val t.isLt =
      { o4 := idleOut, o5 := idleOut, o6 := idleOut, o7 := idleOut, o8 := idleOut, o9 := idleOut,
          s0 := soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s1 := soutA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s2 := soutA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s3 := soutA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s4 := soutA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s5 := soutA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) } := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt =
      { o4 := idleOut, o5 := idleOut, o6 := idleOut, o7 := idleOut, o8 := idleOut, o9 := idleOut,
          s0 := soutB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s1 := soutB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s2 := soutB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s3 := soutB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s4 := soutB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s5 := soutB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 } := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt =
      { o4 := outC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o5 := outC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o6 := outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o7 := outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o8 := outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o9 := outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s0 := soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s1 := soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s2 := soutC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s3 := soutC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s4 := soutC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s5 := soutC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 } := by
  obtain ⟨n, hn⟩ := t
  cases n with
  | zero => exact (by exfalso; (try dsimp only at h0); exact absurd (Nat.zero_mod _) h0)
  | succ n => exact (dif_neg h0).trans ((dif_pos h1).trans rfl)

end Cert.Kernel.Frm

end
-- ==== Proof.KbDat.lean ====
/-
  The pairwise-dots kernel's frame, fourth part: the invariant that carries the six accumulators from point to point
  (before the first point what the launch lends; after a point the accumulators at what that point left), and the
  proof data of the pipeline: the arrays as the region finds them, each input's buffer at its block, each output's at
  what the point left.
-/
import proofs.«111721_j70781061038447_2_alg».proof.Proof.KbHeld

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before the first point: what the launch lends. After point `n`: the six accumulators at what that point left,
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5)) ∗ (∃ r, prngReg c r)) := by
  cases n with
  | zero => exact absurd rfl hz
  | succ n => rfl

/-! ## The pipeline's proof data -/

/-- The arrays as the region finds them; after the body at a point each input's buffer at its block and each
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Frm

end
-- ==== Proof.KbFrame.lean ====
/-
  The pairwise-dots kernel's frame, last part: the invariant that carries the six accumulators from point to point,
  the proof data of the pipeline, the body's obligation at every point by cases on the point's position among its
  core's eight, the run of the whole program, and the frame claim.
-/
import proofs.«111721_j70781061038447_2_alg».proof.Proof.KbDat

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A last point's contents, field by field -/

theorem outsAt0_C_o4 (c : Dev nD) (t : Fin cfg0.N) (h0 : ¬t.val % 8 = 0) (h1 : t.val % 8 = 7) :
    (outsAt0 m c t.val t.isLt).o4 = outC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o5 (c : Dev nD) (t : Fin cfg0.N) (h0 : ¬t.val % 8 = 0) (h1 : t.val % 8 = 7) :
    (outsAt0 m c t.val t.isLt).o5 = outC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o6 (c : Dev nD) (t : Fin cfg0.N) (h0 : ¬t.val % 8 = 0) (h1 : t.val % 8 = 7) :
    (outsAt0 m c t.val t.isLt).o6 = outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o7 (c : Dev nD) (t : Fin cfg0.N) (h0 : ¬t.val % 8 = 0) (h1 : t.val % 8 = 7) :
    (outsAt0 m c t.val t.isLt).o7 = outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o8 (c : Dev nD) (t : Fin cfg0.N) (h0 : ¬t.val % 8 = 0) (h1 : t.val % 8 = 7) :
    (outsAt0 m c t.val t.isLt).o8 = outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o9 (c : Dev nD) (t : Fin cfg0.N) (h0 : ¬t.val % 8 = 0) (h1 : t.val % 8 = 7) :
    (outsAt0 m c t.val t.isLt).o9 = outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s0 (c : Dev nD) (t : Fin cfg0.N) (h0 : ¬t.val % 8 = 0) (h1 : t.val % 8 = 7) :
    (outsAt0 m c t.val t.isLt).s0 = soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s1 (c : Dev nD) (t : Fin cfg0.N) (h0 : ¬t.val % 8 = 0) (h1 : t.val % 8 = 7) :
    (outsAt0 m c t.val t.isLt).s1 = soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s2 (c : Dev nD) (t : Fin cfg0.N) (h0 : ¬t.val % 8 = 0) (h1 : t.val % 8 = 7) :
    (outsAt0 m c t.val t.isLt).s2 = soutC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s3 (c : Dev nD) (t : Fin cfg0.N) (h0 : ¬t.val % 8 = 0) (h1 : t.val % 8 = 7) :
    (outsAt0 m c t.val t.isLt).s3 = soutC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s4 (c : Dev nD) (t : Fin cfg0.N) (h0 : ¬t.val % 8 = 0) (h1 : t.val % 8 = 7) :
    (outsAt0 m c t.val t.isLt).s4 = soutC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s5 (c : Dev nD) (t : Fin cfg0.N) (h0 : ¬t.val % 8 = 0) (h1 : t.val % 8 = 7) :
    (outsAt0 m c t.val t.isLt).s5 = soutC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: the inputs' buffers hold their blocks; the point's position modulo 8 says which case it
    is in; the invariant hands the body the accumulators at what the point before left (at anything at the very first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [Dat.leavesExact_idle (dats m 0 c) 6 t (idleAt0_6 t hc1') (noFlush0_6 t hc1')]
      rw [Dat.leavesExact_idle (dats m 0 c) 7 t (idleAt0_7 t hc1') (noFlush0_7 t hc1')]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_A m c t h0 h1]
      (try dsimp only)
      by_cases hz : t.val = 0
      · rw [PhiS_castSucc m c t, PhiS_zero m c _ _ hz, PhiA0_eq]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutA_0; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutA_1; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutA_2; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutA_3; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutA_4; exact View.read_writes_of_cover _ _ _ _ _ (scoverA_4 c _ _ _ _ _ _ _ _ _ _ _ _ _ _ _ _ _ _ _ _ _ _ _ _ _ _ _ _ _ _ _ _ _ _ _ _ _ _ _)
            unfold owns; iexists _; isplitr
            swap; · iexact HS5
            ipureintro; unfold soutA_5; exact View.read_writes_of_cover _ _ _ _ _ (scoverA_5 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        iexists _; iexact H9

      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        iintro ⟨H0, H1, H2, H3, H4, H5, H6, H7, H8, H9, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutA_0; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutA_1; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutA_2; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutA_3; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutA_4; exact View.read_writes_of_cover _ _ _ _ _ (scoverA_4 c _ _ _ _ _ _ _ _ _ _ _ _ _ _ _ _ _ _ _ _ _ _ _ _ _ _ _ _ _ _ _ _ _ _ _ _ _ _ _)
            unfold owns; iexists _; isplitr
            swap; · iexact HS5
            ipureintro; unfold soutA_5; exact View.read_writes_of_cover _ _ _ _ _ (scoverA_5 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        iexists _; iexact H9

  · have hz : t.val ≠ 0 := fun hz => h0 (by rw [hz])
    by_cases h1 : t.val % 8 = 7
    · have hc1' : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t hc1'], after0_4]
      rw [show (dats m 0 c).leavesExact 5 t = owns (c : Thread nD τ) (ms0_5 t) fullShare ((dats m 0 c).after 5 t) from by
        unfold Dat.leavesExact; rw [liveAt0_5 t hc1'], after0_5]
      rw [show (dats m 0 c).leavesExact 6 t = owns (c : Thread nD τ) (ms0_6 t) fullShare ((dats m 0 c).after 6 t) from by
        unfold Dat.leavesExact; rw [liveAt0_6 t hc1'], after0_6]
      rw [show (dats m 0 c).leavesExact 7 t = owns (c : Thread nD τ) (ms0_7 t) fullShare ((dats m 0 c).after 7 t) from by
        unfold Dat.leavesExact; rw [liveAt0_7 t hc1'], after0_7]
      rw [show (dats m 0 c).leavesExact 8 t = owns (c : Thread nD τ) (ms0_8 t) fullShare ((dats m 0 c).after 8 t) from by
        unfold Dat.leavesExact; rw [liveAt0_8 t hc1'], after0_8]
      rw [show (dats m 0 c).leavesExact 9 t = owns (c : Thread nD τ) (ms0_9 t) fullShare ((dats m 0 c).after 9 t) from by
        unfold Dat.leavesExact; rw [liveAt0_9 t hc1'], after0_9]
      rw [outsAt0_C_o4 m c t h0 h1, outsAt0_C_o5 m c t h0 h1, outsAt0_C_o6 m c t h0 h1, outsAt0_C_o7 m c t h0 h1, outsAt0_C_o8 m c t h0 h1, outsAt0_C_o9 m c t h0 h1, outsAt0_C_s0 m c t h0 h1, outsAt0_C_s1 m c t h0 h1, outsAt0_C_s2 m c t h0 h1, outsAt0_C_s3 m c t h0 h1, outsAt0_C_s4 m c t h0 h1, outsAt0_C_s5 m c t h0 h1]
      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _ _ _).2.2.2.2.2.2.2.2.2.2.2.2  Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutC_0; exact View.read_writes_of_cover _ _ _ _ _ (scoverC_0 c _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutC_1; exact View.read_writes_of_cover _ _ _ _ _ (scoverC_1 c _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutC_2; exact View.read_writes_of_cover _ _ _ _ _ (scoverC_2 c _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutC_3; exact View.read_writes_of_cover _ _ _ _ _ (scoverC_3 c _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutC_4; exact View.read_writes_of_cover _ _ _ _ _ (scoverC_4 c _ _ _ _ _ _ _ _ _ _ _ _ _ _ _ _ _ _ _ _ _ _ _ _ _ _ _ _ _ _ _ _ _ _ _ _ _ _ _ _ _ _ _ _ _)
            unfold owns; iexists _; isplitr
            swap; · iexact HS5
            ipureintro; unfold soutC_5; exact View.read_writes_of_cover _ _ _ _ _ (scoverC_5 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; unfold outC_4; exact View.read_writes_of_cover _ _ _ _ _ (coverC_4 c _ _ _ _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; unfold outC_5; exact View.read_writes_of_cover _ _ _ _ _ (coverC_5 c _ _ _ _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; unfold outC_6; exact View.read_writes_of_cover _ _ _ _ _ (coverC_6 c _ _ _ _ _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; unfold outC_7; exact View.read_writes_of_cover _ _ _ _ _ (coverC_7 c _ _ _ _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; unfold outC_8; exact View.read_writes_of_cover _ _ _ _ _ (coverC_8 c _ _ _ _ _ _ _ _ _ _ _ _ _ _ _ _ _ _ _ _ _ _ _ _ _ _ _ _ _ _ _ _ _ _ _ _ _ _ _ _ _ _ _ _ _)
        unfold owns; iexists _; isplitr
        swap; · iexact H9
        ipureintro; unfold outC_9; exact View.read_writes_of_cover _ _ _ _ _ (coverC_9 c _ _ _ _ _ _ _ _ _ _ _ _ _ _ _ _ _ _ _ _ _ _ _ _ _ _ _ _ _ _ _ _ _ _ _ _ _ _ _ _ _ _ _ _ _)

    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [Dat.leavesExact_idle (dats m 0 c) 6 t (idleAt0_6 t hc1') (noFlush0_6 t hc1')]
      rw [Dat.leavesExact_idle (dats m 0 c) 7 t (idleAt0_7 t hc1') (noFlush0_7 t hc1')]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_B m c t h0 h1]
      (try dsimp only)
      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ _ _).2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutB_0; exact View.read_writes_of_cover _ _ _ _ _ (scoverB_0 c _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutB_1; exact View.read_writes_of_cover _ _ _ _ _ (scoverB_1 c _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutB_2; exact View.read_writes_of_cover _ _ _ _ _ (scoverB_2 c _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutB_3; exact View.read_writes_of_cover _ _ _ _ _ (scoverB_3 c _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutB_4; exact View.read_writes_of_cover _ _ _ _ _ (scoverB_4 c _ _ _ _ _ _ _ _ _ _ _ _ _ _ _ _ _ _ _ _ _ _ _ _ _ _ _ _ _ _ _ _ _ _ _ _ _ _ _ _ _ _ _ _ _)
            unfold owns; iexists _; isplitr
            swap; · iexact HS5
            ipureintro; unfold soutB_5; exact View.read_writes_of_cover _ _ _ _ _ (scoverB_5 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and in the final state every window's array is what the
    pipeline's write-backs leave of the proof data, every other unscoped buffer what the 39 later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Frm

end
-- ==== Proof.KiBase.lean ====
/-
  The pairwise-dots kernel's frame, first part: what every later module is stated over.
  The program is four reshapes of the argument rows to [131072, 128], one region over a grid of 2 × 8 points,
  and 39 host lines that add the two cores' partial sums and lay the six results after the first argument.
  Here: the contents of every buffer when the region is entered (the host lines before it applied to the
  launch memory), the program as "host lines, region, host lines", the facts that the lines after the region
  touch no window's array, the block of each window at a grid point, the two branch conditions of the body in
  closed form over the 16 points (the first of each core's 8 points resets the accumulators, the last writes
  the outputs), where the output windows are idle, and the names of the staging and scratch buffers.
-/
import proofs.«111721_j70781061038447_2_alg».proof.Proof.Gen.KernelIdeal.Launch
import proofs.«111721_j70781061038447_2_alg».proof.Proof.Gen.KernelIdeal.Skeleton
import proofs.«111721_j70781061038447_2_alg».proof.Proof.Gen.KernelIdeal.Points
import proofs.«111721_j70781061038447_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the four reshapes applied to the launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the reshapes, then the region, continued by the 39 later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point (it is fetched at every point). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (it is fetched at every point). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the frame post -/

/-- From a run whose final state has every buffer outside the windows as the later lines leave it, the four
    argument arrays end as launched: no host line writes them and no window stages them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's two branch conditions -/

/-- "This is the first of the core's eight points" (second grid coordinate 0): the accumulators are reset. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last of the core's eight points" (second grid coordinate 7): the outputs are written. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a core's last point output window 4 is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a core's last point it is live. -/
theorem liveAt0_4 : ∀ t : Fin cfg0.N, cond0_1 (grid0.coords t) → cfg0.idle 4 (grid0.coords t) = false := by decide +kernel
/-- Away from a core's last point output window 5 is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At a core's last point it is live. -/
theorem liveAt0_5 : ∀ t : Fin cfg0.N, cond0_1 (grid0.coords t) → cfg0.idle 5 (grid0.coords t) = false := by decide +kernel
/-- Away from a core's last point output window 6 is idle and is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At a core's last point it is live. -/
theorem liveAt0_6 : ∀ t : Fin cfg0.N, cond0_1 (grid0.coords t) → cfg0.idle 6 (grid0.coords t) = false := by decide +kernel
/-- Away from a core's last point output window 7 is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At a core's last point it is live. -/
theorem liveAt0_7 : ∀ t : Fin cfg0.N, cond0_1 (grid0.coords t) → cfg0.idle 7 (grid0.coords t) = false := by decide +kernel
/-- Away from a core's last point output window 8 is idle and is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
/-- At a core's last point it is live. -/
theorem liveAt0_8 : ∀ t : Fin cfg0.N, cond0_1 (grid0.coords t) → cfg0.idle 8 (grid0.coords t) = false := by decide +kernel
/-- Away from a core's last point output window 9 is idle and is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- At a core's last point it is live. -/
theorem liveAt0_9 : ∀ t : Fin cfg0.N, cond0_1 (grid0.coords t) → cfg0.idle 9 (grid0.coords t) = false := by decide +kernel

/-! ## The staging and scratch buffers -/

/-- One staging buffer of output window 4, through which its contents are stated. -/
abbrev VO0_4 : View sig .tc .vmem S1x1x128 .f32 := (Memref.whole cc0_stg4_0 : Memref sig .tc .vmem S1x1x128 .f32).view
/-- One staging buffer of output window 5, through which its contents are stated. -/
abbrev VO0_5 : View sig .tc .vmem S1x1x128 .f32 := (Memref.whole cc0_stg5_0 : Memref sig .tc .vmem S1x1x128 .f32).view
/-- One staging buffer of output window 6, through which its contents are stated. -/
abbrev VO0_6 : View sig .tc .vmem S1x1x128 .f32 := (Memref.whole cc0_stg6_0 : Memref sig .tc .vmem S1x1x128 .f32).view
/-- One staging buffer of output window 7, through which its contents are stated. -/
abbrev VO0_7 : View sig .tc .vmem S1x1x128 .f32 := (Memref.whole cc0_stg7_0 : Memref sig .tc .vmem S1x1x128 .f32).view
/-- One staging buffer of output window 8, through which its contents are stated. -/
abbrev VO0_8 : View sig .tc .vmem S1x1x128 .f32 := (Memref.whole cc0_stg8_0 : Memref sig .tc .vmem S1x1x128 .f32).view
/-- One staging buffer of output window 9, through which its contents are stated. -/
abbrev VO0_9 : View sig .tc .vmem S1x1x128 .f32 := (Memref.whole cc0_stg9_0 : Memref sig .tc .vmem S1x1x128 .f32).view
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x128 .f32 := win0_9.stage (cfg0.slots t 9)
abbrev hs0_9 (t : Fin cfg0.N) : (ms0_9 t).IsWhole := hstage0_9 ((cfg0.slots t 9).cast nbuf0_9)
/-- Scratch accumulator 0: a whole scoped [1, 1] buffer. -/
abbrev scM0_0 : Memref sig .tc .vmem S1x1 .f32 := Memref.whole cc0_scratch0
abbrev VS0_0 : View sig .tc .vmem S1x1 .f32 := scM0_0.view
/-- Scratch accumulator 1: a whole scoped [1, 1] buffer. -/
abbrev scM0_1 : Memref sig .tc .vmem S1x1 .f32 := Memref.whole cc0_scratch1
abbrev VS0_1 : View sig .tc .vmem S1x1 .f32 := scM0_1.view
/-- Scratch accumulator 2: a whole scoped [1, 1] buffer. -/
abbrev scM0_2 : Memref sig .tc .vmem S1x1 .f32 := Memref.whole cc0_scratch2
abbrev VS0_2 : View sig .tc .vmem S1x1 .f32 := scM0_2.view
/-- Scratch accumulator 3: a whole scoped [1, 1] buffer. -/
abbrev scM0_3 : Memref sig .tc .vmem S1x1 .f32 := Memref.whole cc0_scratch3
abbrev VS0_3 : View sig .tc .vmem S1x1 .f32 := scM0_3.view
/-- Scratch accumulator 4: a whole scoped [1, 1] buffer. -/
abbrev scM0_4 : Memref sig .tc .vmem S1x1 .f32 := Memref.whole cc0_scratch4
abbrev VS0_4 : View sig .tc .vmem S1x1 .f32 := scM0_4.view
/-- Scratch accumulator 5: a whole scoped [1, 1] buffer. -/
abbrev scM0_5 : Memref sig .tc .vmem S1x1 .f32 := Memref.whole cc0_scratch5
abbrev VS0_5 : View sig .tc .vmem S1x1 .f32 := scM0_5.view

/-- What the launch lends the region besides the windows: the six scratch accumulators at some contents, and
    the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Frm

end
-- ==== Proof.KiRunA.lean ====
/-
  The kernel body run once, whole, at the first of a core's eight points (the accumulators are reset to zero, then added to; no output is stored).
  On whole staging buffers — the four input blocks at their contents, the six output blocks at contents handed back untouched,
  the six scratch accumulators at anything — the body runs to its end holding the inputs as they were and each
  buffer it stored into with a list of stored pieces written over it. The piece lists are not written down: they are
  whatever the symbolic run of the body's loads, the eight-trip reduction loop (through its invariant) and the stores
  leaves, found when the buffers are handed to the continuation.
-/
import proofs.«111721_j70781061038447_2_alg».proof.Proof.KiBase

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) :
    Σ' (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x1 .f32)), { LS5 : List (View.Piece (Elt F) S1x1 .f32) //
      ∀ (xi4 xi5 xi6 xi7 xi8 xi9 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5)) -∗ K ⟨⟩))
          ⊢ wp frame (wpE (defs₀ (F := F)) Variants.none c none) E (cc0__pairwise_dots_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun xi4 xi5 xi6 xi7 xi8 xi9 E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Frm

end
-- ==== Proof.KiRunB.lean ====
/-
  The kernel body run once, whole, at a middle point of a core's eight (the accumulators are added to; no output is stored).
  On whole staging buffers — the four input blocks at their contents, the six output blocks at contents handed back untouched,
  the six scratch accumulators at what the point before left — the body runs to its end holding the inputs as they were and each
  buffer it stored into with a list of stored pieces written over it. The piece lists are not written down: they are
  whatever the symbolic run of the body's loads, the eight-trip reduction loop (through its invariant) and the stores
  leaves, found when the buffers are handed to the continuation.
-/
import proofs.«111721_j70781061038447_2_alg».proof.Proof.KiRunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) :
    Σ' (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x1 .f32)), { LS5 : List (View.Piece (Elt F) S1x1 .f32) //
      ∀ (xi4 xi5 xi6 xi7 xi8 xi9 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xi7 ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5)) -∗ K ⟨⟩))
          ⊢ wp frame (wpE (defs₀ (F := F)) Variants.none c none) E (cc0__pairwise_dots_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun xi4 xi5 xi6 xi7 xi8 xi9 E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Frm

end
-- ==== Proof.KiRunC.lean ====
/-
  The kernel body run once, whole, at the last of a core's eight points (the accumulators are added to, then each is spread along the 128 lanes of its output block).
  On whole staging buffers — the four input blocks at their contents, the six output blocks at anything,
  the six scratch accumulators at what the point before left — the body runs to its end holding the inputs as they were and each
  buffer it stored into with a list of stored pieces written over it. The piece lists are not written down: they are
  whatever the symbolic run of the body's loads, the eight-trip reduction loop (through its invariant) and the stores
  leaves, found when the buffers are handed to the continuation.
-/
import proofs.«111721_j70781061038447_2_alg».proof.Proof.KiRunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) :
    Σ' (L4 : List (View.Piece (Elt F) S1x1x128 .f32)) (L5 : List (View.Piece (Elt F) S1x1x128 .f32)) (L6 : List (View.Piece (Elt F) S1x1x128 .f32)) (L7 : List (View.Piece (Elt F) S1x1x128 .f32)) (L8 : List (View.Piece (Elt F) S1x1x128 .f32)) (L9 : List (View.Piece (Elt F) S1x1x128 .f32)) (LS0 : List (View.Piece (Elt F) S1x1 .f32)) (LS1 : List (View.Piece (Elt F) S1x1 .f32)) (LS2 : List (View.Piece (Elt F) S1x1 .f32)) (LS3 : List (View.Piece (Elt F) S1x1 .f32)) (LS4 : List (View.Piece (Elt F) S1x1 .f32)), { LS5 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4 ∗ owns (c : Thread nD τ) arg17 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4) ∗ (∃ f, arg17.view.loc (c : Thread nD τ) ↦[arg17.view.set]{fullShare} arg17.view.writes (Elt F) f LS5)) -∗ K ⟨⟩))
          ⊢ wp frame (wpE (defs₀ (F := F)) Variants.none c none) E (cc0__pairwise_dots_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, ?_, ?_, ?_, ?_, fun E K => ?run⟩
  case run =>
    simp only [cc0__pairwise_dots_kernel_eq_skeleton]; unfold cc0__pairwise_dots_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.KernelIdeal.Frm

end
-- ==== Proof.KiHeld.lean ====
/-
  The pairwise-dots kernel's frame, third part: for each of the three kinds of grid point (first, middle, last of a
  core's eight) what the body leaves in each scratch accumulator and, at a last point, in each output block — the
  pieces the run found, read back —, that these pieces cover their buffers, and by recursion over the 16 points what
  the accumulators and outputs hold after each point.
-/
import proofs.«111721_j70781061038447_2_alg».proof.Proof.KiRunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The pieces case A stores into scratch accumulator 0 cover it. -/
theorem scoverA_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1 S1x1.size (by sl_kernel_rfl) y

/-- What case A leaves in scratch accumulator 0: its pieces read back. -/
def soutA_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).1)

/-- The pieces case A stores into scratch accumulator 1 cover it. -/
theorem scoverA_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1 S1x1.size (by sl_kernel_rfl) y

/-- What case A leaves in scratch accumulator 1: its pieces read back. -/
def soutA_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.1)

/-- The pieces case A stores into scratch accumulator 2 cover it. -/
theorem scoverA_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1 S1x1.size (by sl_kernel_rfl) y

/-- What case A leaves in scratch accumulator 2: its pieces read back. -/
def soutA_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.1)

/-- The pieces case A stores into scratch accumulator 3 cover it. -/
theorem scoverA_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.1 S1x1.size (by sl_kernel_rfl) y

/-- What case A leaves in scratch accumulator 3: its pieces read back. -/
def soutA_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.1)

/-- The pieces case A stores into scratch accumulator 4 cover it. -/
theorem scoverA_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1 S1x1.size (by sl_kernel_rfl) y

/-- What case A leaves in scratch accumulator 4: its pieces read back. -/
def soutA_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.1)

/-- The pieces case A stores into scratch accumulator 5 cover it. -/
theorem scoverA_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) (y : S1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1 S1x1.size (by sl_kernel_rfl) y

/-- What case A leaves in scratch accumulator 5: its pieces read back. -/
def soutA_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec F S8192x128 .f32) : Vec F S1x1 .f32 :=
  VS0_5.read (Elt F) (VS0_5.writes (Elt F) VS0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3).2.2.2.2.2.1)

/-- The pieces case B stores into scratch accumulator 0 cover it. -/
theorem scoverB_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1 S1x1.size (by sl_kernel_rfl) y

/-- What case B leaves in scratch accumulator 0: its pieces read back. -/
def soutB_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1)

/-- The pieces case B stores into scratch accumulator 1 cover it. -/
theorem scoverB_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1 S1x1.size (by sl_kernel_rfl) y

/-- What case B leaves in scratch accumulator 1: its pieces read back. -/
def soutB_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1)

/-- The pieces case B stores into scratch accumulator 2 cover it. -/
theorem scoverB_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1 S1x1.size (by sl_kernel_rfl) y

/-- What case B leaves in scratch accumulator 2: its pieces read back. -/
def soutB_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1)

/-- The pieces case B stores into scratch accumulator 3 cover it. -/
theorem scoverB_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1 S1x1.size (by sl_kernel_rfl) y

/-- What case B leaves in scratch accumulator 3: its pieces read back. -/
def soutB_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1)

/-- The pieces case B stores into scratch accumulator 4 cover it. -/
theorem scoverB_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1 S1x1.size (by sl_kernel_rfl) y

/-- What case B leaves in scratch accumulator 4: its pieces read back. -/
def soutB_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1)

/-- The pieces case B stores into scratch accumulator 5 cover it. -/
theorem scoverB_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1 S1x1.size (by sl_kernel_rfl) y

/-- What case B leaves in scratch accumulator 5: its pieces read back. -/
def soutB_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec F S8192x128 .f32) (xs0 xs1 xs2 xs3 xs4 xs5 : Vec F S1x1 .f32) : Vec F S1x1 .f32 :=
  VS0_5.read (Elt F) (VS0_5.writes (Elt F) VS0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1)

/-- The pieces case C stores into scratch accumulator 0 cover it. -/
theorem scoverC_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.1 S1x1.size (by sl_kernel_rfl) y

/-- What case C leaves in scratch accumulator 0: its pieces read back. -/
def soutC_0 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.1)

/-- The pieces case C stores into scratch accumulator 1 cover it. -/
theorem scoverC_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.1 S1x1.size (by sl_kernel_rfl) y

/-- What case C leaves in scratch accumulator 1: its pieces read back. -/
def soutC_1 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.1)

/-- The pieces case C stores into scratch accumulator 2 cover it. -/
theorem scoverC_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.1 S1x1.size (by sl_kernel_rfl) y

/-- What case C leaves in scratch accumulator 2: its pieces read back. -/
def soutC_2 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.1)

/-- The pieces case C stores into scratch accumulator 3 cover it. -/
theorem scoverC_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.1 S1x1.size (by sl_kernel_rfl) y

/-- What case C leaves in scratch accumulator 3: its pieces read back. -/
def soutC_3 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.1)

/-- The pieces case C stores into scratch accumulator 4 cover it. -/
theorem scoverC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.1 S1x1.size (by sl_kernel_rfl) y

/-- What case C leaves in scratch accumulator 4: its pieces read back. -/
def soutC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.1)

/-- The pieces case C stores into scratch accumulator 5 cover it. -/
theorem scoverC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.2.1 S1x1.size (by sl_kernel_rfl) y

/-- What case C leaves in scratch accumulator 5: its pieces read back. -/
def soutC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1 .f32 :=
  VS0_5.read (Elt F) (VS0_5.writes (Elt F) VS0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.2.2.2.2.2.2.1)

/-- The pieces the last-point case stores into output block 4 cover it. -/
theorem coverC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1 S1x1x128.size (by sl_kernel_rfl) y

/-- What the last-point case leaves in output block 4: its pieces read back. -/
def outC_4 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).1)

/-- The pieces the last-point case stores into output block 5 cover it. -/
theorem coverC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1 S1x1x128.size (by sl_kernel_rfl) y

/-- What the last-point case leaves in output block 5: its pieces read back. -/
def outC_5 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.1)

/-- The pieces the last-point case stores into output block 6 cover it. -/
theorem coverC_6 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1 S1x1x128.size (by sl_kernel_rfl) y

/-- What the last-point case leaves in output block 6: its pieces read back. -/
def outC_6 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.1)

/-- The pieces the last-point case stores into output block 7 cover it. -/
theorem coverC_7 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1 S1x1x128.size (by sl_kernel_rfl) y

/-- What the last-point case leaves in output block 7: its pieces read back. -/
def outC_7 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.1)

/-- The pieces the last-point case stores into output block 8 cover it. -/
theorem coverC_8 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1 S1x1x128.size (by sl_kernel_rfl) y

/-- What the last-point case leaves in output block 8: its pieces read back. -/
def outC_8 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.1)

/-- The pieces the last-point case stores into output block 9 cover it. -/
theorem coverC_9 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) (y : S1x1x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1 S1x1x128.size (by sl_kernel_rfl) y

/-- What the last-point case leaves in output block 9: its pieces read back. -/
def outC_9 (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec F S8192x128 .f32) (xs0 xs1 xs2 xs3 xs4 xs5 : Vec F S1x1 .f32) : Vec F S1x1x128 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5).2.2.2.2.2.1)

/-- A placeholder for an output block at a point where the body stores nothing into it (the window is idle there and
    is neither written back nor read at the next point, so nothing consults it). -/
def idleOut : Vec F S1x1x128 .f32 := VO0_4.read (Elt F) VO0_4.junk

/-! ## What the buffers hold after each point -/

/-- The six output blocks and the six scratch accumulators after a point. -/
structure Held (F : FTy → Type) [FloatOps F] where
  o4 : Vec F S1x1x128 .f32
  o5 : Vec F S1x1x128 .f32
  o6 : Vec F S1x1x128 .f32
  o7 : Vec F S1x1x128 .f32
  o8 : Vec F S1x1x128 .f32
  o9 : Vec F S1x1x128 .f32
  s0 : Vec F S1x1 .f32
  s1 : Vec F S1x1 .f32
  s2 : Vec F S1x1 .f32
  s3 : Vec F S1x1 .f32
  s4 : Vec F S1x1 .f32
  s5 : Vec F S1x1 .f32

/-- What the outputs and the accumulators hold after the body at position `n`: the case the position is in (by
    `n % 8`), run on the point's buffers and input blocks, the accumulators at what position `n - 1` left. -/
def outsAt0 (c : Dev nD) : (n : ℕ) → n < cfg0.N → Held F
  | 0, hn =>
      have h0 : (0 : ℕ) % 8 = 0 := rfl
      have h1 : ¬ (0 : ℕ) % 8 = 7 := by decide
      { o4 := idleOut, o5 := idleOut, o6 := idleOut, o7 := idleOut, o8 := idleOut, o9 := idleOut,
          s0 := soutA_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s1 := soutA_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s2 := soutA_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s3 := soutA_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s4 := soutA_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩),
          s5 := soutA_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩) }
  | n + 1, hn =>
    if h0 : (n + 1) % 8 = 0 then
      if h1 : (n + 1) % 8 = 7 then
        False.elim (by omega)
      else
        { o4 := idleOut, o5 := idleOut, o6 := idleOut, o7 := idleOut, o8 := idleOut, o9 := idleOut,
          s0 := soutA_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s1 := soutA_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s2 := soutA_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s3 := soutA_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s4 := soutA_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
          s5 := soutA_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) }
    else
      if h1 : (n + 1) % 8 = 7 then
        { o4 := outC_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o5 := outC_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o6 := outC_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o7 := outC_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o8 := outC_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          o9 := outC_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s0 := soutC_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s1 := soutC_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s2 := soutC_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s3 := soutC_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s4 := soutC_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s5 := soutC_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5 }
      else
        { o4 := idleOut, o5 := idleOut, o6 := idleOut, o7 := idleOut, o8 := idleOut, o9 := idleOut,
          s0 := soutB_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s1 := soutB_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s2 := soutB_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s3 := soutB_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s4 := soutB_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5,
          s5 := soutB_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3 (outsAt0 c n (Nat.lt_of_succ_lt hn)).s4 (outsAt0 c n (Nat.lt_of_succ_lt hn)).s5 }

theorem outsAt0_A (c : Dev nD) (t : Fin cfg0.N) (h0 : t.val % 8 = 0) (h1 : ¬t.val % 8 = 7) :
    outsAt0 m c t.val t.isLt =
      { o4 := idleOut, o5 := idleOut, o6 := idleOut, o7 := idleOut, o8 := idleOut, o9 := idleOut,
          s0 := soutA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s1 := soutA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s2 := soutA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s3 := soutA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s4 := soutA_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t),
          s5 := soutA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) } := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt =
      { o4 := idleOut, o5 := idleOut, o6 := idleOut, o7 := idleOut, o8 := idleOut, o9 := idleOut,
          s0 := soutB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s1 := soutB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s2 := soutB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s3 := soutB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s4 := soutB_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s5 := soutB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 } := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt =
      { o4 := outC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o5 := outC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o6 := outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o7 := outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o8 := outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          o9 := outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s0 := soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s1 := soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s2 := soutC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s3 := soutC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s4 := soutC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5,
          s5 := soutC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 } := by
  obtain ⟨n, hn⟩ := t
  cases n with
  | zero => exact (by exfalso; (try dsimp only at h0); exact absurd (Nat.zero_mod _) h0)
  | succ n => exact (dif_neg h0).trans ((dif_pos h1).trans rfl)

end Cert.KernelIdeal.Frm

end
-- ==== Proof.KiDat.lean ====
/-
  The pairwise-dots kernel's frame, fourth part: the invariant that carries the six accumulators from point to point
  (before the first point what the launch lends; after a point the accumulators at what that point left), and the
  proof data of the pipeline: the arrays as the region finds them, each input's buffer at its block, each output's at
  what the point left.
-/
import proofs.«111721_j70781061038447_2_alg».proof.Proof.KiHeld

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before the first point: what the launch lends. After point `n`: the six accumulators at what that point left,
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2) ∗ owns (c : Thread nD τ) scM0_3 fullShare ((outsAt0 m c n hn).s3) ∗ owns (c : Thread nD τ) scM0_4 fullShare ((outsAt0 m c n hn).s4) ∗ owns (c : Thread nD τ) scM0_5 fullShare ((outsAt0 m c n hn).s5)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2) ∗ owns (c : Thread nD τ) scM0_3 fullShare ((outsAt0 m c (n - 1) (by omega)).s3) ∗ owns (c : Thread nD τ) scM0_4 fullShare ((outsAt0 m c (n - 1) (by omega)).s4) ∗ owns (c : Thread nD τ) scM0_5 fullShare ((outsAt0 m c (n - 1) (by omega)).s5)) ∗ (∃ r, prngReg c r)) := by
  cases n with
  | zero => exact absurd rfl hz
  | succ n => rfl

/-! ## The pipeline's proof data -/

/-- The arrays as the region finds them; after the body at a point each input's buffer at its block and each
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
    | ⟨7, _⟩ => (outsAt0 m c t.val t.isLt).o7
    | ⟨8, _⟩ => (outsAt0 m c t.val t.isLt).o8
    | ⟨9, _⟩ => (outsAt0 m c t.val t.isLt).o9
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]
theorem after0_7 (c : Dev nD) (t : Fin cfg0.N) : (dats m 0 c).after 7 t = (outsAt0 m c t.val t.isLt).o7 := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Frm

end
-- ==== Proof.KiFrame.lean ====
/-
  The pairwise-dots kernel's frame, last part: the invariant that carries the six accumulators from point to point,
  the proof data of the pipeline, the body's obligation at every point by cases on the point's position among its
  core's eight, the run of the whole program, and the frame claim.
-/
import proofs.«111721_j70781061038447_2_alg».proof.Proof.KiDat

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A last point's contents, field by field -/

theorem outsAt0_C_o4 (c : Dev nD) (t : Fin cfg0.N) (h0 : ¬t.val % 8 = 0) (h1 : t.val % 8 = 7) :
    (outsAt0 m c t.val t.isLt).o4 = outC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o5 (c : Dev nD) (t : Fin cfg0.N) (h0 : ¬t.val % 8 = 0) (h1 : t.val % 8 = 7) :
    (outsAt0 m c t.val t.isLt).o5 = outC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o6 (c : Dev nD) (t : Fin cfg0.N) (h0 : ¬t.val % 8 = 0) (h1 : t.val % 8 = 7) :
    (outsAt0 m c t.val t.isLt).o6 = outC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o7 (c : Dev nD) (t : Fin cfg0.N) (h0 : ¬t.val % 8 = 0) (h1 : t.val % 8 = 7) :
    (outsAt0 m c t.val t.isLt).o7 = outC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o8 (c : Dev nD) (t : Fin cfg0.N) (h0 : ¬t.val % 8 = 0) (h1 : t.val % 8 = 7) :
    (outsAt0 m c t.val t.isLt).o8 = outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_o9 (c : Dev nD) (t : Fin cfg0.N) (h0 : ¬t.val % 8 = 0) (h1 : t.val % 8 = 7) :
    (outsAt0 m c t.val t.isLt).o9 = outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s0 (c : Dev nD) (t : Fin cfg0.N) (h0 : ¬t.val % 8 = 0) (h1 : t.val % 8 = 7) :
    (outsAt0 m c t.val t.isLt).s0 = soutC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s1 (c : Dev nD) (t : Fin cfg0.N) (h0 : ¬t.val % 8 = 0) (h1 : t.val % 8 = 7) :
    (outsAt0 m c t.val t.isLt).s1 = soutC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s2 (c : Dev nD) (t : Fin cfg0.N) (h0 : ¬t.val % 8 = 0) (h1 : t.val % 8 = 7) :
    (outsAt0 m c t.val t.isLt).s2 = soutC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s3 (c : Dev nD) (t : Fin cfg0.N) (h0 : ¬t.val % 8 = 0) (h1 : t.val % 8 = 7) :
    (outsAt0 m c t.val t.isLt).s3 = soutC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s4 (c : Dev nD) (t : Fin cfg0.N) (h0 : ¬t.val % 8 = 0) (h1 : t.val % 8 = 7) :
    (outsAt0 m c t.val t.isLt).s4 = soutC_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

theorem outsAt0_C_s5 (c : Dev nD) (t : Fin cfg0.N) (h0 : ¬t.val % 8 = 0) (h1 : t.val % 8 = 7) :
    (outsAt0 m c t.val t.isLt).s5 = soutC_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).s0 (outsAt0 m c (t.val - 1) (Nat.lt_of_le_of_lt (Nat.sub_le _ _) t.isLt)).s1 (outsAt0 m c (t.val - 1) (Nat.lt_of_le_of_lt (Nat.sub_le _ _) t.isLt)).s2 (outsAt0 m c (t.val - 1) (Nat.lt_of_le_of_lt (Nat.sub_le _ _) t.isLt)).s3 (outsAt0 m c (t.val - 1) (Nat.lt_of_le_of_lt (Nat.sub_le _ _) t.isLt)).s4 (outsAt0 m c (t.val - 1) (Nat.lt_of_le_of_lt (Nat.sub_le _ _) t.isLt)).s5 := by
  rw [outsAt0_C m c t h0 h1]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 16000000 in
/-- The body at any point: the inputs' buffers hold their blocks; the point's position modulo 8 says which case it
    is in; the invariant hands the body the accumulators at what the point before left (at anything at the very first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [Dat.leavesExact_idle (dats m 0 c) 6 t (idleAt0_6 t hc1') (noFlush0_6 t hc1')]
      rw [Dat.leavesExact_idle (dats m 0 c) 7 t (idleAt0_7 t hc1') (noFlush0_7 t hc1')]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_A m c t h0 h1]
      (try dsimp only)
      by_cases hz : t.val = 0
      · rw [PhiS_castSucc m c t, PhiS_zero m c _ _ hz, PhiA0_eq]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutA_0; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutA_1; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutA_2; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutA_3; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutA_4; exact View.read_writes_of_cover _ _ _ _ _ (scoverA_4 c _ _ _ _ _ _ _ _ _ _ _ _ _ _ _ _ _ _ _ _ _ _ _ _ _ _ _ _ _ _ _ _ _ _ _ _ _ _ _)
            unfold owns; iexists _; isplitr
            swap; · iexact HS5
            ipureintro; unfold soutA_5; exact View.read_writes_of_cover _ _ _ _ _ (scoverA_5 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        iexists _; iexact H9

      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexists _; iexact HS0
        isplitl [HS1]; · iexists _; iexact HS1
        isplitl [HS2]; · iexists _; iexact HS2
        isplitl [HS3]; · iexists _; iexact HS3
        isplitl [HS4]; · iexists _; iexact HS4
        isplitl [HS5]; · iexists _; iexact HS5
        iintro ⟨H0, H1, H2, H3, H4, H5, H6, H7, H8, H9, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutA_0; exact View.read_writes_of_cover _ _ _ _ _ (scoverA_0 c _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutA_1; exact View.read_writes_of_cover _ _ _ _ _ (scoverA_1 c _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutA_2; exact View.read_writes_of_cover _ _ _ _ _ (scoverA_2 c _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutA_3; exact View.read_writes_of_cover _ _ _ _ _ (scoverA_3 c _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutA_4; exact View.read_writes_of_cover _ _ _ _ _ (scoverA_4 c _ _ _ _ _ _ _ _ _ _ _ _ _ _ _ _ _ _ _ _ _ _ _ _ _ _ _ _ _ _ _ _ _ _ _ _ _ _ _)
            unfold owns; iexists _; isplitr
            swap; · iexact HS5
            ipureintro; unfold soutA_5; exact View.read_writes_of_cover _ _ _ _ _ (scoverA_5 c _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        iexists _; iexact H9

  · have hz : t.val ≠ 0 := fun hz => h0 (by rw [hz])
    by_cases h1 : t.val % 8 = 7
    · have hc1' : cond0_1 (grid0.coords t) := (hcond0_1 t).mpr h1
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t hc1'], after0_4]
      rw [show (dats m 0 c).leavesExact 5 t = owns (c : Thread nD τ) (ms0_5 t) fullShare ((dats m 0 c).after 5 t) from by
        unfold Dat.leavesExact; rw [liveAt0_5 t hc1'], after0_5]
      rw [show (dats m 0 c).leavesExact 6 t = owns (c : Thread nD τ) (ms0_6 t) fullShare ((dats m 0 c).after 6 t) from by
        unfold Dat.leavesExact; rw [liveAt0_6 t hc1'], after0_6]
      rw [show (dats m 0 c).leavesExact 7 t = owns (c : Thread nD τ) (ms0_7 t) fullShare ((dats m 0 c).after 7 t) from by
        unfold Dat.leavesExact; rw [liveAt0_7 t hc1'], after0_7]
      rw [show (dats m 0 c).leavesExact 8 t = owns (c : Thread nD τ) (ms0_8 t) fullShare ((dats m 0 c).after 8 t) from by
        unfold Dat.leavesExact; rw [liveAt0_8 t hc1'], after0_8]
      rw [show (dats m 0 c).leavesExact 9 t = owns (c : Thread nD τ) (ms0_9 t) fullShare ((dats m 0 c).after 9 t) from by
        unfold Dat.leavesExact; rw [liveAt0_9 t hc1'], after0_9]
      rw [outsAt0_C_o4 m c t h0 h1, outsAt0_C_o5 m c t h0 h1, outsAt0_C_o6 m c t h0 h1, outsAt0_C_o7 m c t h0 h1, outsAt0_C_o8 m c t h0 h1, outsAt0_C_o9 m c t h0 h1, outsAt0_C_s0 m c t h0 h1, outsAt0_C_s1 m c t h0 h1, outsAt0_C_s2 m c t h0 h1, outsAt0_C_s3 m c t h0 h1, outsAt0_C_s4 m c t h0 h1, outsAt0_C_s5 m c t h0 h1]
      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _ _ _).2.2.2.2.2.2.2.2.2.2.2.2  Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutC_0; exact View.read_writes_of_cover _ _ _ _ _ (scoverC_0 c _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutC_1; exact View.read_writes_of_cover _ _ _ _ _ (scoverC_1 c _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutC_2; exact View.read_writes_of_cover _ _ _ _ _ (scoverC_2 c _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutC_3; exact View.read_writes_of_cover _ _ _ _ _ (scoverC_3 c _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutC_4; exact View.read_writes_of_cover _ _ _ _ _ (scoverC_4 c _ _ _ _ _ _ _ _ _ _ _ _ _ _ _ _ _ _ _ _ _ _ _ _ _ _ _ _ _ _ _ _ _ _ _ _ _ _ _ _ _ _ _ _ _)
            unfold owns; iexists _; isplitr
            swap; · iexact HS5
            ipureintro; unfold soutC_5; exact View.read_writes_of_cover _ _ _ _ _ (scoverC_5 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; unfold outC_4; exact View.read_writes_of_cover _ _ _ _ _ (coverC_4 c _ _ _ _ _ _ _ _ _ _ _ _ _ _ _ _ _ _ _ _ _ _ _ _ _ _ _ _ _ _ _ _ _ _ _ _ _ _ _ _ _ _ _ _ _)
        isplitl [H5]
        · unfold owns; iexists _; isplitr
          swap; · iexact H5
          ipureintro; unfold outC_5; exact View.read_writes_of_cover _ _ _ _ _ (coverC_5 c _ _ _ _ _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; unfold outC_6; exact View.read_writes_of_cover _ _ _ _ _ (coverC_6 c _ _ _ _ _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; unfold outC_7; exact View.read_writes_of_cover _ _ _ _ _ (coverC_7 c _ _ _ _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; unfold outC_8; exact View.read_writes_of_cover _ _ _ _ _ (coverC_8 c _ _ _ _ _ _ _ _ _ _ _ _ _ _ _ _ _ _ _ _ _ _ _ _ _ _ _ _ _ _ _ _ _ _ _ _ _ _ _ _ _ _ _ _ _)
        unfold owns; iexists _; isplitr
        swap; · iexact H9
        ipureintro; unfold outC_9; exact View.read_writes_of_cover _ _ _ _ _ (coverC_9 c _ _ _ _ _ _ _ _ _ _ _ _ _ _ _ _ _ _ _ _ _ _ _ _ _ _ _ _ _ _ _ _ _ _ _ _ _ _ _ _ _ _ _ _ _)

    · have hc1' : ¬cond0_1 (grid0.coords t) := fun h => h1 ((hcond0_1 t).mp h)
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t hc1') (noFlush0_4 t hc1')]
      rw [Dat.leavesExact_idle (dats m 0 c) 5 t (idleAt0_5 t hc1') (noFlush0_5 t hc1')]
      rw [Dat.leavesExact_idle (dats m 0 c) 6 t (idleAt0_6 t hc1') (noFlush0_6 t hc1')]
      rw [Dat.leavesExact_idle (dats m 0 c) 7 t (idleAt0_7 t hc1') (noFlush0_7 t hc1')]
      rw [Dat.leavesExact_idle (dats m 0 c) 8 t (idleAt0_8 t hc1') (noFlush0_8 t hc1')]
      rw [Dat.leavesExact_idle (dats m 0 c) 9 t (idleAt0_9 t hc1') (noFlush0_9 t hc1')]
      rw [outsAt0_B m c t h0 h1]
      (try dsimp only)
      · rw [PhiS_castSucc m c t, PhiS_pos m c _ _ hz]
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ _ _).2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, ⟨%es0, HS0⟩, ⟨%es1, HS1⟩, ⟨%es2, HS2⟩, ⟨%es3, HS3⟩, ⟨%es4, HS4⟩, ⟨%es5, HS5⟩⟩
        isplitl [HS0 HS1 HS2 HS3 HS4 HS5 Hg]
        · isplitl [HS0 HS1 HS2 HS3 HS4 HS5]
          ·
            isplitl [HS0]
            · unfold owns; iexists _; isplitr
              swap; · iexact HS0
              ipureintro; unfold soutB_0; exact View.read_writes_of_cover _ _ _ _ _ (scoverB_0 c _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; unfold soutB_1; exact View.read_writes_of_cover _ _ _ _ _ (scoverB_1 c _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; unfold soutB_2; exact View.read_writes_of_cover _ _ _ _ _ (scoverB_2 c _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; unfold soutB_3; exact View.read_writes_of_cover _ _ _ _ _ (scoverB_3 c _ _ _ _ _ _ _ _ _ _ _ _ _ _ _ _ _ _ _ _ _ _ _ _ _ _ _ _ _ _ _ _ _ _ _ _ _ _ _ _ _ _ _ _ _)
            isplitl [HS4]
            · unfold owns; iexists _; isplitr
              swap; · iexact HS4
              ipureintro; unfold soutB_4; exact View.read_writes_of_cover _ _ _ _ _ (scoverB_4 c _ _ _ _ _ _ _ _ _ _ _ _ _ _ _ _ _ _ _ _ _ _ _ _ _ _ _ _ _ _ _ _ _ _ _ _ _ _ _ _ _ _ _ _ _)
            unfold owns; iexists _; isplitr
            swap; · iexact HS5
            ipureintro; unfold soutB_5; exact View.read_writes_of_cover _ _ _ _ _ (scoverB_5 c _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [H8]; · iexists _; iexact H8
        iexists _; iexact H9

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and in the final state every window's array is what the
    pipeline's write-backs leave of the proof data, every other unscoped buffer what the 39 later lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Frm

end
-- ==== Proof.KiArr.lean ====
/-
  The six output arrays of the pairwise-dots kernel after the region, at the entries the later host lines read.
  Each output window has block [1,1,128] over an array [2,1,128] and block index (point / 8, 0, 0): row `r` of the
  array is written back exactly once, at the last of core `r`'s eight points, point `8 r + 7`. So the array ends
  holding, in row `r`, what that point left in the window's output block (`arrK_eq`), and in particular at lane 0
  (`arrK_at`).
-/
import proofs.«111721_j70781061038447_2_alg».proof.Proof.KiDat
import Idealize.ShloMosaic.Lib.Pipeline.Value
import Idealize.ShloMosaic.Lib.ValueIdx

noncomputable section

namespace Cert.KernelIdeal.Arr

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

variable {F : FTy → Type} [FloatOps F]
variable (m : (ℓ : Loc nD τ sig) → Buf (Elt F) ℓ)

/-- The last of core `r`'s eight points is a point of the grid. -/
theorem last_lt (r : ℕ) (hr : r < 2) : 8 * r + 7 < cfg0.N := by
  have hN : grid0.N = 16 := N_0
  show 8 * r + 7 < grid0.N
  omega

/-- What the accumulators and outputs hold after a point does not depend on how the point's number is written. -/
theorem outsAt0_congr (c : Dev nD) {n n' : ℕ} (e : n = n') (h : n < cfg0.N) (h' : n' < cfg0.N) :
    outsAt0 m c n h = outsAt0 m c n' h' := by
  subst e; rfl

/-! ## Output window 4 -/

/-- The block index of window 4 at every point: (point / 8, 0, 0). -/
theorem idx_facts4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What the array of window 4 ends holding: in row `r`, what point `8 r + 7` left in the output block. -/
def G4 (c : Dev nD) : S2x1x128.Idx → Elt F .f32 := fun y =>
  (outsAt0 m c (8 * (y 0).val + 7) (last_lt (y 0).val (y 0).isLt)).o4
    (ix3 (0 : Fin 1) (0 : Fin 1) (⟨(y 2).val, (y 2).isLt⟩ : Fin 128))

/-- What a flushing point writes back is its block of `G4`: the point is `8 r + 7` and its block is row `r`. -/
theorem flushed4_eq (c : Dev nD) (t : Fin cfg0.N) (hf : (cfg0.win 4).flush t = true) :
    (dats m 0 c).flushed 4 t = ((cfg0.win 4).blk t).view.read (Elt F) (G4 m c) := by
  have h7 : t.val % 8 = 7 := (flush0_4 t).mp hf
  obtain ⟨e0, e1, e2⟩ := idx_facts4 t
  show (cfg0.win 4).cut (grid0.coords t) ((dats m 0 c).after 4 t) = _
  rw [after0_4]
  funext j
  have hj0 : (j 0).val < 1 := (j 0).isLt
  have hj1 : (j 1).val < 1 := (j 1).isLt
  have hj2 : (j 2).val < 128 := (j 2).isLt
  have r0 : ((((cfg0.win 4).blk t).view.emb j) 0).val = t.val / 8 := by
    show win0_4.index t (0 : Fin 3) * 1 + 1 * (j 0).val = t.val / 8
    rw [e0]; omega
  have r2 : ((((cfg0.win 4).blk t).view.emb j) 2).val = (j 2).val := by
    show win0_4.index t (2 : Fin 3) * 128 + 1 * (j 2).val = (j 2).val
    rw [e2]; omega
  show (outsAt0 m c t.val t.isLt).o4 ((cfg0.win 4).xinj (grid0.coords t) j)
    = G4 m c (((cfg0.win 4).blk t).view.emb j)
  unfold G4
  have hn : t.val = 8 * ((((cfg0.win 4).blk t).view.emb j) 0).val + 7 := by rw [r0]; omega
  rw [outsAt0_congr m c hn t.isLt (last_lt _ (((((cfg0.win 4).blk t).view.emb j) 0).isLt))]
  refine congrArg _ ?_
  funext a; apply Fin.ext
  match a with
  | ⟨0, _⟩ => show (j 0).val = 0; omega
  | ⟨1, _⟩ => show (j 1).val = 0; omega
  | ⟨2, _⟩ => show (j 2).val = ((((cfg0.win 4).blk t).view.emb j) 2).val; rw [r2]

/-- Entry (r, 0, l) of the array lies in the block of point `8 r + 7`. -/
theorem mem_blk4 (r : Fin 2) (l : Fin 128) :
    (ix3 r (0 : Fin 1) l : S2x1x128.Idx) ∈ ((cfg0.win 4).blk ⟨8 * r.val + 7, last_lt r.val r.isLt⟩).view.set := by
  obtain ⟨e0, e1, e2⟩ := idx_facts4 ⟨8 * r.val + 7, last_lt r.val r.isLt⟩
  show _ ∈ ((View.whole main_v4_0).slice (win0_4.rect ⟨8 * r.val + 7, last_lt r.val r.isLt⟩)).set
  rw [View.set_slice_whole, Rect.mem_set_unit]
  intro a
  have hr : r.val < 2 := r.isLt
  have hl : l.val < 128 := l.isLt
  match a with
  | ⟨0, _⟩ =>
    show win0_4.index ⟨8 * r.val + 7, _⟩ (0 : Fin 3) * 1 ≤ r.val ∧ r.val < win0_4.index ⟨8 * r.val + 7, _⟩ (0 : Fin 3) * 1 + 1
    rw [e0]; show (8 * r.val + 7) / 8 * 1 ≤ r.val ∧ r.val < (8 * r.val + 7) / 8 * 1 + 1; omega
  | ⟨1, _⟩ =>
    show win0_4.index ⟨8 * r.val + 7, _⟩ (1 : Fin 3) * 1 ≤ 0 ∧ 0 < win0_4.index ⟨8 * r.val + 7, _⟩ (1 : Fin 3) * 1 + 1
    rw [e1]; omega
  | ⟨2, _⟩ =>
    show win0_4.index ⟨8 * r.val + 7, _⟩ (2 : Fin 3) * 128 ≤ l.val ∧ l.val < win0_4.index ⟨8 * r.val + 7, _⟩ (2 : Fin 3) * 128 + 128
    rw [e2]; omega

/-- The array of window 4 after the region, at (r, 0, l): what point `8 r + 7` left in the output block at lane `l`. -/
theorem arr4_apply (c : Dev nD) (r : Fin 2) (l : Fin 128) (h : 8 * r.val + 7 < cfg0.N) :
    (dats (F := F) m 0 c).arrAt 4 cfg0.N (ix3 r (0 : Fin 1) l)
      = (outsAt0 m c (8 * r.val + 7) h).o4 (ix3 (0 : Fin 1) (0 : Fin 1) l) :=
  (dats m 0 c).arrAt_apply_of_mem 4 (G4 m c) (flushed4_eq m c) cfg0.N ⟨8 * r.val + 7, last_lt r.val r.isLt⟩
    (ix3 r (0 : Fin 1) l) (last_lt r.val r.isLt) ((flush0_4 _).mpr (by show (8 * r.val + 7) % 8 = 7; omega))
    (mem_blk4 r l)

/-- At lane 0, the entry the later host lines read. -/
theorem arr4_at (c : Dev nD) (c' : Fin 2) (h : 8 * c'.val + 7 < cfg0.N) :
    (dats (F := F) m 0 c).arrAt 4 cfg0.N (ix3 c' (0 : Fin 1) (0 : Fin 128))
      = (outsAt0 m c (8 * c'.val + 7) h).o4 (ix3 (0 : Fin 1) (0 : Fin 1) (0 : Fin 128)) :=
  arr4_apply m c c' 0 h

/-- The whole array of window 4 after the region: every entry is (r, 0, l), in the block of point `8 r + 7`. -/
theorem arr4_eq (c : Dev nD) : (dats (F := F) m 0 c).arrAt 4 cfg0.N = G4 m c :=
  (dats m 0 c).arrAt_eq_of_cover 4 (G4 m c) (flushed4_eq m c) fun i => by
    obtain ⟨r, u, l, rfl⟩ : ∃ (r : Fin 2) (u : Fin 1) (l : Fin 128), i = ix3 r u l := ⟨i 0, i 1, i 2, eq_ix3 i⟩
    obtain rfl : u = 0 := Subsingleton.elim _ _
    exact ⟨⟨8 * r.val + 7, last_lt r.val r.isLt⟩, (flush0_4 _).mpr (by show (8 * r.val + 7) % 8 = 7; omega), mem_blk4 r l⟩

/-! ## Output window 5 -/

/-- The block index of window 5 at every point: (point / 8, 0, 0). -/
theorem idx_facts5 : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- What the array of window 5 ends holding: in row `r`, what point `8 r + 7` left in the output block. -/
def G5 (c : Dev nD) : S2x1x128.Idx → Elt F .f32 := fun y =>
  (outsAt0 m c (8 * (y 0).val + 7) (last_lt (y 0).val (y 0).isLt)).o5
    (ix3 (0 : Fin 1) (0 : Fin 1) (⟨(y 2).val, (y 2).isLt⟩ : Fin 128))

/-- What a flushing point writes back is its block of `G5`: the point is `8 r + 7` and its block is row `r`. -/
theorem flushed5_eq (c : Dev nD) (t : Fin cfg0.N) (hf : (cfg0.win 5).flush t = true) :
    (dats m 0 c).flushed 5 t = ((cfg0.win 5).blk t).view.read (Elt F) (G5 m c) := by
  have h7 : t.val % 8 = 7 := (flush0_5 t).mp hf
  obtain ⟨e0, e1, e2⟩ := idx_facts5 t
  show (cfg0.win 5).cut (grid0.coords t) ((dats m 0 c).after 5 t) = _
  rw [after0_5]
  funext j
  have hj0 : (j 0).val < 1 := (j 0).isLt
  have hj1 : (j 1).val < 1 := (j 1).isLt
  have hj2 : (j 2).val < 128 := (j 2).isLt
  have r0 : ((((cfg0.win 5).blk t).view.emb j) 0).val = t.val / 8 := by
    show win0_5.index t (0 : Fin 3) * 1 + 1 * (j 0).val = t.val / 8
    rw [e0]; omega
  have r2 : ((((cfg0.win 5).blk t).view.emb j) 2).val = (j 2).val := by
    show win0_5.index t (2 : Fin 3) * 128 + 1 * (j 2).val = (j 2).val
    rw [e2]; omega
  show (outsAt0 m c t.val t.isLt).o5 ((cfg0.win 5).xinj (grid0.coords t) j)
    = G5 m c (((cfg0.win 5).blk t).view.emb j)
  unfold G5
  have hn : t.val = 8 * ((((cfg0.win 5).blk t).view.emb j) 0).val + 7 := by rw [r0]; omega
  rw [outsAt0_congr m c hn t.isLt (last_lt _ (((((cfg0.win 5).blk t).view.emb j) 0).isLt))]
  refine congrArg _ ?_
  funext a; apply Fin.ext
  match a with
  | ⟨0, _⟩ => show (j 0).val = 0; omega
  | ⟨1, _⟩ => show (j 1).val = 0; omega
  | ⟨2, _⟩ => show (j 2).val = ((((cfg0.win 5).blk t).view.emb j) 2).val; rw [r2]

/-- Entry (r, 0, l) of the array lies in the block of point `8 r + 7`. -/
theorem mem_blk5 (r : Fin 2) (l : Fin 128) :
    (ix3 r (0 : Fin 1) l : S2x1x128.Idx) ∈ ((cfg0.win 5).blk ⟨8 * r.val + 7, last_lt r.val r.isLt⟩).view.set := by
  obtain ⟨e0, e1, e2⟩ := idx_facts5 ⟨8 * r.val + 7, last_lt r.val r.isLt⟩
  show _ ∈ ((View.whole main_v4_1).slice (win0_5.rect ⟨8 * r.val + 7, last_lt r.val r.isLt⟩)).set
  rw [View.set_slice_whole, Rect.mem_set_unit]
  intro a
  have hr : r.val < 2 := r.isLt
  have hl : l.val < 128 := l.isLt
  match a with
  | ⟨0, _⟩ =>
    show win0_5.index ⟨8 * r.val + 7, _⟩ (0 : Fin 3) * 1 ≤ r.val ∧ r.val < win0_5.index ⟨8 * r.val + 7, _⟩ (0 : Fin 3) * 1 + 1
    rw [e0]; show (8 * r.val + 7) / 8 * 1 ≤ r.val ∧ r.val < (8 * r.val + 7) / 8 * 1 + 1; omega
  | ⟨1, _⟩ =>
    show win0_5.index ⟨8 * r.val + 7, _⟩ (1 : Fin 3) * 1 ≤ 0 ∧ 0 < win0_5.index ⟨8 * r.val + 7, _⟩ (1 : Fin 3) * 1 + 1
    rw [e1]; omega
  | ⟨2, _⟩ =>
    show win0_5.index ⟨8 * r.val + 7, _⟩ (2 : Fin 3) * 128 ≤ l.val ∧ l.val < win0_5.index ⟨8 * r.val + 7, _⟩ (2 : Fin 3) * 128 + 128
    rw [e2]; omega

/-- The array of window 5 after the region, at (r, 0, l): what point `8 r + 7` left in the output block at lane `l`. -/
theorem arr5_apply (c : Dev nD) (r : Fin 2) (l : Fin 128) (h : 8 * r.val + 7 < cfg0.N) :
    (dats (F := F) m 0 c).arrAt 5 cfg0.N (ix3 r (0 : Fin 1) l)
      = (outsAt0 m c (8 * r.val + 7) h).o5 (ix3 (0 : Fin 1) (0 : Fin 1) l) :=
  (dats m 0 c).arrAt_apply_of_mem 5 (G5 m c) (flushed5_eq m c) cfg0.N ⟨8 * r.val + 7, last_lt r.val r.isLt⟩
    (ix3 r (0 : Fin 1) l) (last_lt r.val r.isLt) ((flush0_5 _).mpr (by show (8 * r.val + 7) % 8 = 7; omega))
    (mem_blk5 r l)

/-- At lane 0, the entry the later host lines read. -/
theorem arr5_at (c : Dev nD) (c' : Fin 2) (h : 8 * c'.val + 7 < cfg0.N) :
    (dats (F := F) m 0 c).arrAt 5 cfg0.N (ix3 c' (0 : Fin 1) (0 : Fin 128))
      = (outsAt0 m c (8 * c'.val + 7) h).o5 (ix3 (0 : Fin 1) (0 : Fin 1) (0 : Fin 128)) :=
  arr5_apply m c c' 0 h

/-- The whole array of window 5 after the region: every entry is (r, 0, l), in the block of point `8 r + 7`. -/
theorem arr5_eq (c : Dev nD) : (dats (F := F) m 0 c).arrAt 5 cfg0.N = G5 m c :=
  (dats m 0 c).arrAt_eq_of_cover 5 (G5 m c) (flushed5_eq m c) fun i => by
    obtain ⟨r, u, l, rfl⟩ : ∃ (r : Fin 2) (u : Fin 1) (l : Fin 128), i = ix3 r u l := ⟨i 0, i 1, i 2, eq_ix3 i⟩
    obtain rfl : u = 0 := Subsingleton.elim _ _
    exact ⟨⟨8 * r.val + 7, last_lt r.val r.isLt⟩, (flush0_5 _).mpr (by show (8 * r.val + 7) % 8 = 7; omega), mem_blk5 r l⟩

/-! ## Output window 6 -/

/-- The block index of window 6 at every point: (point / 8, 0, 0). -/
theorem idx_facts6 : ∀ t : Fin cfg0.N, win0_6.index t (0 : Fin 3) = t.val / 8 ∧ win0_6.index t (1 : Fin 3) = 0
    ∧ win0_6.index t (2 : Fin 3) = 0 :=
  (by decide +kernel : ∀ t : Fin grid0.N, _)

/-- What the array of window 6 ends holding: in row `r`, what point `8 r + 7` left in the output block. -/
def G6 (c : Dev nD) : S2x1x128.Idx → Elt F .f32 := fun y =>
  (outsAt0 m c (8 * (y 0).val + 7) (last_lt (y 0).val (y 0).isLt)).o6
    (ix3 (0 : Fin 1) (0 : Fin 1) (⟨(y 2).val, (y 2).isLt⟩ : Fin 128))

/-- What a flushing point writes back is its block of `G6`: the point is `8 r + 7` and its block is row `r`. -/
theorem flushed6_eq (c : Dev nD) (t : Fin cfg0.N) (hf : (cfg0.win 6).flush t = true) :
    (dats m 0 c).flushed 6 t = ((cfg0.win 6).blk t).view.read (Elt F) (G6 m c) := by
  have h7 : t.val % 8 = 7 := (flush0_6 t).mp hf
  obtain ⟨e0, e1, e2⟩ := idx_facts6 t
  show (cfg0.win 6).cut (grid0.coords t) ((dats m 0 c).after 6 t) = _
  rw [after0_6]
  funext j
  have hj0 : (j 0).val < 1 := (j 0).isLt
  have hj1 : (j 1).val < 1 := (j 1).isLt
  have hj2 : (j 2).val < 128 := (j 2).isLt
  have r0 : ((((cfg0.win 6).blk t).view.emb j) 0).val = t.val / 8 := by
    show win0_6.index t (0 : Fin 3) * 1 + 1 * (j 0).val = t.val / 8
    rw [e0]; omega
  have r2 : ((((cfg0.win 6).blk t).view.emb j) 2).val = (j 2).val := by
    show win0_6.index t (2 : Fin 3) * 128 + 1 * (j 2).val = (j 2).val
    rw [e2]; omega
  show (outsAt0 m c t.val t.isLt).o6 ((cfg0.win 6).xinj (grid0.coords t) j)
    = G6 m c (((cfg0.win 6).blk t).view.emb j)
  unfold G6
  have hn : t.val = 8 * ((((cfg0.win 6).blk t).view.emb j) 0).val + 7 := by rw [r0]; omega
  rw [outsAt0_congr m c hn t.isLt (last_lt _ (((((cfg0.win 6).blk t).view.emb j) 0).isLt))]
  refine congrArg _ ?_
  funext a; apply Fin.ext
  match a with
  | ⟨0, _⟩ => show (j 0).val = 0; omega
  | ⟨1, _⟩ => show (j 1).val = 0; omega
  | ⟨2, _⟩ => show (j 2).val = ((((cfg0.win 6).blk t).view.emb j) 2).val; rw [r2]

/-- Entry (r, 0, l) of the array lies in the block of point `8 r + 7`. -/
theorem mem_blk6 (r : Fin 2) (l : Fin 128) :
    (ix3 r (0 : Fin 1) l : S2x1x128.Idx) ∈ ((cfg0.win 6).blk ⟨8 * r.val + 7, last_lt r.val r.isLt⟩).view.set := by
  obtain ⟨e0, e1, e2⟩ := idx_facts6 ⟨8 * r.val + 7, last_lt r.val r.isLt⟩
  show _ ∈ ((View.whole main_v4_2).slice (win0_6.rect ⟨8 * r.val + 7, last_lt r.val r.isLt⟩)).set
  rw [View.set_slice_whole, Rect.mem_set_unit]
  intro a
  have hr : r.val < 2 := r.isLt
  have hl : l.val < 128 := l.isLt
  match a with
  | ⟨0, _⟩ =>
    show win0_6.index ⟨8 * r.val + 7, _⟩ (0 : Fin 3) * 1 ≤ r.val ∧ r.val < win0_6.index ⟨8 * r.val + 7, _⟩ (0 : Fin 3) * 1 + 1
    rw [e0]; show (8 * r.val + 7) / 8 * 1 ≤ r.val ∧ r.val < (8 * r.val + 7) / 8 * 1 + 1; omega
  | ⟨1, _⟩ =>
    show win0_6.index ⟨8 * r.val + 7, _⟩ (1 : Fin 3) * 1 ≤ 0 ∧ 0 < win0_6.index ⟨8 * r.val + 7, _⟩ (1 : Fin 3) * 1 + 1
    rw [e1]; omega
  | ⟨2, _⟩ =>
    show win0_6.index ⟨8 * r.val + 7, _⟩ (2 : Fin 3) * 128 ≤ l.val ∧ l.val < win0_6.index ⟨8 * r.val + 7, _⟩ (2 : Fin 3) * 128 + 128
    rw [e2]; omega

/-- The array of window 6 after the region, at (r, 0, l): what point `8 r + 7` left in the output block at lane `l`. -/
theorem arr6_apply (c : Dev nD) (r : Fin 2) (l : Fin 128) (h : 8 * r.val + 7 < cfg0.N) :
    (dats (F := F) m 0 c).arrAt 6 cfg0.N (ix3 r (0 : Fin 1) l)
      = (outsAt0 m c (8 * r.val + 7) h).o6 (ix3 (0 : Fin 1) (0 : Fin 1) l) :=
  (dats m 0 c).arrAt_apply_of_mem 6 (G6 m c) (flushed6_eq m c) cfg0.N ⟨8 * r.val + 7, last_lt r.val r.isLt⟩
    (ix3 r (0 : Fin 1) l) (last_lt r.val r.isLt) ((flush0_6 _).mpr (by show (8 * r.val + 7) % 8 = 7; omega))
    (mem_blk6 r l)

/-- At lane 0, the entry the later host lines read. -/
theorem arr6_at (c : Dev nD) (c' : Fin 2) (h : 8 * c'.val + 7 < cfg0.N) :
    (dats (F := F) m 0 c).arrAt 6 cfg0.N (ix3 c' (0 : Fin 1) (0 : Fin 128))
      = (outsAt0 m c (8 * c'.val + 7) h).o6 (ix3 (0 : Fin 1) (0 : Fin 1) (0 : Fin 128)) :=
  arr6_apply m c c' 0 h

/-- The whole array of window 6 after the region: every entry is (r, 0, l), in the block of point `8 r + 7`. -/
theorem arr6_eq (c : Dev nD) : (dats (F := F) m 0 c).arrAt 6 cfg0.N = G6 m c :=
  (dats m 0 c).arrAt_eq_of_cover 6 (G6 m c) (flushed6_eq m c) fun i => by
    obtain ⟨r, u, l, rfl⟩ : ∃ (r : Fin 2) (u : Fin 1) (l : Fin 128), i = ix3 r u l := ⟨i 0, i 1, i 2, eq_ix3 i⟩
    obtain rfl : u = 0 := Subsingleton.elim _ _
    exact ⟨⟨8 * r.val + 7, last_lt r.val r.isLt⟩, (flush0_6 _).mpr (by show (8 * r.val + 7) % 8 = 7; omega), mem_blk6 r l⟩

/-! ## Output window 7 -/

/-- The block index of window 7 at every point: (point / 8, 0, 0). -/
theorem idx_facts7 : ∀ t : Fin cfg0.N, win0_7.index t (0 : Fin 3) = t.val / 8 ∧ win0_7.index t (1 : Fin 3) = 0
    ∧ win0_7.index t (2 : Fin 3) = 0 :=
  (by decide +kernel : ∀ t : Fin grid0.N, _)

/-- What the array of window 7 ends holding: in row `r`, what point `8 r + 7` left in the output block. -/
def G7 (c : Dev nD) : S2x1x128.Idx → Elt F .f32 := fun y =>
  (outsAt0 m c (8 * (y 0).val + 7) (last_lt (y 0).val (y 0).isLt)).o7
    (ix3 (0 : Fin 1) (0 : Fin 1) (⟨(y 2).val, (y 2).isLt⟩ : Fin 128))

/-- What a flushing point writes back is its block of `G7`: the point is `8 r + 7` and its block is row `r`. -/
theorem flushed7_eq (c : Dev nD) (t : Fin cfg0.N) (hf : (cfg0.win 7).flush t = true) :
    (dats m 0 c).flushed 7 t = ((cfg0.win 7).blk t).view.read (Elt F) (G7 m c) := by
  have h7 : t.val % 8 = 7 := (flush0_7 t).mp hf
  obtain ⟨e0, e1, e2⟩ := idx_facts7 t
  show (cfg0.win 7).cut (grid0.coords t) ((dats m 0 c).after 7 t) = _
  rw [after0_7]
  funext j
  have hj0 : (j 0).val < 1 := (j 0).isLt
  have hj1 : (j 1).val < 1 := (j 1).isLt
  have hj2 : (j 2).val < 128 := (j 2).isLt
  have r0 : ((((cfg0.win 7).blk t).view.emb j) 0).val = t.val / 8 := by
    show win0_7.index t (0 : Fin 3) * 1 + 1 * (j 0).val = t.val / 8
    rw [e0]; omega
  have r2 : ((((cfg0.win 7).blk t).view.emb j) 2).val = (j 2).val := by
    show win0_7.index t (2 : Fin 3) * 128 + 1 * (j 2).val = (j 2).val
    rw [e2]; omega
  show (outsAt0 m c t.val t.isLt).o7 ((cfg0.win 7).xinj (grid0.coords t) j)
    = G7 m c (((cfg0.win 7).blk t).view.emb j)
  unfold G7
  have hn : t.val = 8 * ((((cfg0.win 7).blk t).view.emb j) 0).val + 7 := by rw [r0]; omega
  rw [outsAt0_congr m c hn t.isLt (last_lt _ (((((cfg0.win 7).blk t).view.emb j) 0).isLt))]
  refine congrArg _ ?_
  funext a; apply Fin.ext
  match a with
  | ⟨0, _⟩ => show (j 0).val = 0; omega
  | ⟨1, _⟩ => show (j 1).val = 0; omega
  | ⟨2, _⟩ => show (j 2).val = ((((cfg0.win 7).blk t).view.emb j) 2).val; rw [r2]

/-- Entry (r, 0, l) of the array lies in the block of point `8 r + 7`. -/
theorem mem_blk7 (r : Fin 2) (l : Fin 128) :
    (ix3 r (0 : Fin 1) l : S2x1x128.Idx) ∈ ((cfg0.win 7).blk ⟨8 * r.val + 7, last_lt r.val r.isLt⟩).view.set := by
  obtain ⟨e0, e1, e2⟩ := idx_facts7 ⟨8 * r.val + 7, last_lt r.val r.isLt⟩
  show _ ∈ ((View.whole main_v4_3).slice (win0_7.rect ⟨8 * r.val + 7, last_lt r.val r.isLt⟩)).set
  rw [View.set_slice_whole, Rect.mem_set_unit]
  intro a
  have hr : r.val < 2 := r.isLt
  have hl : l.val < 128 := l.isLt
  match a with
  | ⟨0, _⟩ =>
    show win0_7.index ⟨8 * r.val + 7, _⟩ (0 : Fin 3) * 1 ≤ r.val ∧ r.val < win0_7.index ⟨8 * r.val + 7, _⟩ (0 : Fin 3) * 1 + 1
    rw [e0]; show (8 * r.val + 7) / 8 * 1 ≤ r.val ∧ r.val < (8 * r.val + 7) / 8 * 1 + 1; omega
  | ⟨1, _⟩ =>
    show win0_7.index ⟨8 * r.val + 7, _⟩ (1 : Fin 3) * 1 ≤ 0 ∧ 0 < win0_7.index ⟨8 * r.val + 7, _⟩ (1 : Fin 3) * 1 + 1
    rw [e1]; omega
  | ⟨2, _⟩ =>
    show win0_7.index ⟨8 * r.val + 7, _⟩ (2 : Fin 3) * 128 ≤ l.val ∧ l.val < win0_7.index ⟨8 * r.val + 7, _⟩ (2 : Fin 3) * 128 + 128
    rw [e2]; omega

/-- The array of window 7 after the region, at (r, 0, l): what point `8 r + 7` left in the output block at lane `l`. -/
theorem arr7_apply (c : Dev nD) (r : Fin 2) (l : Fin 128) (h : 8 * r.val + 7 < cfg0.N) :
    (dats (F := F) m 0 c).arrAt 7 cfg0.N (ix3 r (0 : Fin 1) l)
      = (outsAt0 m c (8 * r.val + 7) h).o7 (ix3 (0 : Fin 1) (0 : Fin 1) l) :=
  (dats m 0 c).arrAt_apply_of_mem 7 (G7 m c) (flushed7_eq m c) cfg0.N ⟨8 * r.val + 7, last_lt r.val r.isLt⟩
    (ix3 r (0 : Fin 1) l) (last_lt r.val r.isLt) ((flush0_7 _).mpr (by show (8 * r.val + 7) % 8 = 7; omega))
    (mem_blk7 r l)

/-- At lane 0, the entry the later host lines read. -/
theorem arr7_at (c : Dev nD) (c' : Fin 2) (h : 8 * c'.val + 7 < cfg0.N) :
    (dats (F := F) m 0 c).arrAt 7 cfg0.N (ix3 c' (0 : Fin 1) (0 : Fin 128))
      = (outsAt0 m c (8 * c'.val + 7) h).o7 (ix3 (0 : Fin 1) (0 : Fin 1) (0 : Fin 128)) :=
  arr7_apply m c c' 0 h

/-- The whole array of window 7 after the region: every entry is (r, 0, l), in the block of point `8 r + 7`. -/
theorem arr7_eq (c : Dev nD) : (dats (F := F) m 0 c).arrAt 7 cfg0.N = G7 m c :=
  (dats m 0 c).arrAt_eq_of_cover 7 (G7 m c) (flushed7_eq m c) fun i => by
    obtain ⟨r, u, l, rfl⟩ : ∃ (r : Fin 2) (u : Fin 1) (l : Fin 128), i = ix3 r u l := ⟨i 0, i 1, i 2, eq_ix3 i⟩
    obtain rfl : u = 0 := Subsingleton.elim _ _
    exact ⟨⟨8 * r.val + 7, last_lt r.val r.isLt⟩, (flush0_7 _).mpr (by show (8 * r.val + 7) % 8 = 7; omega), mem_blk7 r l⟩

/-! ## Output window 8 -/

/-- The block index of window 8 at every point: (point / 8, 0, 0). -/
theorem idx_facts8 : ∀ t : Fin cfg0.N, win0_8.index t (0 : Fin 3) = t.val / 8 ∧ win0_8.index t (1 : Fin 3) = 0
    ∧ win0_8.index t (2 : Fin 3) = 0 :=
  (by decide +kernel : ∀ t : Fin grid0.N, _)

/-- What the array of window 8 ends holding: in row `r`, what point `8 r + 7` left in the output block. -/
def G8 (c : Dev nD) : S2x1x128.Idx → Elt F .f32 := fun y =>
  (outsAt0 m c (8 * (y 0).val + 7) (last_lt (y 0).val (y 0).isLt)).o8
    (ix3 (0 : Fin 1) (0 : Fin 1) (⟨(y 2).val, (y 2).isLt⟩ : Fin 128))

/-- What a flushing point writes back is its block of `G8`: the point is `8 r + 7` and its block is row `r`. -/
theorem flushed8_eq (c : Dev nD) (t : Fin cfg0.N) (hf : (cfg0.win 8).flush t = true) :
    (dats m 0 c).flushed 8 t = ((cfg0.win 8).blk t).view.read (Elt F) (G8 m c) := by
  have h7 : t.val % 8 = 7 := (flush0_8 t).mp hf
  obtain ⟨e0, e1, e2⟩ := idx_facts8 t
  show (cfg0.win 8).cut (grid0.coords t) ((dats m 0 c).after 8 t) = _
  rw [after0_8]
  funext j
  have hj0 : (j 0).val < 1 := (j 0).isLt
  have hj1 : (j 1).val < 1 := (j 1).isLt
  have hj2 : (j 2).val < 128 := (j 2).isLt
  have r0 : ((((cfg0.win 8).blk t).view.emb j) 0).val = t.val / 8 := by
    show win0_8.index t (0 : Fin 3) * 1 + 1 * (j 0).val = t.val / 8
    rw [e0]; omega
  have r2 : ((((cfg0.win 8).blk t).view.emb j) 2).val = (j 2).val := by
    show win0_8.index t (2 : Fin 3) * 128 + 1 * (j 2).val = (j 2).val
    rw [e2]; omega
  show (outsAt0 m c t.val t.isLt).o8 ((cfg0.win 8).xinj (grid0.coords t) j)
    = G8 m c (((cfg0.win 8).blk t).view.emb j)
  unfold G8
  have hn : t.val = 8 * ((((cfg0.win 8).blk t).view.emb j) 0).val + 7 := by rw [r0]; omega
  rw [outsAt0_congr m c hn t.isLt (last_lt _ (((((cfg0.win 8).blk t).view.emb j) 0).isLt))]
  refine congrArg _ ?_
  funext a; apply Fin.ext
  match a with
  | ⟨0, _⟩ => show (j 0).val = 0; omega
  | ⟨1, _⟩ => show (j 1).val = 0; omega
  | ⟨2, _⟩ => show (j 2).val = ((((cfg0.win 8).blk t).view.emb j) 2).val; rw [r2]

/-- Entry (r, 0, l) of the array lies in the block of point `8 r + 7`. -/
theorem mem_blk8 (r : Fin 2) (l : Fin 128) :
    (ix3 r (0 : Fin 1) l : S2x1x128.Idx) ∈ ((cfg0.win 8).blk ⟨8 * r.val + 7, last_lt r.val r.isLt⟩).view.set := by
  obtain ⟨e0, e1, e2⟩ := idx_facts8 ⟨8 * r.val + 7, last_lt r.val r.isLt⟩
  show _ ∈ ((View.whole main_v4_4).slice (win0_8.rect ⟨8 * r.val + 7, last_lt r.val r.isLt⟩)).set
  rw [View.set_slice_whole, Rect.mem_set_unit]
  intro a
  have hr : r.val < 2 := r.isLt
  have hl : l.val < 128 := l.isLt
  match a with
  | ⟨0, _⟩ =>
    show win0_8.index ⟨8 * r.val + 7, _⟩ (0 : Fin 3) * 1 ≤ r.val ∧ r.val < win0_8.index ⟨8 * r.val + 7, _⟩ (0 : Fin 3) * 1 + 1
    rw [e0]; show (8 * r.val + 7) / 8 * 1 ≤ r.val ∧ r.val < (8 * r.val + 7) / 8 * 1 + 1; omega
  | ⟨1, _⟩ =>
    show win0_8.index ⟨8 * r.val + 7, _⟩ (1 : Fin 3) * 1 ≤ 0 ∧ 0 < win0_8.index ⟨8 * r.val + 7, _⟩ (1 : Fin 3) * 1 + 1
    rw [e1]; omega
  | ⟨2, _⟩ =>
    show win0_8.index ⟨8 * r.val + 7, _⟩ (2 : Fin 3) * 128 ≤ l.val ∧ l.val < win0_8.index ⟨8 * r.val + 7, _⟩ (2 : Fin 3) * 128 + 128
    rw [e2]; omega

/-- The array of window 8 after the region, at (r, 0, l): what point `8 r + 7` left in the output block at lane `l`. -/
theorem arr8_apply (c : Dev nD) (r : Fin 2) (l : Fin 128) (h : 8 * r.val + 7 < cfg0.N) :
    (dats (F := F) m 0 c).arrAt 8 cfg0.N (ix3 r (0 : Fin 1) l)
      = (outsAt0 m c (8 * r.val + 7) h).o8 (ix3 (0 : Fin 1) (0 : Fin 1) l) :=
  (dats m 0 c).arrAt_apply_of_mem 8 (G8 m c) (flushed8_eq m c) cfg0.N ⟨8 * r.val + 7, last_lt r.val r.isLt⟩
    (ix3 r (0 : Fin 1) l) (last_lt r.val r.isLt) ((flush0_8 _).mpr (by show (8 * r.val + 7) % 8 = 7; omega))
    (mem_blk8 r l)

/-- At lane 0, the entry the later host lines read. -/
theorem arr8_at (c : Dev nD) (c' : Fin 2) (h : 8 * c'.val + 7 < cfg0.N) :
    (dats (F := F) m 0 c).arrAt 8 cfg0.N (ix3 c' (0 : Fin 1) (0 : Fin 128))
      = (outsAt0 m c (8 * c'.val + 7) h).o8 (ix3 (0 : Fin 1) (0 : Fin 1) (0 : Fin 128)) :=
  arr8_apply m c c' 0 h

/-- The whole array of window 8 after the region: every entry is (r, 0, l), in the block of point `8 r + 7`. -/
theorem arr8_eq (c : Dev nD) : (dats (F := F) m 0 c).arrAt 8 cfg0.N = G8 m c :=
  (dats m 0 c).arrAt_eq_of_cover 8 (G8 m c) (flushed8_eq m c) fun i => by
    obtain ⟨r, u, l, rfl⟩ : ∃ (r : Fin 2) (u : Fin 1) (l : Fin 128), i = ix3 r u l := ⟨i 0, i 1, i 2, eq_ix3 i⟩
    obtain rfl : u = 0 := Subsingleton.elim _ _
    exact ⟨⟨8 * r.val + 7, last_lt r.val r.isLt⟩, (flush0_8 _).mpr (by show (8 * r.val + 7) % 8 = 7; omega), mem_blk8 r l⟩

/-! ## Output window 9 -/

/-- The block index of window 9 at every point: (point / 8, 0, 0). -/
theorem idx_facts9 : ∀ t : Fin cfg0.N, win0_9.index t (0 : Fin 3) = t.val / 8 ∧ win0_9.index t (1 : Fin 3) = 0
    ∧ win0_9.index t (2 : Fin 3) = 0 :=
  (by decide +kernel : ∀ t : Fin grid0.N, _)

/-- What the array of window 9 ends holding: in row `r`, what point `8 r + 7` left in the output block. -/
def G9 (c : Dev nD) : S2x1x128.Idx → Elt F .f32 := fun y =>
  (outsAt0 m c (8 * (y 0).val + 7) (last_lt (y 0).val (y 0).isLt)).o9
    (ix3 (0 : Fin 1) (0 : Fin 1) (⟨(y 2).val, (y 2).isLt⟩ : Fin 128))

/-- What a flushing point writes back is its block of `G9`: the point is `8 r + 7` and its block is row `r`. -/
theorem flushed9_eq (c : Dev nD) (t : Fin cfg0.N) (hf : (cfg0.win 9).flush t = true) :
    (dats m 0 c).flushed 9 t = ((cfg0.win 9).blk t).view.read (Elt F) (G9 m c) := by
  have h7 : t.val % 8 = 7 := (flush0_9 t).mp hf
  obtain ⟨e0, e1, e2⟩ := idx_facts9 t
  show (cfg0.win 9).cut (grid0.coords t) ((dats m 0 c).after 9 t) = _
  rw [after0_9]
  funext j
  have hj0 : (j 0).val < 1 := (j 0).isLt
  have hj1 : (j 1).val < 1 := (j 1).isLt
  have hj2 : (j 2).val < 128 := (j 2).isLt
  have r0 : ((((cfg0.win 9).blk t).view.emb j) 0).val = t.val / 8 := by
    show win0_9.index t (0 : Fin 3) * 1 + 1 * (j 0).val = t.val / 8
    rw [e0]; omega
  have r2 : ((((cfg0.win 9).blk t).view.emb j) 2).val = (j 2).val := by
    show win0_9.index t (2 : Fin 3) * 128 + 1 * (j 2).val = (j 2).val
    rw [e2]; omega
  show (outsAt0 m c t.val t.isLt).o9 ((cfg0.win 9).xinj (grid0.coords t) j)
    = G9 m c (((cfg0.win 9).blk t).view.emb j)
  unfold G9
  have hn : t.val = 8 * ((((cfg0.win 9).blk t).view.emb j) 0).val + 7 := by rw [r0]; omega
  rw [outsAt0_congr m c hn t.isLt (last_lt _ (((((cfg0.win 9).blk t).view.emb j) 0).isLt))]
  refine congrArg _ ?_
  funext a; apply Fin.ext
  match a with
  | ⟨0, _⟩ => show (j 0).val = 0; omega
  | ⟨1, _⟩ => show (j 1).val = 0; omega
  | ⟨2, _⟩ => show (j 2).val = ((((cfg0.win 9).blk t).view.emb j) 2).val; rw [r2]

/-- Entry (r, 0, l) of the array lies in the block of point `8 r + 7`. -/
theorem mem_blk9 (r : Fin 2) (l : Fin 128) :
    (ix3 r (0 : Fin 1) l : S2x1x128.Idx) ∈ ((cfg0.win 9).blk ⟨8 * r.val + 7, last_lt r.val r.isLt⟩).view.set := by
  obtain ⟨e0, e1, e2⟩ := idx_facts9 ⟨8 * r.val + 7, last_lt r.val r.isLt⟩
  show _ ∈ ((View.whole main_v4_5).slice (win0_9.rect ⟨8 * r.val + 7, last_lt r.val r.isLt⟩)).set
  rw [View.set_slice_whole, Rect.mem_set_unit]
  intro a
  have hr : r.val < 2 := r.isLt
  have hl : l.val < 128 := l.isLt
  match a with
  | ⟨0, _⟩ =>
    show win0_9.index ⟨8 * r.val + 7, _⟩ (0 : Fin 3) * 1 ≤ r.val ∧ r.val < win0_9.index ⟨8 * r.val + 7, _⟩ (0 : Fin 3) * 1 + 1
    rw [e0]; show (8 * r.val + 7) / 8 * 1 ≤ r.val ∧ r.val < (8 * r.val + 7) / 8 * 1 + 1; omega
  | ⟨1, _⟩ =>
    show win0_9.index ⟨8 * r.val + 7, _⟩ (1 : Fin 3) * 1 ≤ 0 ∧ 0 < win0_9.index ⟨8 * r.val + 7, _⟩ (1 : Fin 3) * 1 + 1
    rw [e1]; omega
  | ⟨2, _⟩ =>
    show win0_9.index ⟨8 * r.val + 7, _⟩ (2 : Fin 3) * 128 ≤ l.val ∧ l.val < win0_9.index ⟨8 * r.val + 7, _⟩ (2 : Fin 3) * 128 + 128
    rw [e2]; omega

/-- The array of window 9 after the region, at (r, 0, l): what point `8 r + 7` left in the output block at lane `l`. -/
theorem arr9_apply (c : Dev nD) (r : Fin 2) (l : Fin 128) (h : 8 * r.val + 7 < cfg0.N) :
    (dats (F := F) m 0 c).arrAt 9 cfg0.N (ix3 r (0 : Fin 1) l)
      = (outsAt0 m c (8 * r.val + 7) h).o9 (ix3 (0 : Fin 1) (0 : Fin 1) l) :=
  (dats m 0 c).arrAt_apply_of_mem 9 (G9 m c) (flushed9_eq m c) cfg0.N ⟨8 * r.val + 7, last_lt r.val r.isLt⟩
    (ix3 r (0 : Fin 1) l) (last_lt r.val r.isLt) ((flush0_9 _).mpr (by show (8 * r.val + 7) % 8 = 7; omega))
    (mem_blk9 r l)

/-- At lane 0, the entry the later host lines read. -/
theorem arr9_at (c : Dev nD) (c' : Fin 2) (h : 8 * c'.val + 7 < cfg0.N) :
    (dats (F := F) m 0 c).arrAt 9 cfg0.N (ix3 c' (0 : Fin 1) (0 : Fin 128))
      = (outsAt0 m c (8 * c'.val + 7) h).o9 (ix3 (0 : Fin 1) (0 : Fin 1) (0 : Fin 128)) :=
  arr9_apply m c c' 0 h

/-- The whole array of window 9 after the region: every entry is (r, 0, l), in the block of point `8 r + 7`. -/
theorem arr9_eq (c : Dev nD) : (dats (F := F) m 0 c).arrAt 9 cfg0.N = G9 m c :=
  (dats m 0 c).arrAt_eq_of_cover 9 (G9 m c) (flushed9_eq m c) fun i => by
    obtain ⟨r, u, l, rfl⟩ : ∃ (r : Fin 2) (u : Fin 1) (l : Fin 128), i = ix3 r u l := ⟨i 0, i 1, i 2, eq_ix3 i⟩
    obtain rfl : u = 0 := Subsingleton.elim _ _
    exact ⟨⟨8 * r.val + 7, last_lt r.val r.isLt⟩, (flush0_9 _).mpr (by show (8 * r.val + 7) % 8 = 7; omega), mem_blk9 r l⟩

end Cert.KernelIdeal.Arr

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.TripValue.lean ====
/-
  One trip of the accumulation loop, and the closing steps, read at their single entry.

  A trip takes two blocks of 1024 rows by 128 lanes, multiplies them entry by entry, sums every row's 128
  products, sums the 1024 row sums, and adds the total to the carried 1-by-1 value: the carried value grows by
  the sum over all rows and lanes of the products. The two intermediate results are reshaped on the way (a
  vector of 1024 row sums is read as a column, the single total as a 1-by-1 array); a reshape keeps the
  row-major position, so neither changes a value. Over the extended reals the zero word a reduction starts
  from is the number 0 and a sum over one axis is the finite sum over that axis's coordinates.

  The closing steps: a 1-by-1 value spread over 128 lanes reads that value in every lane; the constant the
  accumulators start from is 0; and a carried total added onto a stored one is their sum.
-/
import proofs.«111721_j70781061038447_2_alg».proof.Proof.Gen.KernelIdeal.Skeleton
import proofs.«111721_j70781061038447_2_alg».proof.Proof.LibLayout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.TripValue

open Idealize.ShloMosaic Idealize.ShloMosaic.ValueIdx Cert.KernelIdeal Cert.KernelIdeal.Gen

/-- The index a reduction over the lanes puts back: row `r`, lane `l`. -/
theorem lift_lane (h : S1024x128.Reduces [1] S1024) (r : Fin 1024) (l : Fin 128) :
    h.lift (ix1 r) l = ix2 r l := by
  funext a
  match a with
  | ⟨0, _⟩ => rfl
  | ⟨1, _⟩ => rfl

/-- The index a reduction over the rows of a column puts back: row `r` of the one column. -/
theorem lift_row (h : S1024x1.Reduces [0] S1) (u : Fin 1) (r : Fin 1024) :
    h.lift (ix1 u) r = ix2 r (0 : Fin 1) := by
  funext a
  match a with
  | ⟨0, _⟩ => rfl
  | ⟨1, _⟩ => exact Fin.ext (by show (u : ℕ) = 0; omega)

/-- The sum of a block's rows' lane sums, added to a carried 1-by-1 value, at the one entry: the carried entry
    plus the sum of the block over all rows and lanes. -/
theorem total_apply (acc : FVec Ideal S1x1 .f32) (v : FVec Ideal S1024x128 .f32)
    (hr1 : S1024x128.Reduces [1] S1024) (hφ1 : FKind.Formats .f32) (hacc1 : (0x00000000#32 : BitVec 32) = 0x00000000#32)
    (hc1 : S1024.ShapeCasts S1024x1)
    (hr0 : S1024x1.Reduces [0] S1) (hφ0 : FKind.Formats .f32) (hacc0 : (0x00000000#32 : BitVec 32) = 0x00000000#32)
    (hc0 : S1.ShapeCasts S1x1) :
    addf acc (shapeCast S1x1 (multiReduction (F := Ideal) .add [0] S1
        (shapeCast S1024x1 (multiReduction (F := Ideal) .add [1] S1024 v 0x00000000#32 hr1 hφ1 hacc1) hc1)
        0x00000000#32 hr0 hφ0 hacc0) hc0) (ix2 0 0)
      = acc (ix2 0 0) + ∑ r : Fin 1024, ∑ l : Fin 128, v (ix2 r l) := by
  refine (addf_apply _ _ _).trans (congrArg (acc (ix2 0 0) + ·) ?_)
  refine (Cert.LibLayout.shapeCast_a_a1_apply _ hc0 (0 : Fin 1) (0 : Fin 1)).trans ?_
  refine (Ideal.multiReduction_add_single _ 0x00000000#32 hr0 hφ0 hacc0 (ix1 (0 : Fin 1))).trans ?_
  refine Finset.sum_congr rfl fun r _ => ?_
  refine (congrArg _ (lift_row hr0 0 r)).trans ?_
  refine (Cert.LibLayout.shapeCast_a_a1_apply _ hc1 r (0 : Fin 1)).trans ?_
  refine (Ideal.multiReduction_add_single v 0x00000000#32 hr1 hφ1 hacc1 (ix1 r)).trans ?_
  exact Finset.sum_congr rfl fun l _ => congrArg v (lift_lane hr1 r l)

/-- One trip's update of the first accumulator: the carried entry plus the sum of the two blocks' products. -/
theorem pay7_apply (acc : FVec Ideal S1x1 .f32) (a b : Vec Ideal S1024x128 .f32) :
    k0_pay7 (F := Ideal) acc a b (ix2 0 0)
      = acc (ix2 0 0) + ∑ r : Fin 1024, ∑ l : Fin 128, a (ix2 r l) * b (ix2 r l) := by
  unfold k0_pay7 k0_pay3 k0_pay4
  rw [shapeCast_self, shapeCast_self]
  exact total_apply acc (mulf a b) _ _ _ _ _ _ _ _

/-- One trip's update of the second accumulator. -/
theorem pay8_apply (acc : FVec Ideal S1x1 .f32) (a b : Vec Ideal S1024x128 .f32) :
    k0_pay8 (F := Ideal) acc a b (ix2 0 0)
      = acc (ix2 0 0) + ∑ r : Fin 1024, ∑ l : Fin 128, a (ix2 r l) * b (ix2 r l) := by
  unfold k0_pay8 k0_pay3 k0_pay5
  rw [shapeCast_self, shapeCast_self]
  exact total_apply acc (mulf a b) _ _ _ _ _ _ _ _

/-- One trip's update of the third accumulator. -/
theorem pay9_apply (acc : FVec Ideal S1x1 .f32) (a b : Vec Ideal S1024x128 .f32) :
    k0_pay9 (F := Ideal) acc a b (ix2 0 0)
      = acc (ix2 0 0) + ∑ r : Fin 1024, ∑ l : Fin 128, a (ix2 r l) * b (ix2 r l) := by
  unfold k0_pay9 k0_pay4 k0_pay5
  rw [shapeCast_self, shapeCast_self]
  exact total_apply acc (mulf a b) _ _ _ _ _ _ _ _

/-- One trip's update of the fourth accumulator. -/
theorem pay10_apply (acc : FVec Ideal S1x1 .f32) (a b : Vec Ideal S1024x128 .f32) :
    k0_pay10 (F := Ideal) acc a b (ix2 0 0)
      = acc (ix2 0 0) + ∑ r : Fin 1024, ∑ l : Fin 128, a (ix2 r l) * b (ix2 r l) := by
  unfold k0_pay10 k0_pay3 k0_pay6
  rw [shapeCast_self, shapeCast_self]
  exact total_apply acc (mulf a b) _ _ _ _ _ _ _ _

/-- One trip's update of the fifth accumulator. -/
theorem pay11_apply (acc : FVec Ideal S1x1 .f32) (a b : Vec Ideal S1024x128 .f32) :
    k0_pay11 (F := Ideal) acc a b (ix2 0 0)
      = acc (ix2 0 0) + ∑ r : Fin 1024, ∑ l : Fin 128, a (ix2 r l) * b (ix2 r l) := by
  unfold k0_pay11 k0_pay4 k0_pay6
  rw [shapeCast_self, shapeCast_self]
  exact total_apply acc (mulf a b) _ _ _ _ _ _ _ _

/-- One trip's update of the sixth accumulator. -/
theorem pay25_apply (acc : FVec Ideal S1x1 .f32) (a b : FVec Ideal S1024x128 .f32) :
    k0_pay25 (F := Ideal) acc a b (ix2 0 0)
      = acc (ix2 0 0) + ∑ r : Fin 1024, ∑ l : Fin 128, a (ix2 r l) * b (ix2 r l) := by
  unfold k0_pay25
  exact total_apply acc (mulf a b) _ _ _ _ _ _ _ _

/-- A 1-by-1 value read as 1-by-1-by-1 and spread over 128 lanes reads, in every lane, its one entry. -/
theorem spread_apply (v : FVec Ideal S1x1 .f32) (hc : S1x1.ShapeCasts S1x1x1) (hb : S1x1x1.Broadcasts S1x1x128)
    (l : Fin 128) :
    broadcastTo S1x1x128 (shapeCast S1x1x1 v hc) hb (ix3 (0 : Fin 1) (0 : Fin 1) l) = v (ix2 0 0) := by
  refine (broadcastTo_apply _ hb (ix3 (0 : Fin 1) (0 : Fin 1) l) (ix3 (0 : Fin 1) (0 : Fin 1) (0 : Fin 1)) fun ax => ?_).trans ?_
  · match ax with
    | ⟨0, _⟩ => rfl
    | ⟨1, _⟩ => rfl
    | ⟨2, _⟩ => rfl
  · exact shapeCast_ab_1ab_apply v hc (0 : Fin 1) (0 : Fin 1) (0 : Fin 1)

/-- The stored lanes of output 1: each lane reads the accumulated 1-by-1 value. -/
theorem pay12_apply (v : Vec Ideal S1x1 .f32) (l : Fin 128) :
    k0_pay12 (F := Ideal) v (ix3 (0 : Fin 1) (0 : Fin 1) l) = v (ix2 0 0) := by
  unfold k0_pay12
  exact spread_apply v _ _ l

/-- The stored lanes of output 2: each lane reads the accumulated 1-by-1 value. -/
theorem pay13_apply (v : Vec Ideal S1x1 .f32) (l : Fin 128) :
    k0_pay13 (F := Ideal) v (ix3 (0 : Fin 1) (0 : Fin 1) l) = v (ix2 0 0) := by
  unfold k0_pay13
  exact spread_apply v _ _ l

/-- The stored lanes of output 3: each lane reads the accumulated 1-by-1 value. -/
theorem pay14_apply (v : Vec Ideal S1x1 .f32) (l : Fin 128) :
    k0_pay14 (F := Ideal) v (ix3 (0 : Fin 1) (0 : Fin 1) l) = v (ix2 0 0) := by
  unfold k0_pay14
  exact spread_apply v _ _ l

/-- The stored lanes of output 4: each lane reads the accumulated 1-by-1 value. -/
theorem pay15_apply (v : Vec Ideal S1x1 .f32) (l : Fin 128) :
    k0_pay15 (F := Ideal) v (ix3 (0 : Fin 1) (0 : Fin 1) l) = v (ix2 0 0) := by
  unfold k0_pay15
  exact spread_apply v _ _ l

/-- The stored lanes of output 5: each lane reads the accumulated 1-by-1 value. -/
theorem pay16_apply (v : Vec Ideal S1x1 .f32) (l : Fin 128) :
    k0_pay16 (F := Ideal) v (ix3 (0 : Fin 1) (0 : Fin 1) l) = v (ix2 0 0) := by
  unfold k0_pay16
  exact spread_apply v _ _ l

/-- The stored lanes of output 6: each lane reads the accumulated 1-by-1 value. -/
theorem pay17_apply (v : Vec Ideal S1x1 .f32) (l : Fin 128) :
    k0_pay17 (F := Ideal) v (ix3 (0 : Fin 1) (0 : Fin 1) l) = v (ix2 0 0) := by
  unfold k0_pay17
  exact spread_apply v _ _ l

/-- The value an accumulator is reset to at the first step: 0. -/
theorem pay18_apply : k0_pay18 (F := Ideal) (ix2 0 0) = 0 := by
  unfold k0_pay18
  rw [shapeCast_self]
  exact Ideal.ofBits_zero_f32

/-- The value an accumulator is reset to at the first step: 0. -/
theorem pay19_apply : k0_pay19 (F := Ideal) (ix2 0 0) = 0 := by
  unfold k0_pay19
  rw [shapeCast_self]
  exact Ideal.ofBits_zero_f32

/-- The value an accumulator is reset to at the first step: 0. -/
theorem pay20_apply : k0_pay20 (F := Ideal) (ix2 0 0) = 0 := by
  unfold k0_pay20
  rw [shapeCast_self]
  exact Ideal.ofBits_zero_f32

/-- The value an accumulator is reset to at the first step: 0. -/
theorem pay21_apply : k0_pay21 (F := Ideal) (ix2 0 0) = 0 := by
  unfold k0_pay21
  rw [shapeCast_self]
  exact Ideal.ofBits_zero_f32

/-- The value an accumulator is reset to at the first step: 0. -/
theorem pay22_apply : k0_pay22 (F := Ideal) (ix2 0 0) = 0 := by
  unfold k0_pay22
  rw [shapeCast_self]
  exact Ideal.ofBits_zero_f32

/-- The value an accumulator is reset to at the first step: 0. -/
theorem pay23_apply : k0_pay23 (F := Ideal) (ix2 0 0) = 0 := by
  unfold k0_pay23
  rw [shapeCast_self]
  exact Ideal.ofBits_zero_f32

/-- The value the carried totals start from: 0. -/
theorem pay24_apply : k0_pay24 (F := Ideal) (ix2 0 0) = 0 := by
  unfold k0_pay24
  exact Ideal.ofBits_zero_f32

/-- The carried total `s` added onto the stored value `v`. -/
theorem pay26_apply (s : FVec Ideal S1x1 .f32) (v : Vec Ideal S1x1 .f32) :
    k0_pay26 (F := Ideal) s v (ix2 0 0) = v (ix2 0 0) + s (ix2 0 0) := by
  unfold k0_pay26
  rw [shapeCast_self]
  rfl

/-- The carried total `s` added onto the stored value `v`. -/
theorem pay27_apply (s : FVec Ideal S1x1 .f32) (v : Vec Ideal S1x1 .f32) :
    k0_pay27 (F := Ideal) s v (ix2 0 0) = v (ix2 0 0) + s (ix2 0 0) := by
  unfold k0_pay27
  rw [shapeCast_self]
  rfl

/-- The carried total `s` added onto the stored value `v`. -/
theorem pay28_apply (s : FVec Ideal S1x1 .f32) (v : Vec Ideal S1x1 .f32) :
    k0_pay28 (F := Ideal) s v (ix2 0 0) = v (ix2 0 0) + s (ix2 0 0) := by
  unfold k0_pay28
  rw [shapeCast_self]
  rfl

/-- The carried total `s` added onto the stored value `v`. -/
theorem pay29_apply (s : FVec Ideal S1x1 .f32) (v : Vec Ideal S1x1 .f32) :
    k0_pay29 (F := Ideal) s v (ix2 0 0) = v (ix2 0 0) + s (ix2 0 0) := by
  unfold k0_pay29
  rw [shapeCast_self]
  rfl

/-- The carried total `s` added onto the stored value `v`. -/
theorem pay30_apply (s : FVec Ideal S1x1 .f32) (v : Vec Ideal S1x1 .f32) :
    k0_pay30 (F := Ideal) s v (ix2 0 0) = v (ix2 0 0) + s (ix2 0 0) := by
  unfold k0_pay30
  rfl

/-- A 1-by-1 value reshaped to its own shape is unchanged. -/
theorem pay1_apply (v : FVec Ideal S1x1 .f32) : k0_pay1 (F := Ideal) v (ix2 0 0) = v (ix2 0 0) := by
  unfold k0_pay1
  rw [shapeCast_self]

/-- The carried total `s` added onto the stored value `v`. -/
theorem pay2_apply (s : FVec Ideal S1x1 .f32) (v : Vec Ideal S1x1 .f32) :
    k0_pay2 (F := Ideal) s v (ix2 0 0) = v (ix2 0 0) + s (ix2 0 0) := by
  unfold k0_pay2
  rw [shapeCast_self]
  rfl

end Cert.KernelIdeal.TripValue

end
-- ==== Proof.LoopValue.lean ====
/-
  The accumulation loop read as sums.

  The loop runs eight trips. Trip k reads rows 1024 k to 1024 k + 1023 of four arrays of 8192 rows by 128
  lanes and adds, to each of six carried 1-by-1 values, the sum over those rows and all lanes of the products
  of one pair of the arrays. After the eight trips each carried value is therefore its initial value plus the
  sum, over k below 8, r below 1024 and l below 128, of the pair's products at row 1024 k + r, lane l. The
  argument is an induction over the trips: a quantity that grows by g(k) at trip k ends at its start plus the
  sum of the g(k). Addition on the extended reals is associative, so no finiteness is needed.
-/
import proofs.«111721_j70781061038447_2_alg».proof.Proof.Gen.KernelIdeal.Loops
import proofs.«111721_j70781061038447_2_alg».proof.Proof.TripValue

set_option maxRecDepth 8192
set_option maxHeartbeats 4000000

noncomputable section

namespace Cert.KernelIdeal.LoopValue

open Idealize.ShloMosaic Idealize.ShloMosaic.TcCoe Idealize.ShloMosaic.ValueIdx
open Idealize.SL Idealize.SL.Sem
open Cert.KernelIdeal Cert.KernelIdeal.Gen Cert.KernelIdeal.TripValue

/-- The loop runs eight trips. -/
theorem trips_eq : k0_t1_loop.trips = 8 := by decide +kernel

/-- A trip's number is below eight. -/
theorem trip_lt (k : Fin k0_t1_loop.trips) : k.val < 8 := Nat.lt_of_lt_of_le k.isLt k0_t1_abs.2.1

/-- A quantity that grows by `g k` at step `k`, for each of `N` steps, ends at its start plus the sum of the `g k`. -/
theorem sum_of_steps : ∀ (N : ℕ) (s : ℕ → EReal) (g : Fin N → EReal)
    (_ : ∀ k : Fin N, s (k.val + 1) = s k.val + g k), s N = s 0 + ∑ k : Fin N, g k
  | 0, s, g, _ => by simp
  | N + 1, s, g, hstep => by
    have ih := sum_of_steps N s (fun k => g k.castSucc) (fun k => hstep k.castSucc)
    have hl := hstep (Fin.last N)
    rw [Fin.sum_univ_castSucc, ← add_assoc, ← ih]
    exact hl

/-- The same for eight steps counted by an index type `Fin T` with `T = 8`. -/
theorem sum_of_steps8 {T : ℕ} (hT : T = 8) (s : ℕ → EReal) (g : Fin T → EReal)
    (hstep : ∀ k : Fin T, s (k.val + 1) = s k.val + g k) :
    s 8 = s 0 + ∑ k : Fin 8, g ⟨k.val, hT ▸ k.isLt⟩ := by
  subst hT
  exact sum_of_steps 8 s g hstep

/-- The block of 1024 rows a trip loads, at row `r` and lane `l`: the array at row `1024 k + r`, lane `l`. -/
theorem readAt_block (arg : Memref sig .tc .vmem S8192x128 .f32) (X : BufTy.Contents (Elt Ideal) arg.view.ty)
    (k : Fin k0_t1_loop.trips) (r : Fin 1024) (l : Fin 128) :
    View.readAt (Elt Ideal) arg.view (Rect.unit (s := S8192x128) (k0_off1 k) S1024x128.size (k0_off1_inb k)).toLoadRect X (ix2 r l)
      = arg.view.read (Elt Ideal) X (ix2 ⟨k.val * 1024 + r.val, by have := trip_lt k; omega⟩ l) := by
  refine congrArg (arg.view.read (Elt Ideal) X) (funext fun a => Fin.ext ?_)
  match a with
  | ⟨0, _⟩ =>
    show k0_off1 k 0 + 1 * r.val = k.val * 1024 + r.val
    rw [k0_off1_eq k]
    show 1024 * k.val + 1 * r.val = _
    omega
  | ⟨1, _⟩ =>
    show k0_off1 k 1 + 1 * l.val = l.val
    rw [k0_off1_eq k]
    show 0 + 1 * l.val = _
    omega

variable (𝒱 : Variants) (c : Dev nD) (bd : Option 𝒱.V) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty)

/-- One trip: each carried value updated from the four blocks of 1024 rows the trip loads. -/
theorem trip_eq (k : Fin k0_t1_loop.trips) (acc : FVec Ideal S1x1 .f32 × FVec Ideal S1x1 .f32 × FVec Ideal S1x1 .f32 × FVec Ideal S1x1 .f32 × FVec Ideal S1x1 .f32 × FVec Ideal S1x1 .f32) :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 k acc
      = (k0_pay7 acc.1 (View.readAt (Elt Ideal) arg2.view (Rect.unit (s := S8192x128) (k0_off1 k) S1024x128.size (k0_off1_inb k)).toLoadRect X_arg2) (View.readAt (Elt Ideal) arg3.view (Rect.unit (s := S8192x128) (k0_off1 k) S1024x128.size (k0_off1_inb k)).toLoadRect X_arg3),
         k0_pay8 acc.2.1 (View.readAt (Elt Ideal) arg2.view (Rect.unit (s := S8192x128) (k0_off1 k) S1024x128.size (k0_off1_inb k)).toLoadRect X_arg2) (View.readAt (Elt Ideal) arg4.view (Rect.unit (s := S8192x128) (k0_off1 k) S1024x128.size (k0_off1_inb k)).toLoadRect X_arg4),
         k0_pay9 acc.2.2.1 (View.readAt (Elt Ideal) arg3.view (Rect.unit (s := S8192x128) (k0_off1 k) S1024x128.size (k0_off1_inb k)).toLoadRect X_arg3) (View.readAt (Elt Ideal) arg4.view (Rect.unit (s := S8192x128) (k0_off1 k) S1024x128.size (k0_off1_inb k)).toLoadRect X_arg4),
         k0_pay10 acc.2.2.2.1 (View.readAt (Elt Ideal) arg2.view (Rect.unit (s := S8192x128) (k0_off1 k) S1024x128.size (k0_off1_inb k)).toLoadRect X_arg2) (View.readAt (Elt Ideal) arg5.view (Rect.unit (s := S8192x128) (k0_off1 k) S1024x128.size (k0_off1_inb k)).toLoadRect X_arg5),
         k0_pay11 acc.2.2.2.2.1 (View.readAt (Elt Ideal) arg3.view (Rect.unit (s := S8192x128) (k0_off1 k) S1024x128.size (k0_off1_inb k)).toLoadRect X_arg3) (View.readAt (Elt Ideal) arg5.view (Rect.unit (s := S8192x128) (k0_off1 k) S1024x128.size (k0_off1_inb k)).toLoadRect X_arg5),
         k0_pay25 acc.2.2.2.2.2 (k0_pay5 (View.readAt (Elt Ideal) arg4.view (Rect.unit (s := S8192x128) (k0_off1 k) S1024x128.size (k0_off1_inb k)).toLoadRect X_arg4)) (k0_pay6 (View.readAt (Elt Ideal) arg5.view (Rect.unit (s := S8192x128) (k0_off1 k) S1024x128.size (k0_off1_inb k)).toLoadRect X_arg5))) := by
  unfold tripR_k0_t1 trip_k0_t1
  dsimp only
  unfold trip_k0_t1.sl.r_2 trip_k0_t1.sl.r_3 trip_k0_t1.sl.r_4 trip_k0_t1.sl.r_5 trip_k0_t1.sl.r_6 trip_k0_t1.sl.r trip_k0_t1.sl.r_1
  rfl

/-- A block reshaped to its own shape is unchanged. -/
theorem pay5_eq (v : Vec Ideal S1024x128 .f32) : k0_pay5 (F := Ideal) v = v := by
  unfold k0_pay5
  exact shapeCast_self _ _

/-- A block reshaped to its own shape is unchanged. -/
theorem pay6_eq (v : Vec Ideal S1024x128 .f32) : k0_pay6 (F := Ideal) v = v := by
  unfold k0_pay6
  exact shapeCast_self _ _

/-- Trip `k` adds to the first carried value the products' sum over rows `1024 k` to `1024 k + 1023`. -/
theorem step_0 (init : FVec Ideal S1x1 .f32 × FVec Ideal S1x1 .f32 × FVec Ideal S1x1 .f32 × FVec Ideal S1x1 .f32 × FVec Ideal S1x1 .f32 × FVec Ideal S1x1 .f32) (k : Fin k0_t1_loop.trips) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init (k.val + 1)).1 (ix2 0 0)
      = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k.val).1 (ix2 0 0)
        + ∑ r : Fin 1024, ∑ l : Fin 128,
            arg2.view.read (Elt Ideal) X_arg2 (ix2 ⟨k.val * 1024 + r.val, by have := trip_lt k; omega⟩ l) * arg3.view.read (Elt Ideal) X_arg3 (ix2 ⟨k.val * 1024 + r.val, by have := trip_lt k; omega⟩ l) := by
  rw [st_k0_t1_succ, trip_eq]
  refine (pay7_apply _ _ _).trans (congrArg (_ + ·) ?_)
  exact Finset.sum_congr rfl fun r _ => Finset.sum_congr rfl fun l _ => by
    rw [readAt_block, readAt_block]

/-- After the eight trips the first carried value is its start plus the products' sum over all 8192 rows. -/
theorem st_val_0 (init : FVec Ideal S1x1 .f32 × FVec Ideal S1x1 .f32 × FVec Ideal S1x1 .f32 × FVec Ideal S1x1 .f32 × FVec Ideal S1x1 .f32 × FVec Ideal S1x1 .f32) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init 8).1 (ix2 0 0)
      = init.1 (ix2 0 0)
        + ∑ k : Fin 8, ∑ r : Fin 1024, ∑ l : Fin 128,
            arg2.view.read (Elt Ideal) X_arg2 (ix2 ⟨k.val * 1024 + r.val, by omega⟩ l) * arg3.view.read (Elt Ideal) X_arg3 (ix2 ⟨k.val * 1024 + r.val, by omega⟩ l) :=
  sum_of_steps8 trips_eq (fun n => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init n).1 (ix2 0 0))
    (fun k => ∑ r : Fin 1024, ∑ l : Fin 128,
      arg2.view.read (Elt Ideal) X_arg2 (ix2 ⟨k.val * 1024 + r.val, by have := trip_lt k; omega⟩ l) * arg3.view.read (Elt Ideal) X_arg3 (ix2 ⟨k.val * 1024 + r.val, by have := trip_lt k; omega⟩ l))
    (fun k => step_0 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k)

/-- Trip `k` adds to the second carried value the products' sum over rows `1024 k` to `1024 k + 1023`. -/
theorem step_1 (init : FVec Ideal S1x1 .f32 × FVec Ideal S1x1 .f32 × FVec Ideal S1x1 .f32 × FVec Ideal S1x1 .f32 × FVec Ideal S1x1 .f32 × FVec Ideal S1x1 .f32) (k : Fin k0_t1_loop.trips) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init (k.val + 1)).2.1 (ix2 0 0)
      = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k.val).2.1 (ix2 0 0)
        + ∑ r : Fin 1024, ∑ l : Fin 128,
            arg2.view.read (Elt Ideal) X_arg2 (ix2 ⟨k.val * 1024 + r.val, by have := trip_lt k; omega⟩ l) * arg4.view.read (Elt Ideal) X_arg4 (ix2 ⟨k.val * 1024 + r.val, by have := trip_lt k; omega⟩ l) := by
  rw [st_k0_t1_succ, trip_eq]
  refine (pay8_apply _ _ _).trans (congrArg (_ + ·) ?_)
  exact Finset.sum_congr rfl fun r _ => Finset.sum_congr rfl fun l _ => by
    rw [readAt_block, readAt_block]

/-- After the eight trips the second carried value is its start plus the products' sum over all 8192 rows. -/
theorem st_val_1 (init : FVec Ideal S1x1 .f32 × FVec Ideal S1x1 .f32 × FVec Ideal S1x1 .f32 × FVec Ideal S1x1 .f32 × FVec Ideal S1x1 .f32 × FVec Ideal S1x1 .f32) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init 8).2.1 (ix2 0 0)
      = init.2.1 (ix2 0 0)
        + ∑ k : Fin 8, ∑ r : Fin 1024, ∑ l : Fin 128,
            arg2.view.read (Elt Ideal) X_arg2 (ix2 ⟨k.val * 1024 + r.val, by omega⟩ l) * arg4.view.read (Elt Ideal) X_arg4 (ix2 ⟨k.val * 1024 + r.val, by omega⟩ l) :=
  sum_of_steps8 trips_eq (fun n => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init n).2.1 (ix2 0 0))
    (fun k => ∑ r : Fin 1024, ∑ l : Fin 128,
      arg2.view.read (Elt Ideal) X_arg2 (ix2 ⟨k.val * 1024 + r.val, by have := trip_lt k; omega⟩ l) * arg4.view.read (Elt Ideal) X_arg4 (ix2 ⟨k.val * 1024 + r.val, by have := trip_lt k; omega⟩ l))
    (fun k => step_1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k)

/-- Trip `k` adds to the third carried value the products' sum over rows `1024 k` to `1024 k + 1023`. -/
theorem step_2 (init : FVec Ideal S1x1 .f32 × FVec Ideal S1x1 .f32 × FVec Ideal S1x1 .f32 × FVec Ideal S1x1 .f32 × FVec Ideal S1x1 .f32 × FVec Ideal S1x1 .f32) (k : Fin k0_t1_loop.trips) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init (k.val + 1)).2.2.1 (ix2 0 0)
      = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k.val).2.2.1 (ix2 0 0)
        + ∑ r : Fin 1024, ∑ l : Fin 128,
            arg3.view.read (Elt Ideal) X_arg3 (ix2 ⟨k.val * 1024 + r.val, by have := trip_lt k; omega⟩ l) * arg4.view.read (Elt Ideal) X_arg4 (ix2 ⟨k.val * 1024 + r.val, by have := trip_lt k; omega⟩ l) := by
  rw [st_k0_t1_succ, trip_eq]
  refine (pay9_apply _ _ _).trans (congrArg (_ + ·) ?_)
  exact Finset.sum_congr rfl fun r _ => Finset.sum_congr rfl fun l _ => by
    rw [readAt_block, readAt_block]

/-- After the eight trips the third carried value is its start plus the products' sum over all 8192 rows. -/
theorem st_val_2 (init : FVec Ideal S1x1 .f32 × FVec Ideal S1x1 .f32 × FVec Ideal S1x1 .f32 × FVec Ideal S1x1 .f32 × FVec Ideal S1x1 .f32 × FVec Ideal S1x1 .f32) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init 8).2.2.1 (ix2 0 0)
      = init.2.2.1 (ix2 0 0)
        + ∑ k : Fin 8, ∑ r : Fin 1024, ∑ l : Fin 128,
            arg3.view.read (Elt Ideal) X_arg3 (ix2 ⟨k.val * 1024 + r.val, by omega⟩ l) * arg4.view.read (Elt Ideal) X_arg4 (ix2 ⟨k.val * 1024 + r.val, by omega⟩ l) :=
  sum_of_steps8 trips_eq (fun n => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init n).2.2.1 (ix2 0 0))
    (fun k => ∑ r : Fin 1024, ∑ l : Fin 128,
      arg3.view.read (Elt Ideal) X_arg3 (ix2 ⟨k.val * 1024 + r.val, by have := trip_lt k; omega⟩ l) * arg4.view.read (Elt Ideal) X_arg4 (ix2 ⟨k.val * 1024 + r.val, by have := trip_lt k; omega⟩ l))
    (fun k => step_2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k)

/-- Trip `k` adds to the fourth carried value the products' sum over rows `1024 k` to `1024 k + 1023`. -/
theorem step_3 (init : FVec Ideal S1x1 .f32 × FVec Ideal S1x1 .f32 × FVec Ideal S1x1 .f32 × FVec Ideal S1x1 .f32 × FVec Ideal S1x1 .f32 × FVec Ideal S1x1 .f32) (k : Fin k0_t1_loop.trips) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init (k.val + 1)).2.2.2.1 (ix2 0 0)
      = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k.val).2.2.2.1 (ix2 0 0)
        + ∑ r : Fin 1024, ∑ l : Fin 128,
            arg2.view.read (Elt Ideal) X_arg2 (ix2 ⟨k.val * 1024 + r.val, by have := trip_lt k; omega⟩ l) * arg5.view.read (Elt Ideal) X_arg5 (ix2 ⟨k.val * 1024 + r.val, by have := trip_lt k; omega⟩ l) := by
  rw [st_k0_t1_succ, trip_eq]
  refine (pay10_apply _ _ _).trans (congrArg (_ + ·) ?_)
  exact Finset.sum_congr rfl fun r _ => Finset.sum_congr rfl fun l _ => by
    rw [readAt_block, readAt_block]

/-- After the eight trips the fourth carried value is its start plus the products' sum over all 8192 rows. -/
theorem st_val_3 (init : FVec Ideal S1x1 .f32 × FVec Ideal S1x1 .f32 × FVec Ideal S1x1 .f32 × FVec Ideal S1x1 .f32 × FVec Ideal S1x1 .f32 × FVec Ideal S1x1 .f32) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init 8).2.2.2.1 (ix2 0 0)
      = init.2.2.2.1 (ix2 0 0)
        + ∑ k : Fin 8, ∑ r : Fin 1024, ∑ l : Fin 128,
            arg2.view.read (Elt Ideal) X_arg2 (ix2 ⟨k.val * 1024 + r.val, by omega⟩ l) * arg5.view.read (Elt Ideal) X_arg5 (ix2 ⟨k.val * 1024 + r.val, by omega⟩ l) :=
  sum_of_steps8 trips_eq (fun n => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init n).2.2.2.1 (ix2 0 0))
    (fun k => ∑ r : Fin 1024, ∑ l : Fin 128,
      arg2.view.read (Elt Ideal) X_arg2 (ix2 ⟨k.val * 1024 + r.val, by have := trip_lt k; omega⟩ l) * arg5.view.read (Elt Ideal) X_arg5 (ix2 ⟨k.val * 1024 + r.val, by have := trip_lt k; omega⟩ l))
    (fun k => step_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k)

/-- Trip `k` adds to the fifth carried value the products' sum over rows `1024 k` to `1024 k + 1023`. -/
theorem step_4 (init : FVec Ideal S1x1 .f32 × FVec Ideal S1x1 .f32 × FVec Ideal S1x1 .f32 × FVec Ideal S1x1 .f32 × FVec Ideal S1x1 .f32 × FVec Ideal S1x1 .f32) (k : Fin k0_t1_loop.trips) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init (k.val + 1)).2.2.2.2.1 (ix2 0 0)
      = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k.val).2.2.2.2.1 (ix2 0 0)
        + ∑ r : Fin 1024, ∑ l : Fin 128,
            arg3.view.read (Elt Ideal) X_arg3 (ix2 ⟨k.val * 1024 + r.val, by have := trip_lt k; omega⟩ l) * arg5.view.read (Elt Ideal) X_arg5 (ix2 ⟨k.val * 1024 + r.val, by have := trip_lt k; omega⟩ l) := by
  rw [st_k0_t1_succ, trip_eq]
  refine (pay11_apply _ _ _).trans (congrArg (_ + ·) ?_)
  exact Finset.sum_congr rfl fun r _ => Finset.sum_congr rfl fun l _ => by
    rw [readAt_block, readAt_block]

/-- After the eight trips the fifth carried value is its start plus the products' sum over all 8192 rows. -/
theorem st_val_4 (init : FVec Ideal S1x1 .f32 × FVec Ideal S1x1 .f32 × FVec Ideal S1x1 .f32 × FVec Ideal S1x1 .f32 × FVec Ideal S1x1 .f32 × FVec Ideal S1x1 .f32) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init 8).2.2.2.2.1 (ix2 0 0)
      = init.2.2.2.2.1 (ix2 0 0)
        + ∑ k : Fin 8, ∑ r : Fin 1024, ∑ l : Fin 128,
            arg3.view.read (Elt Ideal) X_arg3 (ix2 ⟨k.val * 1024 + r.val, by omega⟩ l) * arg5.view.read (Elt Ideal) X_arg5 (ix2 ⟨k.val * 1024 + r.val, by omega⟩ l) :=
  sum_of_steps8 trips_eq (fun n => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init n).2.2.2.2.1 (ix2 0 0))
    (fun k => ∑ r : Fin 1024, ∑ l : Fin 128,
      arg3.view.read (Elt Ideal) X_arg3 (ix2 ⟨k.val * 1024 + r.val, by have := trip_lt k; omega⟩ l) * arg5.view.read (Elt Ideal) X_arg5 (ix2 ⟨k.val * 1024 + r.val, by have := trip_lt k; omega⟩ l))
    (fun k => step_4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k)

/-- Trip `k` adds to the sixth carried value the products' sum over rows `1024 k` to `1024 k + 1023`. -/
theorem step_5 (init : FVec Ideal S1x1 .f32 × FVec Ideal S1x1 .f32 × FVec Ideal S1x1 .f32 × FVec Ideal S1x1 .f32 × FVec Ideal S1x1 .f32 × FVec Ideal S1x1 .f32) (k : Fin k0_t1_loop.trips) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init (k.val + 1)).2.2.2.2.2 (ix2 0 0)
      = (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k.val).2.2.2.2.2 (ix2 0 0)
        + ∑ r : Fin 1024, ∑ l : Fin 128,
            arg4.view.read (Elt Ideal) X_arg4 (ix2 ⟨k.val * 1024 + r.val, by have := trip_lt k; omega⟩ l) * arg5.view.read (Elt Ideal) X_arg5 (ix2 ⟨k.val * 1024 + r.val, by have := trip_lt k; omega⟩ l) := by
  rw [st_k0_t1_succ, trip_eq]
  refine (pay25_apply _ _ _).trans (congrArg (_ + ·) ?_)
  exact Finset.sum_congr rfl fun r _ => Finset.sum_congr rfl fun l _ => by
    rw [pay5_eq, pay6_eq, readAt_block, readAt_block]

/-- After the eight trips the sixth carried value is its start plus the products' sum over all 8192 rows. -/
theorem st_val_5 (init : FVec Ideal S1x1 .f32 × FVec Ideal S1x1 .f32 × FVec Ideal S1x1 .f32 × FVec Ideal S1x1 .f32 × FVec Ideal S1x1 .f32 × FVec Ideal S1x1 .f32) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init 8).2.2.2.2.2 (ix2 0 0)
      = init.2.2.2.2.2 (ix2 0 0)
        + ∑ k : Fin 8, ∑ r : Fin 1024, ∑ l : Fin 128,
            arg4.view.read (Elt Ideal) X_arg4 (ix2 ⟨k.val * 1024 + r.val, by omega⟩ l) * arg5.view.read (Elt Ideal) X_arg5 (ix2 ⟨k.val * 1024 + r.val, by omega⟩ l) :=
  sum_of_steps8 trips_eq (fun n => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init n).2.2.2.2.2 (ix2 0 0))
    (fun k => ∑ r : Fin 1024, ∑ l : Fin 128,
      arg4.view.read (Elt Ideal) X_arg4 (ix2 ⟨k.val * 1024 + r.val, by have := trip_lt k; omega⟩ l) * arg5.view.read (Elt Ideal) X_arg5 (ix2 ⟨k.val * 1024 + r.val, by have := trip_lt k; omega⟩ l))
    (fun k => step_5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg3 X_arg4 X_arg5 init k)

end Cert.KernelIdeal.LoopValue

end
-- ==== Proof.KiCase.lean ====
/-
  What one grid point does to each accumulator, as a number. Accumulator j belongs to a pair (p, q) of the four input
  windows: (0,1), (0,2), (1,2), (0,3), (1,3), (2,3). At a point whose input blocks are x0 … x3 the reduction loop
  leaves, from a zero start, the total over its eight sub-blocks of 1024 rows of the products x_p · x_q (`blkTot`);
  the body then stores "what the accumulator held, plus that total" — at the first of a core's eight points what it
  held is the zero just stored — and, at the last point, spreads the new value along the 128 lanes of the output block.
-/
import proofs.«111721_j70781061038447_2_alg».proof.Proof.KiHeld
import proofs.«111721_j70781061038447_2_alg».proof.Proof.TripValue
import proofs.«111721_j70781061038447_2_alg».proof.Proof.LoopValue

set_option maxRecDepth 16384

noncomputable section

namespace Cert.KernelIdeal.Case

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Frm Cert.KernelIdeal.TripValue

theorem hz : (![0, 0] : Fin 2 → Nat) = fun _ => 0 := funext fun a => by fin_cases a <;> rfl
theorem hz3 : (![0, 0, 0] : Fin 3 → Nat) = fun _ => 0 := funext fun a => by fin_cases a <;> rfl

/-- A load of a whole [1, 1] buffer reads its contents. -/
theorem ld11 (X : Vec Ideal S1x1 .f32) (inb : ∀ a, (![0, 0] : Fin 2 → Nat) a + (![1, 1] : Fin 2 → Nat) a ≤ (![1, 1] : Fin 2 → Nat) a) :
    View.ld X (Rect.unit (s := S1x1) ![0, 0] ![1, 1] inb) = X :=
  View.ld_unit_zero (S := S1x1) hz inb X

/-- One point's total for a pair of input blocks: over the 8 sub-blocks of 1024 rows, the products' sum. -/
def blkTot (a b : Vec Ideal S8192x128 .f32) : EReal :=
  ∑ k : Fin 8, ∑ r : Fin 1024, ∑ l : Fin 128,
    a (ix2 ⟨k.val * 1024 + r.val, by omega⟩ l) * b (ix2 ⟨k.val * 1024 + r.val, by omega⟩ l)

/-- A middle point leaves in accumulator 0 what it held plus the point's total of x0 · x1. -/
theorem soutB_0_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec Ideal S8192x128 .f32) (xs0 xs1 xs2 xs3 xs4 xs5 : Vec Ideal S1x1 .f32) :
    soutB_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs0 (ix2 0 0) + (0 + blkTot x0 x1) := by
  unfold soutB_0
  rw [View.read_writes_eq_canon _ _ _ (scoverB_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_B
  dsimp only
  sl_unfold_words
  rw [View.canon_unit_zero hz]
  rw [pay26_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_0]
  dsimp only
  rw [pay24_apply]
  unfold blkTot
  simp only [View.readAt_eq_ld, Memref.IsWhole.read_unread]
  exact congrArg (· + _) (congrFun (View.ld_unit_zero (S := S1x1) hz _ xs0) _)

/-- A last point leaves in accumulator 0 what it held plus the point's total of x0 · x1. -/
theorem soutC_0_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) :
    soutC_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs0 (ix2 0 0) + (0 + blkTot x0 x1) := by
  unfold soutC_0
  rw [View.read_writes_eq_canon _ _ _ (scoverC_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz]
  rw [pay26_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_0]
  dsimp only
  rw [pay24_apply]
  unfold blkTot
  simp only [View.readAt_eq_ld, Memref.IsWhole.read_unread]
  exact congrArg (· + _) (congrFun (View.ld_unit_zero (S := S1x1) hz _ xs0) _)

/-- A first point leaves in accumulator 0 zero plus the point's total of x0 · x1. -/
theorem soutA_0_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec Ideal S8192x128 .f32) :
    soutA_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 (ix2 0 0)
      = 0 + (0 + blkTot x0 x1) := by
  unfold soutA_0
  rw [View.read_writes_eq_canon _ _ _ (scoverA_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3)]
  unfold kernelRun0_A
  dsimp only
  sl_unfold_words
  rw [View.canon_cons_unit_zero (S := S1x1) hz]
  rw [pay26_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_0]
  dsimp only
  rw [pay24_apply]
  unfold blkTot
  simp only [View.readCov_unit_zero (S := S1x1) _ hz, pay18_apply, Memref.IsWhole.read_unread]

/-- A last point leaves in every lane of output block 4 the new value of accumulator 0. -/
theorem outC_4_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) (l : Fin 128) :
    outC_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix3 (0 : Fin 1) (0 : Fin 1) l)
      = xs0 (ix2 0 0) + (0 + blkTot x0 x1) := by
  unfold outC_4
  rw [View.read_writes_eq_canon _ _ _ (coverC_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz3]
  rw [spread_apply]
  simp only [View.readCov_unit_zero (S := S1x1) _ hz]
  rw [pay26_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_0]
  dsimp only
  rw [pay24_apply]
  unfold blkTot
  simp only [View.readAt_eq_ld, Memref.IsWhole.read_unread]
  exact congrArg (· + _) (congrFun (View.ld_unit_zero (S := S1x1) hz _ xs0) _)

/-- A middle point leaves in accumulator 1 what it held plus the point's total of x0 · x2. -/
theorem soutB_1_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec Ideal S8192x128 .f32) (xs0 xs1 xs2 xs3 xs4 xs5 : Vec Ideal S1x1 .f32) :
    soutB_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs1 (ix2 0 0) + (0 + blkTot x0 x2) := by
  unfold soutB_1
  rw [View.read_writes_eq_canon _ _ _ (scoverB_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_B
  dsimp only
  sl_unfold_words
  rw [View.canon_unit_zero hz]
  rw [pay27_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_1]
  dsimp only
  rw [pay24_apply]
  unfold blkTot
  simp only [View.readAt_eq_ld, Memref.IsWhole.read_unread]
  exact congrArg (· + _) (congrFun (View.ld_unit_zero (S := S1x1) hz _ xs1) _)

/-- A last point leaves in accumulator 1 what it held plus the point's total of x0 · x2. -/
theorem soutC_1_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) :
    soutC_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs1 (ix2 0 0) + (0 + blkTot x0 x2) := by
  unfold soutC_1
  rw [View.read_writes_eq_canon _ _ _ (scoverC_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz]
  rw [pay27_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_1]
  dsimp only
  rw [pay24_apply]
  unfold blkTot
  simp only [View.readAt_eq_ld, Memref.IsWhole.read_unread]
  exact congrArg (· + _) (congrFun (View.ld_unit_zero (S := S1x1) hz _ xs1) _)

/-- A first point leaves in accumulator 1 zero plus the point's total of x0 · x2. -/
theorem soutA_1_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec Ideal S8192x128 .f32) :
    soutA_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 (ix2 0 0)
      = 0 + (0 + blkTot x0 x2) := by
  unfold soutA_1
  rw [View.read_writes_eq_canon _ _ _ (scoverA_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3)]
  unfold kernelRun0_A
  dsimp only
  sl_unfold_words
  rw [View.canon_cons_unit_zero (S := S1x1) hz]
  rw [pay27_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_1]
  dsimp only
  rw [pay24_apply]
  unfold blkTot
  simp only [View.readCov_unit_zero (S := S1x1) _ hz, pay19_apply, Memref.IsWhole.read_unread]

/-- A last point leaves in every lane of output block 5 the new value of accumulator 1. -/
theorem outC_5_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) (l : Fin 128) :
    outC_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix3 (0 : Fin 1) (0 : Fin 1) l)
      = xs1 (ix2 0 0) + (0 + blkTot x0 x2) := by
  unfold outC_5
  rw [View.read_writes_eq_canon _ _ _ (coverC_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz3]
  rw [spread_apply]
  simp only [View.readCov_unit_zero (S := S1x1) _ hz]
  rw [pay27_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_1]
  dsimp only
  rw [pay24_apply]
  unfold blkTot
  simp only [View.readAt_eq_ld, Memref.IsWhole.read_unread]
  exact congrArg (· + _) (congrFun (View.ld_unit_zero (S := S1x1) hz _ xs1) _)

/-- A middle point leaves in accumulator 2 what it held plus the point's total of x1 · x2. -/
theorem soutB_2_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec Ideal S8192x128 .f32) (xs0 xs1 xs2 xs3 xs4 xs5 : Vec Ideal S1x1 .f32) :
    soutB_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs2 (ix2 0 0) + (0 + blkTot x1 x2) := by
  unfold soutB_2
  rw [View.read_writes_eq_canon _ _ _ (scoverB_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_B
  dsimp only
  sl_unfold_words
  rw [View.canon_unit_zero hz]
  rw [pay28_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_2]
  dsimp only
  rw [pay24_apply]
  unfold blkTot
  simp only [View.readAt_eq_ld, Memref.IsWhole.read_unread]
  exact congrArg (· + _) (congrFun (View.ld_unit_zero (S := S1x1) hz _ xs2) _)

/-- A last point leaves in accumulator 2 what it held plus the point's total of x1 · x2. -/
theorem soutC_2_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) :
    soutC_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs2 (ix2 0 0) + (0 + blkTot x1 x2) := by
  unfold soutC_2
  rw [View.read_writes_eq_canon _ _ _ (scoverC_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz]
  rw [pay28_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_2]
  dsimp only
  rw [pay24_apply]
  unfold blkTot
  simp only [View.readAt_eq_ld, Memref.IsWhole.read_unread]
  exact congrArg (· + _) (congrFun (View.ld_unit_zero (S := S1x1) hz _ xs2) _)

/-- A first point leaves in accumulator 2 zero plus the point's total of x1 · x2. -/
theorem soutA_2_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec Ideal S8192x128 .f32) :
    soutA_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 (ix2 0 0)
      = 0 + (0 + blkTot x1 x2) := by
  unfold soutA_2
  rw [View.read_writes_eq_canon _ _ _ (scoverA_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3)]
  unfold kernelRun0_A
  dsimp only
  sl_unfold_words
  rw [View.canon_cons_unit_zero (S := S1x1) hz]
  rw [pay28_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_2]
  dsimp only
  rw [pay24_apply]
  unfold blkTot
  simp only [View.readCov_unit_zero (S := S1x1) _ hz, pay20_apply, Memref.IsWhole.read_unread]

/-- A last point leaves in every lane of output block 6 the new value of accumulator 2. -/
theorem outC_6_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) (l : Fin 128) :
    outC_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix3 (0 : Fin 1) (0 : Fin 1) l)
      = xs2 (ix2 0 0) + (0 + blkTot x1 x2) := by
  unfold outC_6
  rw [View.read_writes_eq_canon _ _ _ (coverC_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz3]
  rw [spread_apply]
  simp only [View.readCov_unit_zero (S := S1x1) _ hz]
  rw [pay28_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_2]
  dsimp only
  rw [pay24_apply]
  unfold blkTot
  simp only [View.readAt_eq_ld, Memref.IsWhole.read_unread]
  exact congrArg (· + _) (congrFun (View.ld_unit_zero (S := S1x1) hz _ xs2) _)

/-- A middle point leaves in accumulator 3 what it held plus the point's total of x0 · x3. -/
theorem soutB_3_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec Ideal S8192x128 .f32) (xs0 xs1 xs2 xs3 xs4 xs5 : Vec Ideal S1x1 .f32) :
    soutB_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs3 (ix2 0 0) + (0 + blkTot x0 x3) := by
  unfold soutB_3
  rw [View.read_writes_eq_canon _ _ _ (scoverB_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_B
  dsimp only
  sl_unfold_words
  rw [View.canon_unit_zero hz]
  rw [pay29_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_3]
  dsimp only
  rw [pay24_apply]
  unfold blkTot
  simp only [View.readAt_eq_ld, Memref.IsWhole.read_unread]
  exact congrArg (· + _) (congrFun (View.ld_unit_zero (S := S1x1) hz _ xs3) _)

/-- A last point leaves in accumulator 3 what it held plus the point's total of x0 · x3. -/
theorem soutC_3_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) :
    soutC_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs3 (ix2 0 0) + (0 + blkTot x0 x3) := by
  unfold soutC_3
  rw [View.read_writes_eq_canon _ _ _ (scoverC_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz]
  rw [pay29_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_3]
  dsimp only
  rw [pay24_apply]
  unfold blkTot
  simp only [View.readAt_eq_ld, Memref.IsWhole.read_unread]
  exact congrArg (· + _) (congrFun (View.ld_unit_zero (S := S1x1) hz _ xs3) _)

/-- A first point leaves in accumulator 3 zero plus the point's total of x0 · x3. -/
theorem soutA_3_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec Ideal S8192x128 .f32) :
    soutA_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 (ix2 0 0)
      = 0 + (0 + blkTot x0 x3) := by
  unfold soutA_3
  rw [View.read_writes_eq_canon _ _ _ (scoverA_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3)]
  unfold kernelRun0_A
  dsimp only
  sl_unfold_words
  rw [View.canon_cons_unit_zero (S := S1x1) hz]
  rw [pay29_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_3]
  dsimp only
  rw [pay24_apply]
  unfold blkTot
  simp only [View.readCov_unit_zero (S := S1x1) _ hz, pay21_apply, Memref.IsWhole.read_unread]

/-- A last point leaves in every lane of output block 7 the new value of accumulator 3. -/
theorem outC_7_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) (l : Fin 128) :
    outC_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix3 (0 : Fin 1) (0 : Fin 1) l)
      = xs3 (ix2 0 0) + (0 + blkTot x0 x3) := by
  unfold outC_7
  rw [View.read_writes_eq_canon _ _ _ (coverC_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz3]
  rw [spread_apply]
  simp only [View.readCov_unit_zero (S := S1x1) _ hz]
  rw [pay29_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_3]
  dsimp only
  rw [pay24_apply]
  unfold blkTot
  simp only [View.readAt_eq_ld, Memref.IsWhole.read_unread]
  exact congrArg (· + _) (congrFun (View.ld_unit_zero (S := S1x1) hz _ xs3) _)

/-- A middle point leaves in accumulator 4 what it held plus the point's total of x1 · x3. -/
theorem soutB_4_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec Ideal S8192x128 .f32) (xs0 xs1 xs2 xs3 xs4 xs5 : Vec Ideal S1x1 .f32) :
    soutB_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs4 (ix2 0 0) + (0 + blkTot x1 x3) := by
  unfold soutB_4
  rw [View.read_writes_eq_canon _ _ _ (scoverB_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_B
  dsimp only
  sl_unfold_words
  rw [View.canon_unit_zero hz]
  rw [pay1_apply]
  rw [pay30_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_4]
  dsimp only
  rw [pay24_apply]
  unfold blkTot
  simp only [View.readAt_eq_ld, Memref.IsWhole.read_unread]
  exact congrArg (· + _) (congrFun (View.ld_unit_zero (S := S1x1) hz _ xs4) _)

/-- A last point leaves in accumulator 4 what it held plus the point's total of x1 · x3. -/
theorem soutC_4_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) :
    soutC_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs4 (ix2 0 0) + (0 + blkTot x1 x3) := by
  unfold soutC_4
  rw [View.read_writes_eq_canon _ _ _ (scoverC_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz]
  rw [pay1_apply]
  rw [pay30_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_4]
  dsimp only
  rw [pay24_apply]
  unfold blkTot
  simp only [View.readAt_eq_ld, Memref.IsWhole.read_unread]
  exact congrArg (· + _) (congrFun (View.ld_unit_zero (S := S1x1) hz _ xs4) _)

/-- A first point leaves in accumulator 4 zero plus the point's total of x1 · x3. -/
theorem soutA_4_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec Ideal S8192x128 .f32) :
    soutA_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 (ix2 0 0)
      = 0 + (0 + blkTot x1 x3) := by
  unfold soutA_4
  rw [View.read_writes_eq_canon _ _ _ (scoverA_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3)]
  unfold kernelRun0_A
  dsimp only
  sl_unfold_words
  rw [View.canon_cons_unit_zero (S := S1x1) hz]
  rw [pay1_apply]
  rw [pay30_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_4]
  dsimp only
  rw [pay24_apply]
  unfold blkTot
  simp only [View.readCov_unit_zero (S := S1x1) _ hz, pay22_apply, Memref.IsWhole.read_unread]

/-- A last point leaves in every lane of output block 8 the new value of accumulator 4. -/
theorem outC_8_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) (l : Fin 128) :
    outC_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix3 (0 : Fin 1) (0 : Fin 1) l)
      = xs4 (ix2 0 0) + (0 + blkTot x1 x3) := by
  unfold outC_8
  rw [View.read_writes_eq_canon _ _ _ (coverC_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz3]
  rw [spread_apply]
  simp only [View.readCov_unit_zero (S := S1x1) _ hz]
  rw [pay1_apply]
  rw [pay30_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_4]
  dsimp only
  rw [pay24_apply]
  unfold blkTot
  simp only [View.readAt_eq_ld, Memref.IsWhole.read_unread]
  exact congrArg (· + _) (congrFun (View.ld_unit_zero (S := S1x1) hz _ xs4) _)

/-- A middle point leaves in accumulator 5 what it held plus the point's total of x2 · x3. -/
theorem soutB_5_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : ¬cond0_1 i)
    (x0 x1 x2 x3 : Vec Ideal S8192x128 .f32) (xs0 xs1 xs2 xs3 xs4 xs5 : Vec Ideal S1x1 .f32) :
    soutB_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs5 (ix2 0 0) + (0 + blkTot x2 x3) := by
  unfold soutB_5
  rw [View.read_writes_eq_canon _ _ _ (scoverB_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_B
  dsimp only
  sl_unfold_words
  rw [View.canon_unit_zero hz]
  rw [pay2_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_5]
  dsimp only
  rw [pay24_apply]
  unfold blkTot
  simp only [View.readAt_eq_ld, Memref.IsWhole.read_unread]
  exact congrArg (· + _) (congrFun (View.ld_unit_zero (S := S1x1) hz _ xs5) _)

/-- A last point leaves in accumulator 5 what it held plus the point's total of x2 · x3. -/
theorem soutC_5_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) :
    soutC_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix2 0 0)
      = xs5 (ix2 0 0) + (0 + blkTot x2 x3) := by
  unfold soutC_5
  rw [View.read_writes_eq_canon _ _ _ (scoverC_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz]
  rw [pay2_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_5]
  dsimp only
  rw [pay24_apply]
  unfold blkTot
  simp only [View.readAt_eq_ld, Memref.IsWhole.read_unread]
  exact congrArg (· + _) (congrFun (View.ld_unit_zero (S := S1x1) hz _ xs5) _)

/-- A first point leaves in accumulator 5 zero plus the point's total of x2 · x3. -/
theorem soutA_5_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : cond0_0 i) (hc1 : ¬cond0_1 i)
    (x0 x1 x2 x3 : Vec Ideal S8192x128 .f32) :
    soutA_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 (ix2 0 0)
      = 0 + (0 + blkTot x2 x3) := by
  unfold soutA_5
  rw [View.read_writes_eq_canon _ _ _ (scoverA_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3)]
  unfold kernelRun0_A
  dsimp only
  sl_unfold_words
  rw [View.canon_cons_unit_zero (S := S1x1) hz]
  rw [pay2_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_5]
  dsimp only
  rw [pay24_apply]
  unfold blkTot
  simp only [View.readCov_unit_zero (S := S1x1) _ hz, pay23_apply, Memref.IsWhole.read_unread]

/-- A last point leaves in every lane of output block 9 the new value of accumulator 5. -/
theorem outC_9_val (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (hc0 : ¬cond0_0 i) (hc1 : cond0_1 i)
    (x0 x1 x2 x3 : Vec Ideal S8192x128 .f32) (xs0 xs1 xs2 xs3 xs4 xs5 : Vec Ideal S1x1 .f32) (l : Fin 128) :
    outC_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5 (ix3 (0 : Fin 1) (0 : Fin 1) l)
      = xs5 (ix2 0 0) + (0 + blkTot x2 x3) := by
  unfold outC_9
  rw [View.read_writes_eq_canon _ _ _ (coverC_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 xs0 xs1 xs2 xs3 xs4 xs5)]
  unfold kernelRun0_C
  dsimp only
  sl_unfold_words
  rw [View.canon_unit_zero hz3]
  rw [spread_apply]
  simp only [View.readCov_unit_zero (S := S1x1) _ hz]
  rw [pay2_apply]
  simp only [show Scf.trips (0#32) (Scalar.addi 0#32 8#32) 1#32 = 8 from LoopValue.trips_eq, show Scf.trips k0_t1_loop.lb k0_t1_loop.ub k0_t1_loop.st = 8 from LoopValue.trips_eq]
  rw [LoopValue.st_val_5]
  dsimp only
  rw [pay24_apply]
  unfold blkTot
  simp only [View.readAt_eq_ld, Memref.IsWhole.read_unread]
  exact congrArg (· + _) (congrFun (View.ld_unit_zero (S := S1x1) hz _ xs5) _)

end Cert.KernelIdeal.Case

end
-- ==== Proof.KiBlocks.lean ====
/-
  The input windows' blocks as entries of the argument rows. Before the region each argument row [1, 16777216] is
  recast, row-major, as [131072, 128]; window w's block at grid point t is rows 8192·t … 8192·t + 8191 of that array
  (its index map sends the point (c, i) to block row 8·c + i = t). So entry (r, l) of the block is the argument at
  flat position (8192·t + r)·128 + l.
-/
import proofs.«111721_j70781061038447_2_alg».proof.Proof.KiBase
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm

variable {F : FTy → Type} [FloatOps F]
variable (m : (ℓ : Loc nD τ sig) → Buf (Elt F) ℓ)

/-- Window 0's index map at point `t`: block row `t`, block column 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The region finds the recast of argument 0. -/
theorem V_v0 (c : Dev nD) : (V m c main_v0 : S131072x128.Idx → Elt F .f32)
    = shapeCast S131072x128 (m ((c : Thread nD τ).loc main_arg0)) shapeCasts_S1x16777216_S131072x128 := by
  show StableHlo.after hostOps0 (fun b => m (c, b)) (Proc.devRef .tc main_v0) = _
  after_results; rfl

/-- Entry (r, l) of window 0's block at point `t` is argument 0 at flat position (8192·t + r)·128 + l. -/
theorem iblk0_apply (c : Dev nD) (t : Fin cfg0.N) (r : Fin 8192) (l : Fin 128)
    (h : (t.val * 8192 + r.val) * 128 + l.val < 16777216) :
    (iblk m c 0 t : Vec F S8192x128 .f32) (ix2 r l)
      = m ((c : Thread nD τ).loc main_arg0) (ix2 0 ⟨(t.val * 8192 + r.val) * 128 + l.val, h⟩) := by
  have hi := idx0 t
  unfold iblk
  rw [View.read_apply]
  show V m c main_v0 (((cfg0.win 0).blk t).view.emb (ix2 r l)) = _
  refine (congrFun (V_v0 m c) _).trans ?_
  refine shapeCast_apply _ _ _ _ ?_
  show (S1x16777216.rowMajor (ix2 0 ⟨(t.val * 8192 + r.val) * 128 + l.val, h⟩)).val
    = (S131072x128.rowMajor (((cfg0.win 0).blk t).view.emb (ix2 r l))).val
  rw [Shape.rowMajor_val_two, Shape.rowMajor_val_two]
  show (0 : ℕ) * 16777216 + ((t.val * 8192 + r.val) * 128 + l.val)
    = (win0_0.index t 0 * 8192 + 1 * r.val) * 128 + (win0_0.index t 1 * 128 + 1 * l.val)
  rw [hi.1, hi.2]; omega

/-- Window 1's index map at point `t`: block row `t`, block column 0. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The region finds the recast of argument 1. -/
theorem V_v1 (c : Dev nD) : (V m c main_v1 : S131072x128.Idx → Elt F .f32)
    = shapeCast S131072x128 (m ((c : Thread nD τ).loc main_arg1)) shapeCasts_S1x16777216_S131072x128 := by
  show StableHlo.after hostOps0 (fun b => m (c, b)) (Proc.devRef .tc main_v1) = _
  after_results; rfl

/-- Entry (r, l) of window 1's block at point `t` is argument 1 at flat position (8192·t + r)·128 + l. -/
theorem iblk1_apply (c : Dev nD) (t : Fin cfg0.N) (r : Fin 8192) (l : Fin 128)
    (h : (t.val * 8192 + r.val) * 128 + l.val < 16777216) :
    (iblk m c 1 t : Vec F S8192x128 .f32) (ix2 r l)
      = m ((c : Thread nD τ).loc main_arg1) (ix2 0 ⟨(t.val * 8192 + r.val) * 128 + l.val, h⟩) := by
  have hi := idx1 t
  unfold iblk
  rw [View.read_apply]
  show V m c main_v1 (((cfg0.win 1).blk t).view.emb (ix2 r l)) = _
  refine (congrFun (V_v1 m c) _).trans ?_
  refine shapeCast_apply _ _ _ _ ?_
  show (S1x16777216.rowMajor (ix2 0 ⟨(t.val * 8192 + r.val) * 128 + l.val, h⟩)).val
    = (S131072x128.rowMajor (((cfg0.win 1).blk t).view.emb (ix2 r l))).val
  rw [Shape.rowMajor_val_two, Shape.rowMajor_val_two]
  show (0 : ℕ) * 16777216 + ((t.val * 8192 + r.val) * 128 + l.val)
    = (win0_1.index t 0 * 8192 + 1 * r.val) * 128 + (win0_1.index t 1 * 128 + 1 * l.val)
  rw [hi.1, hi.2]; omega

/-- Window 2's index map at point `t`: block row `t`, block column 0. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The region finds the recast of argument 2. -/
theorem V_v2 (c : Dev nD) : (V m c main_v2 : S131072x128.Idx → Elt F .f32)
    = shapeCast S131072x128 (m ((c : Thread nD τ).loc main_arg2)) shapeCasts_S1x16777216_S131072x128 := by
  show StableHlo.after hostOps0 (fun b => m (c, b)) (Proc.devRef .tc main_v2) = _
  after_results; rfl

/-- Entry (r, l) of window 2's block at point `t` is argument 2 at flat position (8192·t + r)·128 + l. -/
theorem iblk2_apply (c : Dev nD) (t : Fin cfg0.N) (r : Fin 8192) (l : Fin 128)
    (h : (t.val * 8192 + r.val) * 128 + l.val < 16777216) :
    (iblk m c 2 t : Vec F S8192x128 .f32) (ix2 r l)
      = m ((c : Thread nD τ).loc main_arg2) (ix2 0 ⟨(t.val * 8192 + r.val) * 128 + l.val, h⟩) := by
  have hi := idx2 t
  unfold iblk
  rw [View.read_apply]
  show V m c main_v2 (((cfg0.win 2).blk t).view.emb (ix2 r l)) = _
  refine (congrFun (V_v2 m c) _).trans ?_
  refine shapeCast_apply _ _ _ _ ?_
  show (S1x16777216.rowMajor (ix2 0 ⟨(t.val * 8192 + r.val) * 128 + l.val, h⟩)).val
    = (S131072x128.rowMajor (((cfg0.win 2).blk t).view.emb (ix2 r l))).val
  rw [Shape.rowMajor_val_two, Shape.rowMajor_val_two]
  show (0 : ℕ) * 16777216 + ((t.val * 8192 + r.val) * 128 + l.val)
    = (win0_2.index t 0 * 8192 + 1 * r.val) * 128 + (win0_2.index t 1 * 128 + 1 * l.val)
  rw [hi.1, hi.2]; omega

/-- Window 3's index map at point `t`: block row `t`, block column 0. -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The region finds the recast of argument 3. -/
theorem V_v3 (c : Dev nD) : (V m c main_v3 : S131072x128.Idx → Elt F .f32)
    = shapeCast S131072x128 (m ((c : Thread nD τ).loc main_arg3)) shapeCasts_S1x16777216_S131072x128 := by
  show StableHlo.after hostOps0 (fun b => m (c, b)) (Proc.devRef .tc main_v3) = _
  after_results; rfl

/-- Entry (r, l) of window 3's block at point `t` is argument 3 at flat position (8192·t + r)·128 + l. -/
theorem iblk3_apply (c : Dev nD) (t : Fin cfg0.N) (r : Fin 8192) (l : Fin 128)
    (h : (t.val * 8192 + r.val) * 128 + l.val < 16777216) :
    (iblk m c 3 t : Vec F S8192x128 .f32) (ix2 r l)
      = m ((c : Thread nD τ).loc main_arg3) (ix2 0 ⟨(t.val * 8192 + r.val) * 128 + l.val, h⟩) := by
  have hi := idx3 t
  unfold iblk
  rw [View.read_apply]
  show V m c main_v3 (((cfg0.win 3).blk t).view.emb (ix2 r l)) = _
  refine (congrFun (V_v3 m c) _).trans ?_
  refine shapeCast_apply _ _ _ _ ?_
  show (S1x16777216.rowMajor (ix2 0 ⟨(t.val * 8192 + r.val) * 128 + l.val, h⟩)).val
    = (S131072x128.rowMajor (((cfg0.win 3).blk t).view.emb (ix2 r l))).val
  rw [Shape.rowMajor_val_two, Shape.rowMajor_val_two]
  show (0 : ℕ) * 16777216 + ((t.val * 8192 + r.val) * 128 + l.val)
    = (win0_3.index t 0 * 8192 + 1 * r.val) * 128 + (win0_3.index t 1 * 128 + 1 * l.val)
  rw [hi.1, hi.2]; omega

end Cert.KernelIdeal.Blocks

end
-- ==== Proof.DotSpec.lean ====
/-
  The common specification of the two programs: from four rows `x, l0, l1, l2` of length 16777216 over the
  extended reals, the row of length 16777222 that is `x` followed by the six pairwise dot products
  `x·l0, x·l1, l0·l1, x·l2, l0·l2, l1·l2` (the strict lower triangle of the 4×4 Gram matrix, row by row).
-/
import Idealize.ShloMosaic.PureOps.Ideal
import Idealize.ShloMosaic.Lib.ValueIdx

noncomputable section

namespace PairDots

open Idealize.ShloMosaic Idealize.ShloMosaic.ValueIdx

/-- A row of length 16777216. -/
abbrev SIn : Shape := ⟨2, ![1, 16777216]⟩
/-- The result row: 16777216 + 6 entries. -/
abbrev SOut : Shape := ⟨2, ![1, 16777222]⟩

/-- The dot product of two rows over the extended reals: the sum over all 16777216 positions of the products. -/
def dot (a b : FVec Ideal SIn .f32) : EReal := ∑ d : Fin 16777216, a (ix2 0 d) * b (ix2 0 d)

/-- The six pairwise products, in the order of the strict lower triangle of the Gram matrix of `(x, l0, l1, l2)`:
    entries (1,0), (2,0), (2,1), (3,0), (3,1), (3,2). -/
def pair (x l0 l1 l2 : FVec Ideal SIn .f32) : Fin 6 → EReal
  | 0 => dot x l0
  | 1 => dot x l1
  | 2 => dot l0 l1
  | 3 => dot x l2
  | 4 => dot l0 l2
  | 5 => dot l1 l2

/-- The result row: position `p < 16777216` holds `x` at `p`; position `16777216 + q` holds pairwise product `q`. -/
def result (x l0 l1 l2 : FVec Ideal SIn .f32) : FVec Ideal SOut .f32 := fun j =>
  if h : (j 1).val < 16777216 then x (ix2 0 ⟨(j 1).val, h⟩)
  else pair x l0 l1 l2 ⟨(j 1).val - 16777216, by have := idx2_lt1 j; omega⟩

theorem result_left (x l0 l1 l2 : FVec Ideal SIn .f32) (j : SOut.Idx) (h : (j 1).val < 16777216) :
    result x l0 l1 l2 j = x (ix2 0 ⟨(j 1).val, h⟩) := dif_pos h

theorem result_right (x l0 l1 l2 : FVec Ideal SIn .f32) (j : SOut.Idx) (q : Fin 6) (h : (j 1).val = 16777216 + q.val) :
    result x l0 l1 l2 j = pair x l0 l1 l2 q := by
  have hn : ¬ (j 1).val < 16777216 := by omega
  rw [result, dif_neg hn]
  exact congrArg (pair x l0 l1 l2) (Fin.ext (by show (j 1).val - 16777216 = q.val; omega))

end PairDots

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.SumRegroup.lean ====
/-
  The long sum regrouped by blocks.

  A row of 16777216 entries is read as 131072 rows of 128 lanes (position = row * 128 + lane); the rows are
  taken 1024 at a time, 8 such blocks to a stage and 16 stages in all, so row = (stage * 8 + block) * 1024 + r.
  A finite sum over the positions is then the fourfold sum over stage, block, row within the block and lane.
  Only commutativity and associativity of the addition are used (the sum over a product of index sets is the
  iterated sum), so the identity holds on the extended reals with no finiteness assumption.
-/
import Mathlib.Algebra.BigOperators.Fin
import Mathlib.Logic.Equiv.Fin.Basic
import Mathlib.Data.EReal.Basic
import proofs.«111721_j70781061038447_2_alg».proof.Proof.LibSumBlocks

namespace PairDots

open Finset

/-- Position `b` of block `a`, of `m` blocks of `n` positions, is below `m * n`. -/
theorem block_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- A sum of `N = m * n` terms is the sum over `m` blocks of each block's `n` terms, term `b` of block `a`
    being term `a * n + b` of the whole. -/
theorem sum_split {M : Type*} [AddCommMonoid M] (m n N : ℕ) (hN : N = m * n) (g : Fin N → M) :
    ∑ d : Fin N, g d = ∑ a : Fin m, ∑ b : Fin n, g ⟨a.val * n + b.val, hN ▸ block_lt a b⟩ := by
  subst hN
  refine (Cert.SumBlocks.sum_blocks m n g).trans ?_
  refine Finset.sum_congr rfl fun a _ => Finset.sum_congr rfl fun b _ => congrArg g (Fin.ext ?_)
  show (finProdFinEquiv (a, b) : Fin (m * n)).val = a.val * n + b.val
  rw [Cert.SumBlocks.block_pos, Nat.mul_comm, Nat.add_comm]

/-- The sum over the 16777216 positions, regrouped: 16 stages of 8 blocks of 1024 rows of 128 lanes. -/
theorem sum_regroup (f : Fin 16777216 → EReal) :
    ∑ d : Fin 16777216, f d
      = ∑ t : Fin 16, ∑ s : Fin 8, ∑ r : Fin 1024, ∑ l : Fin 128,
          f ⟨((t.val * 8 + s.val) * 1024 + r.val) * 128 + l.val, by omega⟩ := by
  refine (sum_split 131072 128 16777216 (by norm_num) f).trans ?_
  refine (sum_split 128 1024 131072 (by norm_num)
    (fun row : Fin 131072 => ∑ l : Fin 128, f ⟨row.val * 128 + l.val, by omega⟩)).trans ?_
  exact sum_split 16 8 128 (by norm_num)
    (fun ts : Fin 128 => ∑ r : Fin 1024, ∑ l : Fin 128, f ⟨(ts.val * 1024 + r.val) * 128 + l.val, by omega⟩)

end PairDots
-- ==== Proof.DotGrid.lean ====
/-
  The dot product of two rows of length 16777216, cut the way the kernel accumulates it. The kernel views a row as
  16 consecutive blocks of 8192 × 128 entries, one per grid point; a point's share of the dot product is the sum over
  its 8 sub-blocks of 1024 rows of the products in the sub-block (`blockDot`). An accumulator is reset at the first of
  each core's eight points and grows by the point's share at every point (`runSum`); after points 7 and 15 it holds
  the first and the second half of the blocks' shares, and the two halves add up to the whole dot product. Addition of
  extended reals is associative and commutative and zero is neutral, so no finiteness is used.
-/
import proofs.«111721_j70781061038447_2_alg».proof.Proof.DotSpec
import proofs.«111721_j70781061038447_2_alg».proof.Proof.SumRegroup

noncomputable section

namespace PairDots

open Idealize.ShloMosaic Idealize.ShloMosaic.ValueIdx

/-- A row read at a flat position (zero past the end: never consulted there). -/
def at1 (a : FVec Ideal SIn .f32) (p : ℕ) : EReal := if h : p < 16777216 then a (ix2 0 ⟨p, h⟩) else 0

theorem at1_lt (a : FVec Ideal SIn .f32) (p : ℕ) (h : p < 16777216) : at1 a p = a (ix2 0 ⟨p, h⟩) := dif_pos h

/-- Grid point `t`'s share of the dot product: its 8 sub-blocks of 1024 rows of 128 lanes. -/
def blockDot (a b : FVec Ideal SIn .f32) (t : ℕ) : EReal :=
  ∑ s : Fin 8, ∑ r : Fin 1024, ∑ l : Fin 128,
    at1 a (((t * 8 + s.val) * 1024 + r.val) * 128 + l.val) * at1 b (((t * 8 + s.val) * 1024 + r.val) * 128 + l.val)

/-- The dot product is the sum of the 16 points' shares. -/
theorem dot_eq_blocks (a b : FVec Ideal SIn .f32) : dot a b = ∑ t : Fin 16, blockDot a b t.val := by
  unfold dot blockDot
  rw [sum_regroup (fun d => a (ix2 0 d) * b (ix2 0 d))]
  refine Finset.sum_congr rfl fun t _ => Finset.sum_congr rfl fun s _ => Finset.sum_congr rfl fun r _ =>
    Finset.sum_congr rfl fun l _ => ?_
  have h : ((t.val * 8 + s.val) * 1024 + r.val) * 128 + l.val < 16777216 := by omega
  rw [at1_lt a _ h, at1_lt b _ h]

/-- An accumulator over the grid's points: reset (to zero, then the point's share added to a zero total) where the
    point is the first of its core's eight, otherwise grown by the point's share (itself a total started from zero). -/
def runSum (g : ℕ → EReal) : ℕ → EReal
  | 0 => 0 + (0 + g 0)
  | n + 1 => if (n + 1) % 8 = 0 then 0 + (0 + g (n + 1)) else runSum g n + (0 + g (n + 1))

theorem runSum_zero (g : ℕ → EReal) : runSum g 0 = 0 + (0 + g 0) := rfl
theorem runSum_reset (g : ℕ → EReal) (n : ℕ) (h : (n + 1) % 8 = 0) : runSum g (n + 1) = 0 + (0 + g (n + 1)) := by
  rw [runSum, if_pos h]
theorem runSum_step (g : ℕ → EReal) (n : ℕ) (h : ¬(n + 1) % 8 = 0) : runSum g (n + 1) = runSum g n + (0 + g (n + 1)) := by
  rw [runSum, if_neg h]

/-- After point 7 the accumulator holds the first eight shares, after point 15 the last eight; together all sixteen. -/
theorem runSum_halves (g : ℕ → EReal) : runSum g 7 + runSum g 15 = ∑ t : Fin 16, g t.val := by
  have e7 : runSum g 7 = g 0 + g 1 + g 2 + g 3 + g 4 + g 5 + g 6 + g 7 := by
    rw [runSum_step g 6 (by decide), runSum_step g 5 (by decide), runSum_step g 4 (by decide), runSum_step g 3 (by decide),
      runSum_step g 2 (by decide), runSum_step g 1 (by decide), runSum_step g 0 (by decide), runSum_zero]
    simp only [zero_add]
  have e15 : runSum g 15 = g 8 + g 9 + g 10 + g 11 + g 12 + g 13 + g 14 + g 15 := by
    rw [runSum_step g 14 (by decide), runSum_step g 13 (by decide), runSum_step g 12 (by decide), runSum_step g 11 (by decide),
      runSum_step g 10 (by decide), runSum_step g 9 (by decide), runSum_step g 8 (by decide), runSum_reset g 7 (by decide)]
    simp only [zero_add]
  rw [e7, e15]
  simp only [Fin.sum_univ_succ, Fin.sum_univ_zero, Fin.val_zero, Fin.val_succ, add_zero, zero_add, add_assoc]
  rfl

/-- The two cores' accumulators, added, are the dot product. -/
theorem halves_eq_dot (a b : FVec Ideal SIn .f32) :
    runSum (blockDot a b) 7 + runSum (blockDot a b) 15 = dot a b := by
  rw [runSum_halves, dot_eq_blocks]

end PairDots

end
-- ==== Proof.KiGrid.lean ====
/-
  The accumulators over the grid, as numbers. A point's total for windows (p, q) is the share `blockDot` of the
  argument rows p and q at that point (a block entry is the row at flat position (8192·t + r)·128 + l, and
  8192·t + 1024·k + r = (8·t + k)·1024 + r). By induction on the position — never by enumerating the grid — accumulator
  j after position n holds the running sum `runSum` of these shares: reset at positions ≡ 0 (mod 8), grown otherwise;
  and at a position ≡ 7 (mod 8) the output block holds that same value in its lanes.
-/
import proofs.«111721_j70781061038447_2_alg».proof.Proof.KiCase
import proofs.«111721_j70781061038447_2_alg».proof.Proof.KiBlocks
import proofs.«111721_j70781061038447_2_alg».proof.Proof.DotGrid

noncomputable section

namespace Cert.KernelIdeal.Grid

open Idealize.ShloMosaic Idealize.ShloMosaic.TcCoe Idealize.ShloMosaic.ValueIdx
open Idealize.SL Idealize.SL.Sem
open Cert.KernelIdeal Cert.KernelIdeal.Gen Cert.KernelIdeal.Frm

variable (m : (ℓ : Loc nD τ sig) → Buf (Elt Ideal) ℓ)

/-- The point's total for windows 0 and 1 is the point's share of the dot product of arguments 0 and 1. -/
theorem blkTot_01 (c : Dev nD) (t : Fin cfg0.N) :
    Case.blkTot (iblk m c 0 t) (iblk m c 1 t) = PairDots.blockDot (m ((c : Thread nD τ).loc main_arg0)) (m ((c : Thread nD τ).loc main_arg1)) t.val := by
  have ht : t.val < 16 := lt_of_lt_of_eq t.isLt (show cfg0.N = 16 from N_0)
  unfold Case.blkTot PairDots.blockDot
  refine Finset.sum_congr rfl fun k _ => Finset.sum_congr rfl fun r _ => Finset.sum_congr rfl fun l _ => ?_
  have hk : k.val < 8 := k.isLt
  have hr : r.val < 1024 := r.isLt
  have hl : l.val < 128 := l.isLt
  have h : (t.val * 8192 + (k.val * 1024 + r.val)) * 128 + l.val < 16777216 := by omega
  have e : ((t.val * 8 + k.val) * 1024 + r.val) * 128 + l.val = (t.val * 8192 + (k.val * 1024 + r.val)) * 128 + l.val := by omega
  rw [e, PairDots.at1_lt _ _ h, PairDots.at1_lt _ _ h]
  rw [Blocks.iblk0_apply m c t ⟨k.val * 1024 + r.val, by omega⟩ l h, Blocks.iblk1_apply m c t ⟨k.val * 1024 + r.val, by omega⟩ l h]

/-- The point's total for windows 0 and 2 is the point's share of the dot product of arguments 0 and 2. -/
theorem blkTot_02 (c : Dev nD) (t : Fin cfg0.N) :
    Case.blkTot (iblk m c 0 t) (iblk m c 2 t) = PairDots.blockDot (m ((c : Thread nD τ).loc main_arg0)) (m ((c : Thread nD τ).loc main_arg2)) t.val := by
  have ht : t.val < 16 := lt_of_lt_of_eq t.isLt (show cfg0.N = 16 from N_0)
  unfold Case.blkTot PairDots.blockDot
  refine Finset.sum_congr rfl fun k _ => Finset.sum_congr rfl fun r _ => Finset.sum_congr rfl fun l _ => ?_
  have hk : k.val < 8 := k.isLt
  have hr : r.val < 1024 := r.isLt
  have hl : l.val < 128 := l.isLt
  have h : (t.val * 8192 + (k.val * 1024 + r.val)) * 128 + l.val < 16777216 := by omega
  have e : ((t.val * 8 + k.val) * 1024 + r.val) * 128 + l.val = (t.val * 8192 + (k.val * 1024 + r.val)) * 128 + l.val := by omega
  rw [e, PairDots.at1_lt _ _ h, PairDots.at1_lt _ _ h]
  rw [Blocks.iblk0_apply m c t ⟨k.val * 1024 + r.val, by omega⟩ l h, Blocks.iblk2_apply m c t ⟨k.val * 1024 + r.val, by omega⟩ l h]

/-- The point's total for windows 1 and 2 is the point's share of the dot product of arguments 1 and 2. -/
theorem blkTot_12 (c : Dev nD) (t : Fin cfg0.N) :
    Case.blkTot (iblk m c 1 t) (iblk m c 2 t) = PairDots.blockDot (m ((c : Thread nD τ).loc main_arg1)) (m ((c : Thread nD τ).loc main_arg2)) t.val := by
  have ht : t.val < 16 := lt_of_lt_of_eq t.isLt (show cfg0.N = 16 from N_0)
  unfold Case.blkTot PairDots.blockDot
  refine Finset.sum_congr rfl fun k _ => Finset.sum_congr rfl fun r _ => Finset.sum_congr rfl fun l _ => ?_
  have hk : k.val < 8 := k.isLt
  have hr : r.val < 1024 := r.isLt
  have hl : l.val < 128 := l.isLt
  have h : (t.val * 8192 + (k.val * 1024 + r.val)) * 128 + l.val < 16777216 := by omega
  have e : ((t.val * 8 + k.val) * 1024 + r.val) * 128 + l.val = (t.val * 8192 + (k.val * 1024 + r.val)) * 128 + l.val := by omega
  rw [e, PairDots.at1_lt _ _ h, PairDots.at1_lt _ _ h]
  rw [Blocks.iblk1_apply m c t ⟨k.val * 1024 + r.val, by omega⟩ l h, Blocks.iblk2_apply m c t ⟨k.val * 1024 + r.val, by omega⟩ l h]

/-- The point's total for windows 0 and 3 is the point's share of the dot product of arguments 0 and 3. -/
theorem blkTot_03 (c : Dev nD) (t : Fin cfg0.N) :
    Case.blkTot (iblk m c 0 t) (iblk m c 3 t) = PairDots.blockDot (m ((c : Thread nD τ).loc main_arg0)) (m ((c : Thread nD τ).loc main_arg3)) t.val := by
  have ht : t.val < 16 := lt_of_lt_of_eq t.isLt (show cfg0.N = 16 from N_0)
  unfold Case.blkTot PairDots.blockDot
  refine Finset.sum_congr rfl fun k _ => Finset.sum_congr rfl fun r _ => Finset.sum_congr rfl fun l _ => ?_
  have hk : k.val < 8 := k.isLt
  have hr : r.val < 1024 := r.isLt
  have hl : l.val < 128 := l.isLt
  have h : (t.val * 8192 + (k.val * 1024 + r.val)) * 128 + l.val < 16777216 := by omega
  have e : ((t.val * 8 + k.val) * 1024 + r.val) * 128 + l.val = (t.val * 8192 + (k.val * 1024 + r.val)) * 128 + l.val := by omega
  rw [e, PairDots.at1_lt _ _ h, PairDots.at1_lt _ _ h]
  rw [Blocks.iblk0_apply m c t ⟨k.val * 1024 + r.val, by omega⟩ l h, Blocks.iblk3_apply m c t ⟨k.val * 1024 + r.val, by omega⟩ l h]

/-- The point's total for windows 1 and 3 is the point's share of the dot product of arguments 1 and 3. -/
theorem blkTot_13 (c : Dev nD) (t : Fin cfg0.N) :
    Case.blkTot (iblk m c 1 t) (iblk m c 3 t) = PairDots.blockDot (m ((c : Thread nD τ).loc main_arg1)) (m ((c : Thread nD τ).loc main_arg3)) t.val := by
  have ht : t.val < 16 := lt_of_lt_of_eq t.isLt (show cfg0.N = 16 from N_0)
  unfold Case.blkTot PairDots.blockDot
  refine Finset.sum_congr rfl fun k _ => Finset.sum_congr rfl fun r _ => Finset.sum_congr rfl fun l _ => ?_
  have hk : k.val < 8 := k.isLt
  have hr : r.val < 1024 := r.isLt
  have hl : l.val < 128 := l.isLt
  have h : (t.val * 8192 + (k.val * 1024 + r.val)) * 128 + l.val < 16777216 := by omega
  have e : ((t.val * 8 + k.val) * 1024 + r.val) * 128 + l.val = (t.val * 8192 + (k.val * 1024 + r.val)) * 128 + l.val := by omega
  rw [e, PairDots.at1_lt _ _ h, PairDots.at1_lt _ _ h]
  rw [Blocks.iblk1_apply m c t ⟨k.val * 1024 + r.val, by omega⟩ l h, Blocks.iblk3_apply m c t ⟨k.val * 1024 + r.val, by omega⟩ l h]

/-- The point's total for windows 2 and 3 is the point's share of the dot product of arguments 2 and 3. -/
theorem blkTot_23 (c : Dev nD) (t : Fin cfg0.N) :
    Case.blkTot (iblk m c 2 t) (iblk m c 3 t) = PairDots.blockDot (m ((c : Thread nD τ).loc main_arg2)) (m ((c : Thread nD τ).loc main_arg3)) t.val := by
  have ht : t.val < 16 := lt_of_lt_of_eq t.isLt (show cfg0.N = 16 from N_0)
  unfold Case.blkTot PairDots.blockDot
  refine Finset.sum_congr rfl fun k _ => Finset.sum_congr rfl fun r _ => Finset.sum_congr rfl fun l _ => ?_
  have hk : k.val < 8 := k.isLt
  have hr : r.val < 1024 := r.isLt
  have hl : l.val < 128 := l.isLt
  have h : (t.val * 8192 + (k.val * 1024 + r.val)) * 128 + l.val < 16777216 := by omega
  have e : ((t.val * 8 + k.val) * 1024 + r.val) * 128 + l.val = (t.val * 8192 + (k.val * 1024 + r.val)) * 128 + l.val := by omega
  rw [e, PairDots.at1_lt _ _ h, PairDots.at1_lt _ _ h]
  rw [Blocks.iblk2_apply m c t ⟨k.val * 1024 + r.val, by omega⟩ l h, Blocks.iblk3_apply m c t ⟨k.val * 1024 + r.val, by omega⟩ l h]

/-- Accumulator 0 after position `n` holds the running sum of the shares of arguments 0 and 1. -/
theorem held_s0 (c : Dev nD) : ∀ (n : ℕ) (hn : n < cfg0.N),
    (outsAt0 (F := Ideal) m c n hn).s0 (ix2 0 0) = PairDots.runSum (PairDots.blockDot (m ((c : Thread nD τ).loc main_arg0)) (m ((c : Thread nD τ).loc main_arg1))) n
  | 0, hn => by
    rw [outsAt0_A m c ⟨0, hn⟩ rfl (show ¬(0 : ℕ) % 8 = 7 by decide)]
    dsimp only
    rw [Case.soutA_0_val, blkTot_01 m c ⟨0, hn⟩, PairDots.runSum_zero]
  | n + 1, hn => by
    by_cases h0 : (n + 1) % 8 = 0
    · have h1 : ¬(n + 1) % 8 = 7 := by omega
      rw [outsAt0_A m c ⟨n + 1, hn⟩ h0 h1]
      dsimp only
      rw [Case.soutA_0_val, blkTot_01 m c ⟨n + 1, hn⟩, PairDots.runSum_reset _ _ h0]
    · by_cases h1 : (n + 1) % 8 = 7
      · rw [outsAt0_C m c ⟨n + 1, hn⟩ h0 h1]
        dsimp only
        rw [Case.soutC_0_val, blkTot_01 m c ⟨n + 1, hn⟩, PairDots.runSum_step _ _ h0]
        show (outsAt0 m c n _).s0 (ix2 0 0) + _ = _
        rw [held_s0 c n]
      · rw [outsAt0_B m c ⟨n + 1, hn⟩ h0 h1]
        dsimp only
        rw [Case.soutB_0_val, blkTot_01 m c ⟨n + 1, hn⟩, PairDots.runSum_step _ _ h0]
        show (outsAt0 m c n _).s0 (ix2 0 0) + _ = _
        rw [held_s0 c n]

/-- At a core's last point output block 4 holds, in its first lane, the running sum accumulator 0 reached. -/
theorem held_o4 (c : Dev nD) (n : ℕ) (hn : n < cfg0.N) (h7 : n % 8 = 7) :
    (outsAt0 (F := Ideal) m c n hn).o4 (ix3 (0 : Fin 1) (0 : Fin 1) (0 : Fin 128)) = PairDots.runSum (PairDots.blockDot (m ((c : Thread nD τ).loc main_arg0)) (m ((c : Thread nD τ).loc main_arg1))) n := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [Case.outC_4_val, blkTot_01 m c ⟨k + 1, hn⟩, PairDots.runSum_step _ _ h0]
  show (outsAt0 m c k _).s0 (ix2 0 0) + _ = _
  rw [held_s0 m c k]

/-- Accumulator 1 after position `n` holds the running sum of the shares of arguments 0 and 2. -/
theorem held_s1 (c : Dev nD) : ∀ (n : ℕ) (hn : n < cfg0.N),
    (outsAt0 (F := Ideal) m c n hn).s1 (ix2 0 0) = PairDots.runSum (PairDots.blockDot (m ((c : Thread nD τ).loc main_arg0)) (m ((c : Thread nD τ).loc main_arg2))) n
  | 0, hn => by
    rw [outsAt0_A m c ⟨0, hn⟩ rfl (show ¬(0 : ℕ) % 8 = 7 by decide)]
    dsimp only
    rw [Case.soutA_1_val, blkTot_02 m c ⟨0, hn⟩, PairDots.runSum_zero]
  | n + 1, hn => by
    by_cases h0 : (n + 1) % 8 = 0
    · have h1 : ¬(n + 1) % 8 = 7 := by omega
      rw [outsAt0_A m c ⟨n + 1, hn⟩ h0 h1]
      dsimp only
      rw [Case.soutA_1_val, blkTot_02 m c ⟨n + 1, hn⟩, PairDots.runSum_reset _ _ h0]
    · by_cases h1 : (n + 1) % 8 = 7
      · rw [outsAt0_C m c ⟨n + 1, hn⟩ h0 h1]
        dsimp only
        rw [Case.soutC_1_val, blkTot_02 m c ⟨n + 1, hn⟩, PairDots.runSum_step _ _ h0]
        show (outsAt0 m c n _).s1 (ix2 0 0) + _ = _
        rw [held_s1 c n]
      · rw [outsAt0_B m c ⟨n + 1, hn⟩ h0 h1]
        dsimp only
        rw [Case.soutB_1_val, blkTot_02 m c ⟨n + 1, hn⟩, PairDots.runSum_step _ _ h0]
        show (outsAt0 m c n _).s1 (ix2 0 0) + _ = _
        rw [held_s1 c n]

/-- At a core's last point output block 5 holds, in its first lane, the running sum accumulator 1 reached. -/
theorem held_o5 (c : Dev nD) (n : ℕ) (hn : n < cfg0.N) (h7 : n % 8 = 7) :
    (outsAt0 (F := Ideal) m c n hn).o5 (ix3 (0 : Fin 1) (0 : Fin 1) (0 : Fin 128)) = PairDots.runSum (PairDots.blockDot (m ((c : Thread nD τ).loc main_arg0)) (m ((c : Thread nD τ).loc main_arg2))) n := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [Case.outC_5_val, blkTot_02 m c ⟨k + 1, hn⟩, PairDots.runSum_step _ _ h0]
  show (outsAt0 m c k _).s1 (ix2 0 0) + _ = _
  rw [held_s1 m c k]

/-- Accumulator 2 after position `n` holds the running sum of the shares of arguments 1 and 2. -/
theorem held_s2 (c : Dev nD) : ∀ (n : ℕ) (hn : n < cfg0.N),
    (outsAt0 (F := Ideal) m c n hn).s2 (ix2 0 0) = PairDots.runSum (PairDots.blockDot (m ((c : Thread nD τ).loc main_arg1)) (m ((c : Thread nD τ).loc main_arg2))) n
  | 0, hn => by
    rw [outsAt0_A m c ⟨0, hn⟩ rfl (show ¬(0 : ℕ) % 8 = 7 by decide)]
    dsimp only
    rw [Case.soutA_2_val, blkTot_12 m c ⟨0, hn⟩, PairDots.runSum_zero]
  | n + 1, hn => by
    by_cases h0 : (n + 1) % 8 = 0
    · have h1 : ¬(n + 1) % 8 = 7 := by omega
      rw [outsAt0_A m c ⟨n + 1, hn⟩ h0 h1]
      dsimp only
      rw [Case.soutA_2_val, blkTot_12 m c ⟨n + 1, hn⟩, PairDots.runSum_reset _ _ h0]
    · by_cases h1 : (n + 1) % 8 = 7
      · rw [outsAt0_C m c ⟨n + 1, hn⟩ h0 h1]
        dsimp only
        rw [Case.soutC_2_val, blkTot_12 m c ⟨n + 1, hn⟩, PairDots.runSum_step _ _ h0]
        show (outsAt0 m c n _).s2 (ix2 0 0) + _ = _
        rw [held_s2 c n]
      · rw [outsAt0_B m c ⟨n + 1, hn⟩ h0 h1]
        dsimp only
        rw [Case.soutB_2_val, blkTot_12 m c ⟨n + 1, hn⟩, PairDots.runSum_step _ _ h0]
        show (outsAt0 m c n _).s2 (ix2 0 0) + _ = _
        rw [held_s2 c n]

/-- At a core's last point output block 6 holds, in its first lane, the running sum accumulator 2 reached. -/
theorem held_o6 (c : Dev nD) (n : ℕ) (hn : n < cfg0.N) (h7 : n % 8 = 7) :
    (outsAt0 (F := Ideal) m c n hn).o6 (ix3 (0 : Fin 1) (0 : Fin 1) (0 : Fin 128)) = PairDots.runSum (PairDots.blockDot (m ((c : Thread nD τ).loc main_arg1)) (m ((c : Thread nD τ).loc main_arg2))) n := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [Case.outC_6_val, blkTot_12 m c ⟨k + 1, hn⟩, PairDots.runSum_step _ _ h0]
  show (outsAt0 m c k _).s2 (ix2 0 0) + _ = _
  rw [held_s2 m c k]

/-- Accumulator 3 after position `n` holds the running sum of the shares of arguments 0 and 3. -/
theorem held_s3 (c : Dev nD) : ∀ (n : ℕ) (hn : n < cfg0.N),
    (outsAt0 (F := Ideal) m c n hn).s3 (ix2 0 0) = PairDots.runSum (PairDots.blockDot (m ((c : Thread nD τ).loc main_arg0)) (m ((c : Thread nD τ).loc main_arg3))) n
  | 0, hn => by
    rw [outsAt0_A m c ⟨0, hn⟩ rfl (show ¬(0 : ℕ) % 8 = 7 by decide)]
    dsimp only
    rw [Case.soutA_3_val, blkTot_03 m c ⟨0, hn⟩, PairDots.runSum_zero]
  | n + 1, hn => by
    by_cases h0 : (n + 1) % 8 = 0
    · have h1 : ¬(n + 1) % 8 = 7 := by omega
      rw [outsAt0_A m c ⟨n + 1, hn⟩ h0 h1]
      dsimp only
      rw [Case.soutA_3_val, blkTot_03 m c ⟨n + 1, hn⟩, PairDots.runSum_reset _ _ h0]
    · by_cases h1 : (n + 1) % 8 = 7
      · rw [outsAt0_C m c ⟨n + 1, hn⟩ h0 h1]
        dsimp only
        rw [Case.soutC_3_val, blkTot_03 m c ⟨n + 1, hn⟩, PairDots.runSum_step _ _ h0]
        show (outsAt0 m c n _).s3 (ix2 0 0) + _ = _
        rw [held_s3 c n]
      · rw [outsAt0_B m c ⟨n + 1, hn⟩ h0 h1]
        dsimp only
        rw [Case.soutB_3_val, blkTot_03 m c ⟨n + 1, hn⟩, PairDots.runSum_step _ _ h0]
        show (outsAt0 m c n _).s3 (ix2 0 0) + _ = _
        rw [held_s3 c n]

/-- At a core's last point output block 7 holds, in its first lane, the running sum accumulator 3 reached. -/
theorem held_o7 (c : Dev nD) (n : ℕ) (hn : n < cfg0.N) (h7 : n % 8 = 7) :
    (outsAt0 (F := Ideal) m c n hn).o7 (ix3 (0 : Fin 1) (0 : Fin 1) (0 : Fin 128)) = PairDots.runSum (PairDots.blockDot (m ((c : Thread nD τ).loc main_arg0)) (m ((c : Thread nD τ).loc main_arg3))) n := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [Case.outC_7_val, blkTot_03 m c ⟨k + 1, hn⟩, PairDots.runSum_step _ _ h0]
  show (outsAt0 m c k _).s3 (ix2 0 0) + _ = _
  rw [held_s3 m c k]

/-- Accumulator 4 after position `n` holds the running sum of the shares of arguments 1 and 3. -/
theorem held_s4 (c : Dev nD) : ∀ (n : ℕ) (hn : n < cfg0.N),
    (outsAt0 (F := Ideal) m c n hn).s4 (ix2 0 0) = PairDots.runSum (PairDots.blockDot (m ((c : Thread nD τ).loc main_arg1)) (m ((c : Thread nD τ).loc main_arg3))) n
  | 0, hn => by
    rw [outsAt0_A m c ⟨0, hn⟩ rfl (show ¬(0 : ℕ) % 8 = 7 by decide)]
    dsimp only
    rw [Case.soutA_4_val, blkTot_13 m c ⟨0, hn⟩, PairDots.runSum_zero]
  | n + 1, hn => by
    by_cases h0 : (n + 1) % 8 = 0
    · have h1 : ¬(n + 1) % 8 = 7 := by omega
      rw [outsAt0_A m c ⟨n + 1, hn⟩ h0 h1]
      dsimp only
      rw [Case.soutA_4_val, blkTot_13 m c ⟨n + 1, hn⟩, PairDots.runSum_reset _ _ h0]
    · by_cases h1 : (n + 1) % 8 = 7
      · rw [outsAt0_C m c ⟨n + 1, hn⟩ h0 h1]
        dsimp only
        rw [Case.soutC_4_val, blkTot_13 m c ⟨n + 1, hn⟩, PairDots.runSum_step _ _ h0]
        show (outsAt0 m c n _).s4 (ix2 0 0) + _ = _
        rw [held_s4 c n]
      · rw [outsAt0_B m c ⟨n + 1, hn⟩ h0 h1]
        dsimp only
        rw [Case.soutB_4_val, blkTot_13 m c ⟨n + 1, hn⟩, PairDots.runSum_step _ _ h0]
        show (outsAt0 m c n _).s4 (ix2 0 0) + _ = _
        rw [held_s4 c n]

/-- At a core's last point output block 8 holds, in its first lane, the running sum accumulator 4 reached. -/
theorem held_o8 (c : Dev nD) (n : ℕ) (hn : n < cfg0.N) (h7 : n % 8 = 7) :
    (outsAt0 (F := Ideal) m c n hn).o8 (ix3 (0 : Fin 1) (0 : Fin 1) (0 : Fin 128)) = PairDots.runSum (PairDots.blockDot (m ((c : Thread nD τ).loc main_arg1)) (m ((c : Thread nD τ).loc main_arg3))) n := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [Case.outC_8_val, blkTot_13 m c ⟨k + 1, hn⟩, PairDots.runSum_step _ _ h0]
  show (outsAt0 m c k _).s4 (ix2 0 0) + _ = _
  rw [held_s4 m c k]

/-- Accumulator 5 after position `n` holds the running sum of the shares of arguments 2 and 3. -/
theorem held_s5 (c : Dev nD) : ∀ (n : ℕ) (hn : n < cfg0.N),
    (outsAt0 (F := Ideal) m c n hn).s5 (ix2 0 0) = PairDots.runSum (PairDots.blockDot (m ((c : Thread nD τ).loc main_arg2)) (m ((c : Thread nD τ).loc main_arg3))) n
  | 0, hn => by
    rw [outsAt0_A m c ⟨0, hn⟩ rfl (show ¬(0 : ℕ) % 8 = 7 by decide)]
    dsimp only
    rw [Case.soutA_5_val, blkTot_23 m c ⟨0, hn⟩, PairDots.runSum_zero]
  | n + 1, hn => by
    by_cases h0 : (n + 1) % 8 = 0
    · have h1 : ¬(n + 1) % 8 = 7 := by omega
      rw [outsAt0_A m c ⟨n + 1, hn⟩ h0 h1]
      dsimp only
      rw [Case.soutA_5_val, blkTot_23 m c ⟨n + 1, hn⟩, PairDots.runSum_reset _ _ h0]
    · by_cases h1 : (n + 1) % 8 = 7
      · rw [outsAt0_C m c ⟨n + 1, hn⟩ h0 h1]
        dsimp only
        rw [Case.soutC_5_val, blkTot_23 m c ⟨n + 1, hn⟩, PairDots.runSum_step _ _ h0]
        show (outsAt0 m c n _).s5 (ix2 0 0) + _ = _
        rw [held_s5 c n]
      · rw [outsAt0_B m c ⟨n + 1, hn⟩ h0 h1]
        dsimp only
        rw [Case.soutB_5_val, blkTot_23 m c ⟨n + 1, hn⟩, PairDots.runSum_step _ _ h0]
        show (outsAt0 m c n _).s5 (ix2 0 0) + _ = _
        rw [held_s5 c n]

/-- At a core's last point output block 9 holds, in its first lane, the running sum accumulator 5 reached. -/
theorem held_o9 (c : Dev nD) (n : ℕ) (hn : n < cfg0.N) (h7 : n % 8 = 7) :
    (outsAt0 (F := Ideal) m c n hn).o9 (ix3 (0 : Fin 1) (0 : Fin 1) (0 : Fin 128)) = PairDots.runSum (PairDots.blockDot (m ((c : Thread nD τ).loc main_arg2)) (m ((c : Thread nD τ).loc main_arg3))) n := by
  obtain ⟨k, rfl⟩ : ∃ k, n = k + 1 := ⟨n - 1, by omega⟩
  have h0 : ¬(k + 1) % 8 = 0 := by omega
  rw [outsAt0_C m c ⟨k + 1, hn⟩ h0 h7]
  dsimp only
  rw [Case.outC_9_val, blkTot_23 m c ⟨k + 1, hn⟩, PairDots.runSum_step _ _ h0]
  show (outsAt0 m c k _).s5 (ix2 0 0) + _ = _
  rw [held_s5 m c k]

end Cert.KernelIdeal.Grid

end
-- ==== Proof.TailValue.lean ====
/-
  The closing host steps as one function, read entry by entry.

  Each of the six result arrays of the accumulation has shape 2 by 1 by 128 and carries one partial total in
  entry (0, 0, 0) and another in entry (1, 0, 0). The closing steps add the two partial totals of each array,
  line the six sums up as a vector of length 6, read it as one row of 6, and append it to the row `x` of length
  16777216. So the final row of length 16777222 holds `x` at positions below 16777216, and at position
  16777216 + q the sum of the two partial totals of array q. Every step is a re-indexing (a slice, a reshape,
  a broadcast of a scalar, a concatenation) except the one addition.
-/
import proofs.«111721_j70781061038447_2_alg».proof.Proof.Gen.KernelIdeal.Launch
import proofs.«111721_j70781061038447_2_alg».proof.Proof.DotSpec
import Idealize.ShloMosaic.Lib.Pipeline.Value
import Idealize.ShloMosaic.Lib.ValueIdx
import Idealize.ShloMosaic.Lib.ValueLayout
import Idealize.ShloMosaic.PureOps.Ideal

noncomputable section

namespace Cert.KernelIdeal.TailValue

open Idealize.ShloMosaic Idealize.ShloMosaic.ValueIdx Cert.KernelIdeal Cert.KernelIdeal.Gen

/-- The two partial totals of one 2-by-1-by-128 array, entries (0, 0, 0) and (1, 0, 0), added, as a vector of length 1. -/
def part {F : FTy → Type} [FloatOps F] (A : (⟨S2x1x128, .f32⟩ : BufTy).Contents (Elt F)) : (⟨S1, .f32⟩ : BufTy).Contents (Elt F) :=
  broadcastInDim S1 ![] bcast_S_S1
    ((addf : (⟨S_, .f32⟩ : BufTy).Contents (Elt F) → (⟨S_, .f32⟩ : BufTy).Contents (Elt F) → (⟨S_, .f32⟩ : BufTy).Contents (Elt F))
      (shapeCast S_ (extractStridedSlice S1x1x1 ![0, 0, 0] A slices_S2x1x128_S1x1x1_0_0_0) shapeCasts_S1x1x1_S_)
      (shapeCast S_ (extractStridedSlice S1x1x1 ![1, 0, 0] A slices_S2x1x128_S1x1x1_1_0_0) shapeCasts_S1x1x1_S_))

/-- The final row: `x` followed by the six arrays' sums of partial totals. -/
def tailOf {F : FTy → Type} [FloatOps F] (A0 A1 A2 A3 A4 A5 : (⟨S2x1x128, .f32⟩ : BufTy).Contents (Elt F))
    (x : (⟨S1x16777216, .f32⟩ : BufTy).Contents (Elt F)) : (⟨S1x16777222, .f32⟩ : BufTy).Contents (Elt F) :=
  concatenate S1x16777222 1
    [⟨S1x16777216, x⟩,
     ⟨S1x6, shapeCast S1x6
        (concatenate S6 0 [⟨S1, part A0⟩, ⟨S1, part A1⟩, ⟨S1, part A2⟩, ⟨S1, part A3⟩, ⟨S1, part A4⟩, ⟨S1, part A5⟩]
          concatenates_S1_S1_S1_S1_S1_S1_S6_d0)
        shapeCasts_S6_S1x6⟩]
    concatenates_S1x16777216_S1x6_S1x16777222_d1

/-- A 1-by-1-by-1 array read as a scalar: its one entry. -/
theorem scalar_apply {α : Type} (v : S1x1x1.Idx → α) (h : S1x1x1.ShapeCasts S_) (j : S_.Idx) :
    shapeCast S_ v h j = v (ix3 (0 : Fin 1) (0 : Fin 1) (0 : Fin 1)) :=
  shapeCast_apply v h j _ (by
    have e : S1x1x1.numel = 1 := by decide
    have e' : S_.numel = 1 := by decide
    have h1 := (S1x1x1.rowMajor (ix3 (0 : Fin 1) (0 : Fin 1) (0 : Fin 1))).isLt
    have h2 := (S_.rowMajor j).isLt
    omega)

/-- The 1-by-1-by-1 slice at offset (c, 0, 0) of a 2-by-1-by-128 array: the entry (c, 0, 0). -/
theorem slice_apply {α : Type} (A : S2x1x128.Idx → α) (c : Fin 2) (h : S2x1x128.Slices ![c.val, 0, 0] S1x1x1) :
    extractStridedSlice S1x1x1 ![c.val, 0, 0] A h (ix3 (0 : Fin 1) (0 : Fin 1) (0 : Fin 1))
      = A (ix3 c (0 : Fin 1) (0 : Fin 128)) :=
  extractStridedSlice_apply _ A h _ _ fun a => match a with
    | ⟨0, _⟩ => by show c.val = c.val + 0; omega
    | ⟨1, _⟩ => rfl
    | ⟨2, _⟩ => rfl

/-- The sum of the two partial totals of an array, at the one entry of the length-1 vector. -/
theorem part_apply (A : (⟨S2x1x128, .f32⟩ : BufTy).Contents (Elt Ideal)) (u : Fin 1) :
    part (F := Ideal) A (ix1 u)
      = A (ix3 (0 : Fin 2) (0 : Fin 1) (0 : Fin 128)) + A (ix3 (1 : Fin 2) (0 : Fin 1) (0 : Fin 128)) := by
  unfold part
  refine (broadcastInDim_apply _ bcast_S_S1 _ (ix1 u) ix0 (fun a => a.elim0)).trans ?_
  refine (addf_apply _ _ _).trans ?_
  refine congrArg₂ (· + ·) ((scalar_apply _ _ _).trans ?_) ((scalar_apply _ _ _).trans ?_)
  · exact slice_apply A (0 : Fin 2) slices_S2x1x128_S1x1x1_0_0_0
  · exact slice_apply A (1 : Fin 2) slices_S2x1x128_S1x1x1_1_0_0

/-- Six vectors of length 1 put end to end, read at position `q`: the one entry of vector `q`. -/
theorem concat6_apply {α : Type} (p : Fin 6 → (S1.Idx → α)) (h : Shape.Concatenates [S1, S1, S1, S1, S1, S1] S6 0)
    (q : Fin 6) :
    concatenate S6 0 [⟨S1, p 0⟩, ⟨S1, p 1⟩, ⟨S1, p 2⟩, ⟨S1, p 3⟩, ⟨S1, p 4⟩, ⟨S1, p 5⟩] h (ix1 q)
      = p q (ix1 (0 : Fin 1)) := by
  have hi : ∀ b : Fin S1.rank, b.cast (rfl : S1.rank = S6.rank) ≠ (0 : Fin S6.rank) →
      ((ix1 (0 : Fin 1) : S1.Idx) b).val = ((ix1 q : S6.Idx) (b.cast (rfl : S1.rank = S6.rank))).val :=
    fun b hb => absurd (Fin.ext (by have hb1 : b.val < 1 := b.isLt; show b.val = 0; omega)) hb
  match q with
  | ⟨0, _⟩ =>
    exact concatenate_apply_piece (0 : Fin S6.rank) [⟨S1, p 0⟩, ⟨S1, p 1⟩, ⟨S1, p 2⟩, ⟨S1, p 3⟩, ⟨S1, p 4⟩, ⟨S1, p 5⟩] h _ 0 (by show 0 < 6; omega) S1 (p 0) rfl rfl 0 rfl
      (ix1 (0 : Fin 1)) hi rfl
  | ⟨1, _⟩ =>
    exact concatenate_apply_piece (0 : Fin S6.rank) [⟨S1, p 0⟩, ⟨S1, p 1⟩, ⟨S1, p 2⟩, ⟨S1, p 3⟩, ⟨S1, p 4⟩, ⟨S1, p 5⟩] h _ 1 (by show 1 < 6; omega) S1 (p 1) rfl rfl 1 rfl
      (ix1 (0 : Fin 1)) hi rfl
  | ⟨2, _⟩ =>
    exact concatenate_apply_piece (0 : Fin S6.rank) [⟨S1, p 0⟩, ⟨S1, p 1⟩, ⟨S1, p 2⟩, ⟨S1, p 3⟩, ⟨S1, p 4⟩, ⟨S1, p 5⟩] h _ 2 (by show 2 < 6; omega) S1 (p 2) rfl rfl 2 rfl
      (ix1 (0 : Fin 1)) hi rfl
  | ⟨3, _⟩ =>
    exact concatenate_apply_piece (0 : Fin S6.rank) [⟨S1, p 0⟩, ⟨S1, p 1⟩, ⟨S1, p 2⟩, ⟨S1, p 3⟩, ⟨S1, p 4⟩, ⟨S1, p 5⟩] h _ 3 (by show 3 < 6; omega) S1 (p 3) rfl rfl 3 rfl
      (ix1 (0 : Fin 1)) hi rfl
  | ⟨4, _⟩ =>
    exact concatenate_apply_piece (0 : Fin S6.rank) [⟨S1, p 0⟩, ⟨S1, p 1⟩, ⟨S1, p 2⟩, ⟨S1, p 3⟩, ⟨S1, p 4⟩, ⟨S1, p 5⟩] h _ 4 (by show 4 < 6; omega) S1 (p 4) rfl rfl 4 rfl
      (ix1 (0 : Fin 1)) hi rfl
  | ⟨5, _⟩ =>
    exact concatenate_apply_piece (0 : Fin S6.rank) [⟨S1, p 0⟩, ⟨S1, p 1⟩, ⟨S1, p 2⟩, ⟨S1, p 3⟩, ⟨S1, p 4⟩, ⟨S1, p 5⟩] h _ 5 (by show 5 < 6; omega) S1 (p 5) rfl rfl 5 rfl
      (ix1 (0 : Fin 1)) hi rfl

/-- Below position 16777216 the final row holds `x`. -/
theorem tailOf_left (A0 A1 A2 A3 A4 A5 : (⟨S2x1x128, .f32⟩ : BufTy).Contents (Elt Ideal)) (x : (⟨S1x16777216, .f32⟩ : BufTy).Contents (Elt Ideal))
    (j : S1x16777222.Idx) (h : (j 1).val < 16777216) :
    tailOf (F := Ideal) A0 A1 A2 A3 A4 A5 x j = x (ix2 0 ⟨(j 1).val, h⟩) := by
  unfold tailOf
  refine concatenate_pair_apply_left 1 x _ concatenates_S1x16777216_S1x6_S1x16777222_d1 j rfl
    (ix2 (0 : Fin 1) ⟨(j 1).val, h⟩) fun b => ?_
  match b with
  | ⟨0, _⟩ => show (0 : ℕ) = (j 0).val; have := idx2_lt0 j; omega
  | ⟨1, _⟩ => rfl

/-- At position 16777216 + q the final row holds the sum of the two partial totals of array `q`. -/
theorem tailOf_right (A0 A1 A2 A3 A4 A5 : (⟨S2x1x128, .f32⟩ : BufTy).Contents (Elt Ideal)) (x : (⟨S1x16777216, .f32⟩ : BufTy).Contents (Elt Ideal))
    (j : S1x16777222.Idx) (q : Fin 6) (h : (j 1).val = 16777216 + q.val) :
    tailOf (F := Ideal) A0 A1 A2 A3 A4 A5 x j
      = (![A0, A1, A2, A3, A4, A5] q) (ix3 (0 : Fin 2) (0 : Fin 1) (0 : Fin 128))
        + (![A0, A1, A2, A3, A4, A5] q) (ix3 (1 : Fin 2) (0 : Fin 1) (0 : Fin 128)) := by
  unfold tailOf
  refine (concatenate_pair_apply_right 1 x _ concatenates_S1x16777216_S1x6_S1x16777222_d1 j rfl rfl
    (ix2 (0 : Fin 1) q) (fun b hb => ?_) ?_).trans ?_
  · match b, hb with
    | ⟨0, _⟩, _ => show (0 : ℕ) = (j 0).val; have := idx2_lt0 j; omega
    | ⟨1, _⟩, hb => exact absurd rfl hb
  · show q.val + 16777216 = (j 1).val
    omega
  refine (shapeCast_a_1a_apply _ shapeCasts_S6_S1x6 (0 : Fin 1) q).trans ?_
  refine (concat6_apply (fun q => part (F := Ideal) (![A0, A1, A2, A3, A4, A5] q))
    concatenates_S1_S1_S1_S1_S1_S1_S6_d0 q).trans ?_
  exact part_apply _ 0

end Cert.KernelIdeal.TailValue

end
-- ==== Proof.LibNary6.lean ====
/-
  A host operation with six operands (a concatenation of six pieces), read at its result: the operation's function
  applied to the six operands' contents, each AT ITS OWN REFERENCE. The general rule for an n-ary operation gives the
  function applied to `fun k => F ↑(xs k)`, under whose binder the reference `xs k` is no literal, so that no further
  result rule applies to the operands; for a literal family of six references the contents are spelt one by one, and
  rewriting can go on into each operand.
-/
import Idealize.ShloMosaic.Lib.StableHlo.Run

noncomputable section

namespace Cert.LibNary6

open Idealize.ShloMosaic Idealize.ShloMosaic.StableHlo

variable {τ : Topo} {sig : RefSig} {Val : EltTy → Type}
variable {x0 x1 x2 x3 x4 x5 y : Ref sig .tc}

/-- For any six references and any function of their contents: the result buffer of the six-operand operation
    `nary ![x0, …, x5] y f` holds `f` of the six operands' contents, listed one by one (`Fin.cons`). -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
            (fun i => i.elim0))))))) := by
  rw [nary_result]; congr 1; funext k; fin_cases k <;> rfl

end Cert.LibNary6

end
-- ==== Proof.TailAfter.lean ====
/-
  The closing host steps, run from any starting contents, leave in the final buffer the row that the function
  `tailOf` computes from the six result arrays and the first argument as they stood before the steps.

  The 39 steps are read from the last one back: each step writes one buffer as a function of buffers written
  earlier (or never written by these steps), so the final buffer's contents unfold, step by step, into the
  composed function of the untouched buffers' contents; that composition is `tailOf` term for term.
-/
import proofs.«111721_j70781061038447_2_alg».proof.Proof.TailValue
import proofs.«111721_j70781061038447_2_alg».proof.Proof.LibNary6
import Idealize.ShloMosaic.Lib.StableHlo.Run

noncomputable section

namespace Cert.KernelIdeal.TailValue

open Idealize.ShloMosaic Idealize.ShloMosaic.TcCoe Idealize.ShloMosaic.StableHlo
open Cert.KernelIdeal Cert.KernelIdeal.Gen

section
variable {τ' : Topo} {sig' : RefSig} {Val : EltTy → Type}
variable {x0 x1 x2 x3 x4 x5 y : Ref sig' .tc}

/-- The result of a six-operand step, read at its result buffer: the step's function of the six operands' contents,
    listed one by one. -/
theorem nary6_result_at
    (f : ((k : Fin 6) → ((![x0, x1, x2, x3, x4, x5] : Fin 6 → Ref sig' .tc) k).ty.Contents Val) → y.ty.Contents Val) (hxs hy)
    (G : Valuation τ' sig' Val) :
    (nary (τ := τ') ![x0, x1, x2, x3, x4, x5] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
            (fun i => i.elim0))))))) :=
  Cert.LibNary6.nary6_result f hxs hy G
end

variable {F : FTy → Type} [FloatOps F]

set_option maxHeartbeats 4000000 in
set_option maxRecDepth 8192 in
/-- After the closing steps the final buffer holds `tailOf` of the six result arrays and the first argument. -/
theorem tail_after (V : Valuation τ sig (Elt F)) :
    StableHlo.after (hostOps1 (F := F)) V (Proc.devRef .tc main_v43)
      = tailOf (V (Proc.devRef .tc main_v4_0)) (V (Proc.devRef .tc main_v4_1)) (V (Proc.devRef .tc main_v4_2))
          (V (Proc.devRef .tc main_v4_3)) (V (Proc.devRef .tc main_v4_4)) (V (Proc.devRef .tc main_v4_5))
          (V (Proc.devRef .tc main_arg0)) := by
  dsimp only [hostOps1]
  simp (disch := decide) only [after_cons, after_nil, unary_result', binary_result', reshape_result', nary6_result_at,
    unary_result_ne', binary_result_ne', reshape_result_ne', nary_result_ne']
  rfl

end Cert.KernelIdeal.TailValue

end
-- ==== Proof.KiTail.lean ====
/-
  The kernel's final row.

  After the region the six result arrays hold, in entries (0, 0, 0) and (1, 0, 0), the two cores' accumulated
  totals of one pair of argument rows; the closing host steps add the two totals of each array and append the six
  sums to the first argument row. The first total is the sum of the first eight blocks' shares of the pair's dot
  product and the second the sum of the last eight, so each sum is the whole dot product, and the final row is the
  first argument followed by the six pairwise dot products: the specification's row.
-/
import proofs.«111721_j70781061038447_2_alg».proof.Proof.KiDat
import proofs.«111721_j70781061038447_2_alg».proof.Proof.KiArr
import proofs.«111721_j70781061038447_2_alg».proof.Proof.KiGrid
import proofs.«111721_j70781061038447_2_alg».proof.Proof.DotGrid
import proofs.«111721_j70781061038447_2_alg».proof.Proof.TailAfter

set_option maxRecDepth 16384

noncomputable section

namespace Cert.KernelIdeal.Tail

open Idealize.ShloMosaic Idealize.ShloMosaic.TcCoe Idealize.ShloMosaic.ValueIdx
open Idealize.SL Idealize.SL.Sem
open Cert.KernelIdeal Cert.KernelIdeal.Gen Cert.KernelIdeal.Frm

section AnyValues
variable {F : FTy → Type} [FloatOps F]

/-- The final buffer after the closing steps: the closing function of the six result arrays as the region leaves
    them and of the first argument as launched. -/
theorem v43_eq (m : (ℓ : Loc nD τ sig) → Buf (Elt F) ℓ) (c : Dev nD) :
    Pipeline.afterTail₀ cfgs (dats (F := F) m) 0 (V0 m) [hostOps1] c main_v43
      = TailValue.tailOf ((dats m 0 c).arrAt 4 cfg0.N) ((dats m 0 c).arrAt 5 cfg0.N) ((dats m 0 c).arrAt 6 cfg0.N)
          ((dats m 0 c).arrAt 7 cfg0.N) ((dats m 0 c).arrAt 8 cfg0.N) ((dats m 0 c).arrAt 9 cfg0.N)
          (m ((c : Thread nD τ).loc main_arg0)) := by
  unfold Pipeline.afterTail₀
  show StableHlo.after hostOps1 (Pipeline.withArrays spec0 c (V0 m c) fun w => (dats m 0 c).arrAt w cfg0.N)
      (Proc.devRef .tc main_v43) = _
  rw [TailValue.tail_after]
  have e4 : Pipeline.withArrays spec0 c (V0 m c) (fun w => (dats m 0 c).arrAt w cfg0.N) (Proc.devRef .tc main_v4_0)
      = (dats m 0 c).arrAt 4 cfg0.N := Pipeline.withArrays_arr spec0 launch0.win.arr_inj c _ _ 4
  have e5 : Pipeline.withArrays spec0 c (V0 m c) (fun w => (dats m 0 c).arrAt w cfg0.N) (Proc.devRef .tc main_v4_1)
      = (dats m 0 c).arrAt 5 cfg0.N := Pipeline.withArrays_arr spec0 launch0.win.arr_inj c _ _ 5
  have e6 : Pipeline.withArrays spec0 c (V0 m c) (fun w => (dats m 0 c).arrAt w cfg0.N) (Proc.devRef .tc main_v4_2)
      = (dats m 0 c).arrAt 6 cfg0.N := Pipeline.withArrays_arr spec0 launch0.win.arr_inj c _ _ 6
  have e7 : Pipeline.withArrays spec0 c (V0 m c) (fun w => (dats m 0 c).arrAt w cfg0.N) (Proc.devRef .tc main_v4_3)
      = (dats m 0 c).arrAt 7 cfg0.N := Pipeline.withArrays_arr spec0 launch0.win.arr_inj c _ _ 7
  have e8 : Pipeline.withArrays spec0 c (V0 m c) (fun w => (dats m 0 c).arrAt w cfg0.N) (Proc.devRef .tc main_v4_4)
      = (dats m 0 c).arrAt 8 cfg0.N := Pipeline.withArrays_arr spec0 launch0.win.arr_inj c _ _ 8
  have e9 : Pipeline.withArrays spec0 c (V0 m c) (fun w => (dats m 0 c).arrAt w cfg0.N) (Proc.devRef .tc main_v4_5)
      = (dats m 0 c).arrAt 9 cfg0.N := Pipeline.withArrays_arr spec0 launch0.win.arr_inj c _ _ 9
  have e0 : Pipeline.withArrays spec0 c (V0 m c) (fun w => (dats m 0 c).arrAt w cfg0.N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  rw [e4, e5, e6, e7, e8, e9, e0]

end AnyValues

section AtIdeal

/-- The sum of the two cores' totals held in a result array: entries (0, 0, 0) and (1, 0, 0). -/
def twoTotals (A : Vec Ideal S2x1x128 .f32) : EReal := A (ix3 (0 : Fin 2) (0 : Fin 1) (0 : Fin 128)) + A (ix3 (1 : Fin 2) (0 : Fin 1) (0 : Fin 128))

/-- Two totals, the first eight blocks' shares and the last eight's, add up to the dot product. -/
theorem halves (A : Vec Ideal S2x1x128 .f32) (a b : FVec Ideal PairDots.SIn .f32)
    (h0 : A (ix3 (0 : Fin 2) (0 : Fin 1) (0 : Fin 128)) = PairDots.runSum (PairDots.blockDot a b) 7)
    (h1 : A (ix3 (1 : Fin 2) (0 : Fin 1) (0 : Fin 128)) = PairDots.runSum (PairDots.blockDot a b) 15) :
    twoTotals A = PairDots.dot a b := by
  unfold twoTotals
  rw [h0, h1]
  exact PairDots.halves_eq_dot a b

/-- If each result array's two totals add up to the matching dot product, the closing function's row is the
    specification's row. -/
theorem tail_eq_result (A0 A1 A2 A3 A4 A5 : Vec Ideal S2x1x128 .f32) (x l0 l1 l2 : FVec Ideal PairDots.SIn .f32)
    (h0 : twoTotals A0 = PairDots.dot x l0) (h1 : twoTotals A1 = PairDots.dot x l1)
    (h2 : twoTotals A2 = PairDots.dot l0 l1) (h3 : twoTotals A3 = PairDots.dot x l2)
    (h4 : twoTotals A4 = PairDots.dot l0 l2) (h5 : twoTotals A5 = PairDots.dot l1 l2) :
    TailValue.tailOf (F := Ideal) A0 A1 A2 A3 A4 A5 x = PairDots.result x l0 l1 l2 := by
  funext (j : S1x16777222.Idx)
  by_cases h : (j 1).val < 16777216
  · exact (TailValue.tailOf_left A0 A1 A2 A3 A4 A5 x j h).trans (PairDots.result_left x l0 l1 l2 j h).symm
  · have hj : (j 1).val < 16777222 := idx2_lt1 j
    have hq : (j 1).val - 16777216 < 6 := by omega
    have hjq : (j 1).val = 16777216 + (⟨(j 1).val - 16777216, hq⟩ : Fin 6).val := by
      show (j 1).val = 16777216 + ((j 1).val - 16777216)
      omega
    refine (TailValue.tailOf_right A0 A1 A2 A3 A4 A5 x j ⟨(j 1).val - 16777216, hq⟩ hjq).trans
      (Eq.trans ?_ (PairDots.result_right x l0 l1 l2 j ⟨(j 1).val - 16777216, hq⟩ hjq).symm)
    generalize (⟨(j 1).val - 16777216, hq⟩ : Fin 6) = q
    match q with
    | ⟨0, _⟩ => exact h0
    | ⟨1, _⟩ => exact h1
    | ⟨2, _⟩ => exact h2
    | ⟨3, _⟩ => exact h3
    | ⟨4, _⟩ => exact h4
    | ⟨5, _⟩ => exact h5

variable (m : (ℓ : Loc nD τ sig) → Buf (Elt Ideal) ℓ)

/-- The last point of the first core's eight, and of the second core's, are points of the grid. -/
theorem lt7 : 7 < cfg0.N := Arr.last_lt 0 (by decide)
theorem lt15 : 15 < cfg0.N := Arr.last_lt 1 (by decide)

/-- Result array 0: its two cores' totals add up to the dot product of argument rows 0 and 1. -/
theorem sum_o4 (c : Dev nD) :
    twoTotals ((dats (F := Ideal) m 0 c).arrAt 4 cfg0.N) = PairDots.dot (m ((c : Thread nD τ).loc main_arg0)) (m ((c : Thread nD τ).loc main_arg1)) :=
  halves _ _ _
    ((Arr.arr4_at m c 0 lt7).trans (Grid.held_o4 m c 7 lt7 (by decide)))
    ((Arr.arr4_at m c 1 lt15).trans (Grid.held_o4 m c 15 lt15 (by decide)))

/-- Result array 1: its two cores' totals add up to the dot product of argument rows 0 and 2. -/
theorem sum_o5 (c : Dev nD) :
    twoTotals ((dats (F := Ideal) m 0 c).arrAt 5 cfg0.N) = PairDots.dot (m ((c : Thread nD τ).loc main_arg0)) (m ((c : Thread nD τ).loc main_arg2)) :=
  halves _ _ _
    ((Arr.arr5_at m c 0 lt7).trans (Grid.held_o5 m c 7 lt7 (by decide)))
    ((Arr.arr5_at m c 1 lt15).trans (Grid.held_o5 m c 15 lt15 (by decide)))

/-- Result array 2: its two cores' totals add up to the dot product of argument rows 1 and 2. -/
theorem sum_o6 (c : Dev nD) :
    twoTotals ((dats (F := Ideal) m 0 c).arrAt 6 cfg0.N) = PairDots.dot (m ((c : Thread nD τ).loc main_arg1)) (m ((c : Thread nD τ).loc main_arg2)) :=
  halves _ _ _
    ((Arr.arr6_at m c 0 lt7).trans (Grid.held_o6 m c 7 lt7 (by decide)))
    ((Arr.arr6_at m c 1 lt15).trans (Grid.held_o6 m c 15 lt15 (by decide)))

/-- Result array 3: its two cores' totals add up to the dot product of argument rows 0 and 3. -/
theorem sum_o7 (c : Dev nD) :
    twoTotals ((dats (F := Ideal) m 0 c).arrAt 7 cfg0.N) = PairDots.dot (m ((c : Thread nD τ).loc main_arg0)) (m ((c : Thread nD τ).loc main_arg3)) :=
  halves _ _ _
    ((Arr.arr7_at m c 0 lt7).trans (Grid.held_o7 m c 7 lt7 (by decide)))
    ((Arr.arr7_at m c 1 lt15).trans (Grid.held_o7 m c 15 lt15 (by decide)))

/-- Result array 4: its two cores' totals add up to the dot product of argument rows 1 and 3. -/
theorem sum_o8 (c : Dev nD) :
    twoTotals ((dats (F := Ideal) m 0 c).arrAt 8 cfg0.N) = PairDots.dot (m ((c : Thread nD τ).loc main_arg1)) (m ((c : Thread nD τ).loc main_arg3)) :=
  halves _ _ _
    ((Arr.arr8_at m c 0 lt7).trans (Grid.held_o8 m c 7 lt7 (by decide)))
    ((Arr.arr8_at m c 1 lt15).trans (Grid.held_o8 m c 15 lt15 (by decide)))

/-- Result array 5: its two cores' totals add up to the dot product of argument rows 2 and 3. -/
theorem sum_o9 (c : Dev nD) :
    twoTotals ((dats (F := Ideal) m 0 c).arrAt 9 cfg0.N) = PairDots.dot (m ((c : Thread nD τ).loc main_arg2)) (m ((c : Thread nD τ).loc main_arg3)) :=
  halves _ _ _
    ((Arr.arr9_at m c 0 lt7).trans (Grid.held_o9 m c 7 lt7 (by decide)))
    ((Arr.arr9_at m c 1 lt15).trans (Grid.held_o9 m c 15 lt15 (by decide)))

/-- The kernel's final row is the specification's: the first argument followed by the six pairwise dot products. -/
theorem kernel_result (c : Dev nD) :
    Pipeline.afterTail₀ cfgs (dats (F := Ideal) m) 0 (V0 m) [hostOps1] c main_v43
      = PairDots.result (m ((c : Thread nD τ).loc main_arg0)) (m ((c : Thread nD τ).loc main_arg1))
          (m ((c : Thread nD τ).loc main_arg2)) (m ((c : Thread nD τ).loc main_arg3)) :=
  (v43_eq m c).trans
    (tail_eq_result _ _ _ _ _ _ _ _ _ _ (sum_o4 m c) (sum_o5 m c) (sum_o6 m c) (sum_o7 m c) (sum_o8 m c) (sum_o9 m c))

end AtIdeal

end Cert.KernelIdeal.Tail

end
-- ==== Proof.KiRun.lean ====
/-
  The idealized kernel's run, read back. Every weakly fair execution of the program terminates; in the final state
  the result array — which no window stages, so it is what the 39 later host lines leave — holds the first argument
  row followed by the six pairwise dot products, and the four argument arrays are as launched.
-/
import proofs.«111721_j70781061038447_2_alg».proof.Proof.KiFrame
import proofs.«111721_j70781061038447_2_alg».proof.Proof.KiTail

noncomputable section

namespace Cert.KernelIdeal.Run

open Idealize.ShloMosaic Idealize.ShloMosaic.TcCoe Idealize.SL.Sem
open Cert.KernelIdeal Cert.KernelIdeal.Gen Cert.KernelIdeal.Frm

theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
        = PairDots.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_v43 (Pipeline.mem_restRefs_of main_v43 (by decide) (by decide))).trans (Tail.kernel_result m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main (F := Ideal) m ρ)

end Cert.KernelIdeal.Run

end
-- ==== Proof.RefRun.lean ====
/-
  The reference program's @main as the list of its 20 host operations, and its run read back: every weakly fair
  execution terminates with the result buffer at the operations' composed pure term of the four argument rows, the
  arguments unchanged. The composed term is named piece by piece: the four rows laid end to end (`cat4`), the same
  entries as a 4-row matrix (`rows4`), its Gram matrix (`gram`), the table of the six index pairs (`pairIdx`), the
  six Gram entries picked at those pairs (`picked`), and the first row followed by those six entries (`res`).
-/
import proofs.«111721_j70781061038447_2_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀

/-! ## The composed term, piece by piece -/

/-- The four rows laid end to end: one row of length 4 · 16777216. -/
def cat4 (a0 a1 a2 a3 : (⟨S1x16777216, .f32⟩ : BufTy).Contents (Elt F)) : (⟨S1x67108864, .f32⟩ : BufTy).Contents (Elt F) :=
  concatenate S1x67108864 1 [⟨S1x16777216, a0⟩, ⟨S1x16777216, a1⟩, ⟨S1x16777216, a2⟩, ⟨S1x16777216, a3⟩] concatenates_S1x16777216_S1x16777216_S1x16777216_S1x16777216_S1x67108864_d1

/-- The same entries as a matrix of 4 rows of length 16777216 (under a leading unit axis): row `i` is argument `i`. -/
def rows4 (a0 a1 a2 a3 : (⟨S1x16777216, .f32⟩ : BufTy).Contents (Elt F)) : (⟨S1x4x16777216, .f32⟩ : BufTy).Contents (Elt F) :=
  shapeCast _ (cat4 a0 a1 a2 a3) shapeCasts_S1x67108864_S1x4x16777216

/-- The 4 × 4 Gram matrix of the four rows: entry (a, b) is the dot product of rows a and b. -/
def gram (a0 a1 a2 a3 : (⟨S1x16777216, .f32⟩ : BufTy).Contents (Elt F)) : (⟨S1x4x4, .f32⟩ : BufTy).Contents (Elt F) :=
  Host.dotGeneral dot_S1x4x16777216_S1x4x16777216_S1x4x4_2_2_1_1_0_0 none (rows4 a0 a1 a2 a3) (rows4 a0 a1 a2 a3)

/-- The first coordinates of the six index pairs: 1, 2, 2, 3, 3, 3 (a select on an all-false mask keeps the table). -/
def pairRow : (⟨S6, .i32⟩ : BufTy).Contents (Elt F) :=
  select (constantI S6 1 0#1) (addi (fun i => lit0 (S6.rowMajor i)) (broadcastInDim S6 ![] bcast_S_S6 (constantI S_ 32 4#32))) (fun i => lit0 (S6.rowMajor i))

/-- The second coordinates of the six index pairs: 0, 0, 1, 0, 1, 2. -/
def pairCol : (⟨S6, .i32⟩ : BufTy).Contents (Elt F) :=
  select (constantI S6 1 0#1) (addi (fun i => lit1 (S6.rowMajor i)) (broadcastInDim S6 ![] bcast_S_S6 (constantI S_ 32 4#32))) (fun i => lit1 (S6.rowMajor i))

/-- The 6 × 2 table of index pairs (1,0), (2,0), (2,1), (3,0), (3,1), (3,2): the strict lower triangle, row by row. -/
def pairIdx : (⟨S6x2, .i32⟩ : BufTy).Contents (Elt F) :=
  concatenate S6x2 1 [⟨S6x1, broadcastInDim S6x1 ![0] bcast_S6_S6x1_0 (pairRow (F := F))⟩, ⟨S6x1, broadcastInDim S6x1 ![0] bcast_S6_S6x1_0 (pairCol (F := F))⟩] concatenates_S6x1_S6x1_S6x2_d1

/-- The six Gram entries at those pairs, as one row of length 6. -/
def picked (a0 a1 a2 a3 : (⟨S1x16777216, .f32⟩ : BufTy).Contents (Elt F)) : (⟨S1x6, .f32⟩ : BufTy).Contents (Elt F) :=
  Host.gather gather_S1x4x4_S6x2_S1x6_0_12_n_n_12_1_111 (gram a0 a1 a2 a3) (pairIdx (F := F))

/-- The result row: the first argument followed by the six picked Gram entries. -/
def res (a0 a1 a2 a3 : (⟨S1x16777216, .f32⟩ : BufTy).Contents (Elt F)) : (⟨S1x16777222, .f32⟩ : BufTy).Contents (Elt F) :=
  concatenate S1x16777222 1 [⟨S1x16777216, a0⟩, ⟨S1x6, picked a0 a1 a2 a3⟩] concatenates_S1x16777216_S1x6_S1x16777222_d1

/-! ## The operations and the run -/

/-- @main's 20 operations, in order. -/
abbrev ops : List (HloOp τ sig (Elt F)) :=
  [ nullary main_c (fun i => lit0 (S6.rowMajor i)),
    nullary main_c_0 (constantI S6 1 0#1),
    nullary main_c_1 (fun i => lit1 (S6.rowMajor i)),
    nullary main_c_2 (constantI S6 1 0#1),
    nary ![main_arg0, main_arg1, main_arg2, main_arg3] main_v0 (fun u => concatenate S1x67108864 1 [⟨S1x16777216, u 0⟩, ⟨S1x16777216, u 1⟩, ⟨S1x16777216, u 2⟩, ⟨S1x16777216, u 3⟩] concatenates_S1x16777216_S1x16777216_S1x16777216_S1x16777216_S1x67108864_d1),
    reshape main_v0 main_v1 rfl shapeCasts_S1x67108864_S1x4x16777216,
    binary main_v1 main_v1 main_v2 ((fun l r => Host.dotGeneral dot_S1x4x16777216_S1x4x16777216_S1x4x4_2_2_1_1_0_0 none l r) : (⟨S1x4x16777216, .f32⟩ : BufTy).Contents (Elt F) → (⟨S1x4x16777216, .f32⟩ : BufTy).Contents (Elt F) → (⟨S1x4x4, .f32⟩ : BufTy).Contents (Elt F)),
    nullary main_c_3 (constantI S_ 32 4#32),
    unary main_c_3 main_v3 (broadcastInDim S6 ![] bcast_S_S6 : (⟨S_, .i32⟩ : BufTy).Contents (Elt F) → (⟨S6, .i32⟩ : BufTy).Contents (Elt F)),
    binary main_c main_v3 main_v4 (addi : (⟨S6, .i32⟩ : BufTy).Contents (Elt F) → (⟨S6, .i32⟩ : BufTy).Contents (Elt F) → (⟨S6, .i32⟩ : BufTy).Contents (Elt F)),
    ternary main_c_0 main_v4 main_c main_v5 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    nullary main_c_4 (constantI S_ 32 4#32),
    unary main_c_4 main_v6 (broadcastInDim S6 ![] bcast_S_S6 : (⟨S_, .i32⟩ : BufTy).Contents (Elt F) → (⟨S6, .i32⟩ : BufTy).Contents (Elt F)),
    binary main_c_1 main_v6 main_v7 (addi : (⟨S6, .i32⟩ : BufTy).Contents (Elt F) → (⟨S6, .i32⟩ : BufTy).Contents (Elt F) → (⟨S6, .i32⟩ : BufTy).Contents (Elt F)),
    ternary main_c_2 main_v7 main_c_1 main_v8 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v5 main_v9 (broadcastInDim S6x1 ![0] bcast_S6_S6x1_0 : (⟨S6, .i32⟩ : BufTy).Contents (Elt F) → (⟨S6x1, .i32⟩ : BufTy).Contents (Elt F)),
    unary main_v8 main_v10 (broadcastInDim S6x1 ![0] bcast_S6_S6x1_0 : (⟨S6, .i32⟩ : BufTy).Contents (Elt F) → (⟨S6x1, .i32⟩ : BufTy).Contents (Elt F)),
    binary main_v9 main_v10 main_v11 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    binary main_v2 main_v11 main_v12 ((fun x i => Host.gather gather_S1x4x4_S6x2_S1x6_0_12_n_n_12_1_111 x i) : (⟨S1x4x4, .f32⟩ : BufTy).Contents (Elt F) → (⟨S6x2, .i32⟩ : BufTy).Contents (Elt F) → (⟨S1x6, .f32⟩ : BufTy).Contents (Elt F)),
    binary main_arg0 main_v12 main_v13 ((fun a b => concatenate S1x16777222 1 [⟨S1x16777216, a⟩, ⟨S1x6, b⟩] concatenates_S1x16777216_S1x6_S1x16777222_d1) : (⟨S1x16777216, .f32⟩ : BufTy).Contents (Elt F) → (⟨S1x6, .f32⟩ : BufTy).Contents (Elt F) → (⟨S1x16777222, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nary_bufs_sub .., reshape_bufs_sub .., binary_bufs_sub ..,
   nullary_bufs_sub .., unary_bufs_sub .., binary_bufs_sub .., ternary_bufs_sub .., nullary_bufs_sub .., unary_bufs_sub .., binary_bufs_sub ..,
   ternary_bufs_sub .., unary_bufs_sub .., unary_bufs_sub .., binary_bufs_sub .., binary_bufs_sub .., binary_bufs_sub ..⟩

/-- On every device, for any float values, from any memory with zero counters: every weakly fair execution of
    @main terminates with the result buffer at `res` of the four argument rows and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (by after_results <;> rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.RefValue

end
-- ==== Proof.RefGram.lean ====
/-
  The Gram matrix of the four rows, entry by entry. Three steps: a product of two stacks of matrices contracted over the
  LAST axis of both (`A · Bᵀ` member by member) read at an index is the sum over the contracted coordinate of the
  products of the entries; the four rows laid end to end, read at position `i · 16777216 + d`, are row `i` at `d`;
  hence the reshaped 4-row matrix has row `i` equal to argument `i`, and entry (a, b) of the Gram matrix is
  `∑ d, row a d * row b d`.
-/
import proofs.«111721_j70781061038447_2_alg».proof.Proof.RefRun
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx
open scoped BigOperators

/-! ## A stack of products `A · Bᵀ`, read at an index -/

/-- The product of two stacks of matrices `[G, m, k]` and `[G, n, k]`, batch axis 0 and the LAST axis of both contracted,
    read at (g, a, b): the sum over the contracted coordinate of `A g a c * B g b c`. At the ideal values. -/
theorem dotGeneral_lastAxes_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-! ## The four rows -/

/-- Row `i` of four. -/
def arg4 {α : Type} (a0 a1 a2 a3 : α) : Fin 4 → α
  | 0 => a0 | 1 => a1 | 2 => a2 | 3 => a3

variable {F : FTy → Type} [FloatOps F] [Facts]
open Facts₀

/-- The extents of the rows before row `k`, laid end to end, add up to `k · 16777216`. -/
theorem pre4 : ∀ k : Fin 4, ((([S1x16777216, S1x16777216, S1x16777216, S1x16777216] : List Shape).take k.val).map
    fun s => if h : s.rank = S1x67108864.rank then s.size ((1 : Fin S1x67108864.rank).cast h.symm) else 0).sum = k.val * 16777216 := by
  decide

/-- The four rows laid end to end, at position `i · 16777216 + d`: row `i` at `d`. -/
theorem cat4_apply (a0 a1 a2 a3 : FVec F S1x16777216 .f32) (i : Fin 4) (d : Fin 16777216) (p : Fin 67108864)
    (hp : p.val = i.val * 16777216 + d.val) :
    cat4 a0 a1 a2 a3 (ix2 (0 : Fin 1) p) = arg4 a0 a1 a2 a3 i (ix2 (0 : Fin 1) d) := by
  unfold cat4
  refine concatenate_apply_piece (1 : Fin 2) _ _ (ix2 (0 : Fin 1) p) i.val (by have := i.isLt; simpa using this)
    S1x16777216 (arg4 a0 a1 a2 a3 i) ?_ rfl (i.val * 16777216) ?_ (ix2 (0 : Fin 1) d) ?_ ?_
  · fin_cases i <;> rfl
  · fin_cases i
    · exact pre4 0
    · exact pre4 1
    · exact pre4 2
    · exact pre4 3
  · intro b hb
    match b with
    | ⟨0, _⟩ => rfl
    | ⟨1, _⟩ => exact absurd rfl hb
  · show i.val * 16777216 + d.val = p.val
    omega

/-- The reshaped matrix of 4 rows: row `i` at column `d` is argument `i` at `d`. -/
theorem rows4_apply (a0 a1 a2 a3 : FVec F S1x16777216 .f32) (i : Fin 4) (d : Fin 16777216) :
    rows4 a0 a1 a2 a3 (ix3 (0 : Fin 1) i d) = arg4 a0 a1 a2 a3 i (ix2 (0 : Fin 1) d) := by
  unfold rows4
  have hlt : i.val * 16777216 + d.val < 67108864 := by have := i.isLt; have := d.isLt; omega
  refine (shapeCast_apply _ _ (ix3 (0 : Fin 1) i d) (ix2 (0 : Fin 1) ⟨i.val * 16777216 + d.val, hlt⟩) ?_).trans
    (cat4_apply a0 a1 a2 a3 i d _ rfl)
  rw [Shape.rowMajor_val_two, Shape.rowMajor_val_three]
  show (0 : Nat) * 67108864 + (i.val * 16777216 + d.val) = ((0 : Nat) * 4 + i.val) * 16777216 + d.val
  omega

/-! ## The Gram matrix -/

/-- Entry (a, b) of the Gram matrix: the sum over all positions of row `a` times row `b`. At the ideal values. -/
theorem gram_apply (a0 a1 a2 a3 : FVec Ideal S1x16777216 .f32) (a b : Fin 4) :
    gram (F := Ideal) a0 a1 a2 a3 (ix3 (0 : Fin 1) a b)
      = ∑ d : Fin 16777216, arg4 a0 a1 a2 a3 a (ix2 (0 : Fin 1) d) * arg4 a0 a1 a2 a3 b (ix2 (0 : Fin 1) d) := by
  unfold gram
  have hR : ∀ (i : Fin 4) (d : Fin 16777216),
      rows4 (F := Ideal) a0 a1 a2 a3 (ix3 (0 : Fin 1) i d) = arg4 a0 a1 a2 a3 i (ix2 (0 : Fin 1) d) := rows4_apply a0 a1 a2 a3
  generalize rows4 (F := Ideal) a0 a1 a2 a3 = R at hR ⊢
  refine (dotGeneral_lastAxes_apply dot_S1x4x16777216_S1x4x16777216_S1x4x4_2_2_1_1_0_0_wf none R R (0 : Fin 1) a b).trans ?_
  exact Finset.sum_congr rfl fun c _ => by rw [hR, hR]

end Cert.ReferenceIdeal.RefValue

end
-- ==== Proof.RefGather.lean ====
/-
  The six picked entries. The table of index pairs is literal, so for each of the six result positions the operand
  index the gather reads computes: position `q` reads the Gram matrix at (`rowOf q`, `colOf q`), the pairs
  (1,0), (2,0), (2,1), (3,0), (3,1), (3,2). Every start index is inside the matrix, so the clamp changes nothing.
-/
import proofs.«111721_j70781061038447_2_alg».proof.Proof.RefRun
import Idealize.ShloMosaic.Lib.ValueIdx

noncomputable section

namespace Cert.ReferenceIdeal.RefValue

open Cert.ReferenceIdeal Idealize.ShloMosaic Idealize.ShloMosaic.ValueIdx

variable {F : FTy → Type} [FloatOps F] [Facts]
open Facts₀

/-- The row of the `q`-th pair of the strict lower triangle, row by row: 1, 2, 2, 3, 3, 3. -/
def rowOf : Fin 6 → Fin 4 | 0 => 1 | 1 => 2 | 2 => 2 | 3 => 3 | 4 => 3 | 5 => 3
/-- The column of the `q`-th pair: 0, 0, 1, 0, 1, 2. -/
def colOf : Fin 6 → Fin 4 | 0 => 0 | 1 => 0 | 2 => 1 | 3 => 0 | 4 => 1 | 5 => 2

/-- The operand index the gather reads at result position `q`: (0, `rowOf q`, `colOf q`). -/
theorem operandIdx_pair (q : Fin 6) :
    gather_S1x4x4_S6x2_S1x6_0_12_n_n_12_1_111.operandIdx (ix2 (0 : Fin 1) q) (pairIdx (F := F))
      = ix3 (0 : Fin 1) (rowOf q) (colOf q) := by
  funext a; apply Fin.ext
  fin_cases q <;> (match a with | ⟨0, _⟩ => rfl | ⟨1, _⟩ => rfl | ⟨2, _⟩ => rfl)

/-- The `q`-th picked entry is the Gram matrix at (`rowOf q`, `colOf q`). -/
theorem picked_apply (a0 a1 a2 a3 : FVec F S1x16777216 .f32) (q : Fin 6) :
    picked a0 a1 a2 a3 (ix2 (0 : Fin 1) q) = gram a0 a1 a2 a3 (ix3 (0 : Fin 1) (rowOf q) (colOf q)) := by
  unfold picked Host.gather
  exact congrArg (gram a0 a1 a2 a3) (operandIdx_pair q)

end Cert.ReferenceIdeal.RefValue

end
-- ==== Proof.RefValue.lean ====
/-
  The reference computes the common specification. The run's result term `res` of the four argument rows is
  `PairDots.result` of them, index by index: a position below 16777216 falls in the first piece of the last
  concatenation and reads the first row there; position `16777216 + q` falls in the second piece and reads the `q`-th
  picked Gram entry, the sum over all positions of row `rowOf q` times row `colOf q`, which is the `q`-th pairwise
  product with its two factors exchanged (multiplication of extended reals is commutative).
-/
import proofs.«111721_j70781061038447_2_alg».proof.Proof.RefGram
import proofs.«111721_j70781061038447_2_alg».proof.Proof.RefGather
import proofs.«111721_j70781061038447_2_alg».proof.Proof.DotSpec

noncomputable section

namespace Cert.ReferenceIdeal.RefValue

open Cert.ReferenceIdeal Idealize.ShloMosaic Idealize.ShloMosaic.TcCoe Idealize.SL.Sem Idealize.ShloMosaic.ValueIdx
open scoped BigOperators

variable [Facts]

/-- Exchanging the two factors under a sum over positions: multiplication of extended reals is commutative. -/
theorem sum_mul_comm {n : Nat} (f g : Fin n → EReal) : ∑ d, f d * g d = ∑ d, g d * f d :=
  Finset.sum_congr rfl fun d _ => mul_comm _ _

/-- The `q`-th picked entry is the `q`-th pairwise product: the Gram entry at (`rowOf q`, `colOf q`) multiplies the
    later row by the earlier one, the pairwise product the earlier by the later. -/
theorem picked_eq_pair (x l0 l1 l2 : FVec Ideal S1x16777216 .f32) (q : Fin 6) :
    picked (F := Ideal) x l0 l1 l2 (ix2 (0 : Fin 1) q) = PairDots.pair x l0 l1 l2 q := by
  refine (picked_apply x l0 l1 l2 q).trans ((gram_apply x l0 l1 l2 (rowOf q) (colOf q)).trans ?_)
  match q with
  | ⟨0, _⟩ => exact sum_mul_comm (fun d => l0 (ix2 (0 : Fin 1) d)) (fun d => x (ix2 (0 : Fin 1) d))
  | ⟨1, _⟩ => exact sum_mul_comm (fun d => l1 (ix2 (0 : Fin 1) d)) (fun d => x (ix2 (0 : Fin 1) d))
  | ⟨2, _⟩ => exact sum_mul_comm (fun d => l1 (ix2 (0 : Fin 1) d)) (fun d => l0 (ix2 (0 : Fin 1) d))
  | ⟨3, _⟩ => exact sum_mul_comm (fun d => l2 (ix2 (0 : Fin 1) d)) (fun d => x (ix2 (0 : Fin 1) d))
  | ⟨4, _⟩ => exact sum_mul_comm (fun d => l2 (ix2 (0 : Fin 1) d)) (fun d => l0 (ix2 (0 : Fin 1) d))
  | ⟨5, _⟩ => exact sum_mul_comm (fun d => l2 (ix2 (0 : Fin 1) d)) (fun d => l1 (ix2 (0 : Fin 1) d))

/-- The run's result term is the specification's result row. -/
theorem res_eq_result (x l0 l1 l2 : FVec Ideal S1x16777216 .f32) :
    res (F := Ideal) x l0 l1 l2 = PairDots.result x l0 l1 l2 := by
  funext j
  obtain ⟨u, p, rfl⟩ : ∃ (u : Fin 1) (p : Fin 16777222), j = ix2 u p := ⟨j 0, j 1, eq_ix2 j⟩
  obtain rfl : u = 0 := Subsingleton.elim _ _
  by_cases h : p.val < 16777216
  · refine Eq.trans ?_ (PairDots.result_left x l0 l1 l2 (ix2 (0 : Fin 1) p) h).symm
    unfold res
    exact concatenate_pair_apply_left (t := S1x16777222) (s₁ := S1x16777216) (s₂ := S1x6) (1 : Fin 2) _ _ _
      (ix2 (0 : Fin 1) p) rfl (ix2 (0 : Fin 1) (⟨p.val, h⟩ : Fin 16777216))
      (fun b => match b with | ⟨0, _⟩ => rfl | ⟨1, _⟩ => rfl)
  · obtain ⟨q, hqp⟩ : ∃ q : Fin 6, q.val + 16777216 = p.val :=
      ⟨⟨p.val - 16777216, by have := p.isLt; omega⟩, by show (p.val - 16777216) + 16777216 = p.val; omega⟩
    refine Eq.trans ?_ (PairDots.result_right x l0 l1 l2 (ix2 (0 : Fin 1) p) q
      (by show p.val = 16777216 + q.val; omega)).symm
    refine Eq.trans ?_ (picked_eq_pair x l0 l1 l2 q)
    unfold res
    exact concatenate_pair_apply_right (t := S1x16777222) (s₁ := S1x16777216) (s₂ := S1x6) (1 : Fin 2) _ _ _
      (ix2 (0 : Fin 1) p) rfl rfl (ix2 (0 : Fin 1) q)
      (by
        intro b hb
        match b with
        | ⟨0, _⟩ => rfl
        | ⟨1, _⟩ => exact absurd rfl hb)
      hqp

/-- On every device, at the ideal values, from any memory with zero counters: every weakly fair execution of the
    reference terminates with its result buffer at the specification's result row of the four argument rows, and
    the arguments unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = PairDots.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (res_eq_result _ _ _ _), (h c).2⟩) (run m ρ)

end Cert.ReferenceIdeal.RefValue

end
-- ==== Proof.lean ====
/-
  A kernel that computes, for four rows x, l0, l1, l2 of length 16777216, the six pairwise dot products
  x·l0, x·l1, l0·l1, x·l2, l0·l2, l1·l2 and lays them after x, against a reference that stacks the rows into a
  [1, 4, 16777216] array, forms the 4 × 4 Gram matrix by one contraction, and gathers its strict lower triangle.

  The kernel views each row as [131072, 128] and walks a grid of 2 × 8 points, one block of 8192 rows per point; at a
  point an eight-trip loop adds up, for each pair, the products over sub-blocks of 1024 rows, and six one-entry
  accumulators carry the totals across a core's eight points (reset at the first, spread over the output block's
  lanes at the last); host lines then add the two cores' partial sums. Over the extended reals addition and
  multiplication are commutative and associative and zero is neutral, so the partial sums regroup into the one sum
  over all 16777216 positions and each product may be read in either order: both programs end with the same array
  (`PairDots.result`). No finiteness of the inputs is used.

  The three frames: the two kernel programs run to their end without fault and leave the argument arrays unchanged
  (the body run once per kind of grid point, the invariant carrying the accumulators between points); the reference is
  a straight line of host operations. The idealization rewrote nothing, so it preserves the kernel trivially.
-/
import proofs.«111721_j70781061038447_2_alg».proof.Defs
import proofs.«111721_j70781061038447_2_alg».proof.Proof.KbFrame
import proofs.«111721_j70781061038447_2_alg».proof.Proof.KiRun
import proofs.«111721_j70781061038447_2_alg».proof.Proof.RefValue
import proofs.«111721_j70781061038447_2_alg».proof.Proof.Gen.ReferenceIdeal
import proofs.«111721_j70781061038447_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs to its end and leaves its arguments unchanged. -/
theorem frame_k : Cert.frame_Kernel := fun m ρ _ => Cert.Kernel.Frm.frame (F := Bits) m ρ

/-- So does its reading over the extended reals. -/
theorem frame_ki : Cert.frame_KernelIdeal := fun m ρ _ => Cert.KernelIdeal.Frm.frame (F := Ideal) m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.RefValue.run_result m ρ)

/-- The idealization rewrote no operation. -/
theorem preserves : Cert.preserves_Kernel_KernelIdeal := trivial

/-- From memories agreeing on the four rows both programs end with the row `x` followed by the six pairwise dot
    products: the kernel's blockwise accumulation and the reference's Gram matrix are the same sums. -/
theorem algebraic : Cert.algebraic_KernelIdeal_ReferenceIdeal := by
  intro m ρ m' ρ' _ hagree
  refine ⟨fun c => PairDots.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run_result m ρ, ?_⟩
  refine (θ_run Cert.ReferenceIdeal.defs _ _).mono (fun _ h c => ⟨?_, (h c).2⟩)
    (Cert.ReferenceIdeal.RefValue.run_result m' ρ')
  rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
